-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x768 : Shape := ⟨3, ![4, 8192, 768]⟩
abbrev S2x768 : Shape := ⟨2, ![2, 768]⟩
abbrev S8194x768 : Shape := ⟨2, ![8194, 768]⟩
abbrev S768 : Shape := ⟨1, ![768]⟩
abbrev S_ : Shape := ⟨0, ![]⟩

class Facts : Prop where
  bcast_S_S4x8192x768 : S_.BroadcastsInDim S4x8192x768 (![] : Fin 0 → Fin S4x8192x768.rank)
  reducesTo_S4x8192x768_S_d0_1_2 : S4x8192x768.ReducesTo [0, 1, 2] S_
  h_S_ : 0 < S_.numel
  bcast_S_S2x768 : S_.BroadcastsInDim S2x768 (![] : Fin 0 → Fin S2x768.rank)
  reducesTo_S2x768_S_d0_1 : S2x768.ReducesTo [0, 1] S_
  bcast_S_S8194x768 : S_.BroadcastsInDim S8194x768 (![] : Fin 0 → Fin S8194x768.rank)
  reducesTo_S8194x768_S_d0_1 : S8194x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  main_v23

def fn {F : FTy → Type} [FloatOps F] (main_arg0 : FVec F S4x8192x768 .f32) (main_arg1 : FVec F S2x768 .f32) (main_arg2 : FVec F S8194x768 .f32) (main_arg3 : FVec F S768 .f32) (main_arg4 : FVec F S768 .f32) : IVec S_ 1 :=
  let main_v0 : FVec F S4x8192x768 .f32 := Host.absf main_arg0
  let main_cst : FVec F S_ .f32 := constant S_ .f32 0x7F800000#32
  let main_v1 : FVec F S4x8192x768 .f32 := broadcastInDim S4x8192x768 ![] bcast_S_S4x8192x768 main_cst
  let main_v2 : IVec S4x8192x768 1 := cmpf .olt main_v0 main_v1
  let main_c : IVec S_ 1 := constantI S_ 1 1#1
  let main_v3 : IVec S_ 1 := (fun x v => Host.reduce IntOp.andi x v reducesTo_S4x8192x768_S_d0_1_2 h_S_) main_v2 main_c
  let main_v4 : FVec F S2x768 .f32 := Host.absf main_arg1
  let main_cst_0 : FVec F S_ .f32 := constant S_ .f32 0x7F800000#32
  let main_v5 : FVec F S2x768 .f32 := broadcastInDim S2x768 ![] bcast_S_S2x768 main_cst_0
  let main_v6 : IVec S2x768 1 := cmpf .olt main_v4 main_v5
  let main_c_1 : IVec S_ 1 := constantI S_ 1 1#1
  let main_v7 : IVec S_ 1 := (fun x v => Host.reduce IntOp.andi x v reducesTo_S2x768_S_d0_1 h_S_) main_v6 main_c_1
  let main_v8 : IVec S_ 1 := andi main_v3 main_v7
  let main_v9 : FVec F S8194x768 .f32 := Host.absf main_arg2
  let main_cst_2 : FVec F S_ .f32 := constant S_ .f32 0x7F800000#32
  let main_v10 : FVec F S8194x768 .f32 := broadcastInDim S8194x768 ![] bcast_S_S8194x768 main_cst_2
  let main_v11 : IVec S8194x768 1 := cmpf .olt main_v9 main_v10
  let main_c_3 : IVec S_ 1 := constantI S_ 1 1#1
  let main_v12 : IVec S_ 1 := (fun x v => Host.reduce IntOp.andi x v reducesTo_S8194x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg4 main_v13 main_v16
-- ==== Kernel.lean ====
abbrev S4x8192x768 : Shape := ⟨3, ![4, 8192, 768]⟩
abbrev S2x768 : Shape := ⟨2, ![2, 768]⟩
abbrev S8194x768 : Shape := ⟨2, ![8194, 768]⟩
abbrev S768 : Shape := ⟨1, ![768]⟩
abbrev S1x768 : Shape := ⟨2, ![1, 768]⟩
abbrev S4x512x768 : Shape := ⟨3, ![4, 512, 768]⟩
abbrev S512x768 : Shape := ⟨2, ![512, 768]⟩
abbrev S8x768 : Shape := ⟨2, ![8, 768]⟩
abbrev S510x768 : Shape := ⟨2, ![510, 768]⟩
abbrev S1x512x768 : Shape := ⟨3, ![1, 512, 768]⟩
abbrev S512 : Shape := ⟨1, ![512]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S4x8192x768, .f32⟩
  | .hbm, ⟨1, _⟩ => ⟨S2x768, .f32⟩
  | .hbm, ⟨2, _⟩ => ⟨S8194x768, .f32⟩
  | .hbm, ⟨3, _⟩ => ⟨S768, .f32⟩
  | .hbm, ⟨4, _⟩ => ⟨S768, .f32⟩
  | .hbm, ⟨5, _⟩ => ⟨S1x768, .f32⟩
  | .hbm, ⟨6, _⟩ => ⟨S1x768, .f32⟩
  | .hbm, ⟨7, _⟩ => ⟨S4x8192x768, .f32⟩
  | .local _ .vmem, ⟨0, _⟩ => ⟨S4x512x768, .f32⟩
  | .local _ .vmem, ⟨1, _⟩ => ⟨S4x512x768, .f32⟩
  | .local _ .vmem, ⟨2, _⟩ => ⟨S512x768, .f32⟩
  | .local _ .vmem, ⟨3, _⟩ => ⟨S512x768, .f32⟩
  | .local _ .vmem, ⟨4, _⟩ => ⟨S8x768, .f32⟩
  | .local _ .vmem, ⟨5, _⟩ => ⟨S8x768, .f32⟩
  | .local _ .vmem, ⟨6, _⟩ => ⟨S2x768, .f32⟩
  | .local _ .vmem, ⟨7, _⟩ => ⟨S1x768, .f32⟩
  | .local _ .vmem, ⟨8, _⟩ => ⟨S1x768, .f32⟩
  | .local _ .vmem, ⟨9, _⟩ => ⟨S4x512x768, .f32⟩
  | .local _ .vmem, ⟨10, _⟩ => ⟨S4x512x768, .f32⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli c64_i32 v0
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S768_S1x768 : S768.ShapeCasts S1x768
  inb_S512x768_S510x768_2_0 : ∀ a, (![2, 0] : Fin 2 → Nat) a + S510x768.size a ≤ S512x768.size a
  h_S510x768 : 0 < S510x768.numel
  inb_S8x768_S2x768_0_0 : ∀ a, (![0, 0] : Fin 2 → Nat) a + S2x768.size a ≤ S8x768.size a
  h_S2x768 : 0 < S2x768.numel
  concatenates_S510x768_S2x768_S512x768_d0 : Shape.Concatenates [S510x768, S2x768] S512x768 0
  inb_S2x768_S1x768_0_0 : ∀ a, (![0, 0] : Fin 2 → Nat) a + S1x768.size a ≤ S2x768.size a
  h_S1x768 : 0 < S1x768.numel
  broadcasts_S1x768_S512x768 : S1x768.Broadcasts S512x768
  inb_S4x512x768_S1x512x768_0_0_0 : ∀ a, (![0, 0, 0] : Fin 3 → Nat) a + S1x512x768.size a ≤ S4x512x768.size a
  h_S1x512x768 : 0 < S1x512x768.numel
  shapeCasts_S1x512x768_S512x768 : S1x512x768.ShapeCasts S512x768
  reduces_S512x768_S512 : S512x768.Reduces [1] S512
  shapeCasts_S512_S512x1 : S512.ShapeCasts S512x1
  broadcasts_S512x1_S512x768 : S512x1.Broadcasts S512x768
  inb_S1x768_S1x768_0_0 : ∀ a, (![0, 0] : Fin 2 → Nat) a + S1x768.size a ≤ S1x768.size a
  shapeCasts_S1x768_S1x768 : S1x768.ShapeCasts S1x768
  shapeCasts_S512x768_S1x512x768 : S512x768.ShapeCasts S1x512x768
  inb_S4x512x768_S1x512x768_1_0_0 : ∀ a, (![1, 0, 0] : Fin 3 → Nat) a + S1x512x768.size a ≤ S4x512x768.size a
  inb_S4x512x768_S1x512x768_2_0_0 : ∀ a, (![2, 0, 0] : Fin 3 → Nat) a + S1x512x768.size a ≤ S4x512x768.size a
  inb_S4x512x768_S1x512x768_3_0_0 : ∀ a, (![3, 0, 0] : Fin 3 → Nat) a + S1x512x768.size a ≤ S4x512x768.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x768.size a ≤ S4x8192x768.size a
  hwx0_0 : ∀ i : grid0.Coords, EltTy.bits .f32 = 32 ∨ (Rect.block (s := S4x8192x768) S4x512x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S512x768.size a < S8194x768.size a
  hwx0_1 : ∀ i : grid0.Coords, EltTy.bits .f32 = 32 ∨ (Rect.unit (s := S8194x768) (fun a => cc0_transform_1 i a * S512x768.size a) (fun a => (Pipeline.Clip.of (cc0_transform_1 i a) (S512x768.size a) (S8194x768.size a)).extent (S512x768.size a)) fun a => Pipeline.Clip.inb (Pipeline.Clip.ok_of (hstart0_1 i a))).WholeWords (EltTy.packing .f32)
  hwxs0_1 : ∀ i : grid0.Coords, EltTy.bits .f32 = 32 ∨ (Rect.unit (s := S512x768) (fun _ => 0) (fun a => (Pipeline.Clip.of (cc0_transform_1 i a) (S512x768.size a) (S8194x768.size a)).extent (S512x768.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S8x768.size a < S8194x768.size a
  hwx0_2 : ∀ i : grid0.Coords, EltTy.bits .f32 = 32 ∨ (Rect.unit (s := S8194x768) (fun a => cc0_transform_2 i a * S8x768.size a) (fun a => (Pipeline.Clip.of (cc0_transform_2 i a) (S8x768.size a) (S8194x768.size a)).extent (S8x768.size a)) fun a => Pipeline.Clip.inb (Pipeline.Clip.ok_of (hstart0_2 i a))).WholeWords (EltTy.packing .f32)
  hwxs0_2 : ∀ i : grid0.Coords, EltTy.bits .f32 = 32 ∨ (Rect.unit (s := S8x768) (fun _ => 0) (fun a => (Pipeline.Clip.of (cc0_transform_2 i a) (S8x768.size a) (S8194x768.size a)).extent (S8x768.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x768.size a ≤ S2x768.size a
  hwx0_3 : ∀ i : grid0.Coords, EltTy.bits .f32 = 32 ∨ (Rect.block (s := S2x768) S2x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x768.size a ≤ S1x768.size a
  hwx0_5 : ∀ i : grid0.Coords, EltTy.bits .f32 = 32 ∨ (Rect.block (s := S1x768) S1x768.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x512x768.size a ≤ S4x8192x768.size a
  hwx0_6 : ∀ i : grid0.Coords, EltTy.bits .f32 = 32 ∨ (Rect.block (s := S4x8192x768) S4x512x768.size (cc0_transform_6 i) (hinb0_6 i)).WholeWords (EltTy.packing .f32)

variable [Facts₀]

abbrev win0_0 : Pipeline.Window sig grid0 :=
  Pipeline.Window.ofSpec (Memref.whole main_arg0) S4x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_arg2) S512x768.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg2) S8x768.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_arg1) S2x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S4x512x768.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x8192x768 : Shape := ⟨3, ![4, 8192, 768]⟩
abbrev S2x768 : Shape := ⟨2, ![2, 768]⟩
abbrev S8194x768 : Shape := ⟨2, ![8194, 768]⟩
abbrev S768 : Shape := ⟨1, ![768]⟩
abbrev S8192 : Shape := ⟨1, ![8192]⟩
abbrev S_ : Shape := ⟨0, ![]⟩
abbrev S1x8192 : Shape := ⟨2, ![1, 8192]⟩
abbrev S4x8192 : Shape := ⟨2, ![4, 8192]⟩
abbrev S4x8192x1 : Shape := ⟨3, ![4, 8192, 1]⟩
abbrev S1 : Shape := ⟨1, ![1]⟩
abbrev S1x1x1 : Shape := ⟨3, ![1, 1, 1]⟩
abbrev S1x1x768 : Shape := ⟨3, ![1, 1, 768]⟩

abbrev nBuf : Space → Nat
  | .hbm => 90
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S2x768, .f32⟩
  | .hbm, ⟨2, _⟩ => ⟨S8194x768, .f32⟩
  | .hbm, ⟨3, _⟩ => ⟨S768, .f32⟩
  | .hbm, ⟨4, _⟩ => ⟨S768, .f32⟩
  | .hbm, ⟨5, _⟩ => ⟨S8192, .i32⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S1x8192, .i32⟩
  | .hbm, ⟨10, _⟩ => ⟨S4x8192, .i32⟩
  | .hbm, ⟨11, _⟩ => ⟨S_, .i32⟩
  | .hbm, ⟨12, _⟩ => ⟨S4x8192, .i32⟩
  | .hbm, ⟨13, _⟩ => ⟨S_, .i32⟩
  | .hbm, ⟨14, _⟩ => ⟨S4x8192, .i32⟩
  | .hbm, ⟨15, _⟩ => ⟨S4x8192, .i1⟩
  | .hbm, ⟨16, _⟩ => ⟨S_, .i32⟩
  | .hbm, ⟨17, _⟩ => ⟨S4x8192, .i32⟩
  | .hbm, ⟨18, _⟩ => ⟨S4x8192, .i32⟩
  | .hbm, ⟨19, _⟩ => ⟨S4x8192, .i32⟩
  | .hbm, ⟨20, _⟩ => ⟨S4x8192x1, .i32⟩
  | .hbm, ⟨21, _⟩ => ⟨S1, .i32⟩
  | .hbm, ⟨22, _⟩ => ⟨S_, .i32⟩
  | .hbm, ⟨23, _⟩ => ⟨S4x8192x1, .i32⟩
  | .hbm, ⟨24, _⟩ => ⟨S4x8192x1, .i1⟩
  | .hbm, ⟨25, _⟩ => ⟨S1x1x1, .i32⟩
  | .hbm, ⟨26, _⟩ => ⟨S4x8192x1, .i32⟩
  | .hbm, ⟨27, _⟩ => ⟨S4x8192x1, .i1⟩
  | .hbm, ⟨28, _⟩ => ⟨S4x8192x1, .i1⟩
  | .hbm, ⟨29, _⟩ => ⟨S_, .i1⟩
  | .hbm, ⟨30, _⟩ => ⟨S4x8192, .i1⟩
  | .hbm, ⟨31, _⟩ => ⟨S4x8192x768, .f32⟩
  | .hbm, ⟨32, _⟩ => ⟨S4x8192x768, .i1⟩
  | .hbm, ⟨33, _⟩ => ⟨S_, .f32⟩
  | .hbm, ⟨34, _⟩ => ⟨S4x8192x768, .f32⟩
  | .hbm, ⟨35, _⟩ => ⟨S4x8192x768, .f32⟩
  | .hbm, ⟨36, _⟩ => ⟨S4x8192x768, .f32⟩
  | .hbm, ⟨37, _⟩ => ⟨S_, .i32⟩
  | .hbm, ⟨38, _⟩ => ⟨S4x8192, .i32⟩
  | .hbm, ⟨39, _⟩ => ⟨S4x8192, .i1⟩
  | .hbm, ⟨40, _⟩ => ⟨S_, .i32⟩
  | .hbm, ⟨41, _⟩ => ⟨S4x8192, .i32⟩
  | .hbm, ⟨42, _⟩ => ⟨S4x8192, .i32⟩
  | .hbm, ⟨43, _⟩ => ⟨S4x8192, .i32⟩
  | .hbm, ⟨44, _⟩ => ⟨S4x8192x1, .i32⟩
  | .hbm, ⟨45, _⟩ => ⟨S1, .i32⟩
  | .hbm, ⟨46, _⟩ => ⟨S_, .i32⟩
  | .hbm, ⟨47, _⟩ => ⟨S4x8192x1, .i32⟩
  | .hbm, ⟨48, _⟩ => ⟨S4x8192x1, .i1⟩
  | .hbm, ⟨49, _⟩ => ⟨S1x1x1, .i32⟩
  | .hbm, ⟨50, _⟩ => ⟨S4x8192x1, .i32⟩
  | .hbm, ⟨51, _⟩ => ⟨S4x8192x1, .i1⟩
  | .hbm, ⟨52, _⟩ => ⟨S4x8192x1, .i1⟩
  | .hbm, ⟨53, _⟩ => ⟨S_, .i1⟩
  | .hbm, ⟨54, _⟩ => ⟨S4x8192, .i1⟩
  | .hbm, ⟨55, _⟩ => ⟨S4x8192x768, .f32⟩
  | .hbm, ⟨56, _⟩ => ⟨S4x8192x768, .i1⟩
  | .hbm, ⟨57, _⟩ => ⟨S_, .f32⟩
  | .hbm, ⟨58, _⟩ => ⟨S4x8192x768, .f32⟩
  | .hbm, ⟨59, _⟩ => ⟨S4x8192x768, .f32⟩
  | .hbm, ⟨60, _⟩ => ⟨S4x8192x768, .f32⟩
  | .hbm, ⟨61, _⟩ => ⟨S_, .f32⟩
  | .hbm, ⟨62, _⟩ => ⟨S4x8192, .f32⟩
  | .hbm, ⟨63, _⟩ => ⟨S4x8192x1, .f32⟩
  | .hbm, ⟨64, _⟩ => ⟨S_, .f32⟩
  | .hbm, ⟨65, _⟩ => ⟨S4x8192x1, .f32⟩
  | .hbm, ⟨66, _⟩ => ⟨S4x8192x1, .f32⟩
  | .hbm, ⟨67, _⟩ => ⟨S4x8192x768, .f32⟩
  | .hbm, ⟨68, _⟩ => ⟨S4x8192x768, .f32⟩
  | .hbm, ⟨69, _⟩ => ⟨S4x8192x768, .f32⟩
  | .hbm, ⟨70, _⟩ => ⟨S_, .f32⟩
  | .hbm, ⟨71, _⟩ => ⟨S4x8192, .f32⟩
  | .hbm, ⟨72, _⟩ => ⟨S4x8192x1, .f32⟩
  | .hbm, ⟨73, _⟩ => ⟨S_, .f32⟩
  | .hbm, ⟨74, _⟩ => ⟨S4x8192x1, .f32⟩
  | .hbm, ⟨75, _⟩ => ⟨S4x8192x1, .f32⟩
  | .hbm, ⟨76, _⟩ => ⟨S4x8192x768, .f32⟩
  | .hbm, ⟨77, _⟩ => ⟨S4x8192x768, .f32⟩
  | .hbm, ⟨78, _⟩ => ⟨S_, .f32⟩
  | .hbm, ⟨79, _⟩ => ⟨S4x8192x1, .f32⟩
  | .hbm, ⟨80, _⟩ => ⟨S4x8192x1, .f32⟩
  | .hbm, ⟨81, _⟩ => ⟨S4x8192x1, .f32⟩
  | .hbm, ⟨82, _⟩ => ⟨S4x8192x768, .f32⟩
  | .hbm, ⟨83, _⟩ => ⟨S4x8192x768, .f32⟩
  | .hbm, ⟨84, _⟩ => ⟨S1x1x768, .f32⟩
  | .hbm, ⟨85, _⟩ => ⟨S4x8192x768, .f32⟩
  | .hbm, ⟨86, _⟩ => ⟨S4x8192x768, .f32⟩
  | .hbm, ⟨87, _⟩ => ⟨S1x1x768, .f32⟩
  | .hbm, ⟨88, _⟩ => ⟨S4x8192x768, .f32⟩
  | .hbm, ⟨89, _⟩ => ⟨S4x8192x768, .f32⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v6 : Ref sig .tc := ⟨.hbm, 35, rfl⟩
abbrev main_v7 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_cst : Ref sig .tc := ⟨.hbm, 57, rfl⟩
abbrev main_call1_v15 : Ref sig .tc := ⟨.hbm, 58, rfl⟩
abbrev main_v8 : Ref sig .tc := ⟨.hbm, 59, rfl⟩
abbrev main_v9 : Ref sig .tc := ⟨.hbm, 60, rfl⟩
abbrev main_cst : Ref sig .tc := ⟨.hbm, 61, rfl⟩
abbrev main_v10 : Ref sig .tc := ⟨.hbm, 62, rfl⟩
abbrev main_v11 : Ref sig .tc := ⟨.hbm, 63, rfl⟩
abbrev main_cst_1 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_cst_2 : Ref sig .tc := ⟨.hbm, 70, rfl⟩
abbrev main_v17 : Ref sig .tc := ⟨.hbm, 71, rfl⟩
abbrev main_v18 : Ref sig .tc := ⟨.hbm, 72, rfl⟩
abbrev main_cst_3 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_cst_4 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S1x8192_1 : S8192.BroadcastsInDim S1x8192 (![1] : Fin 1 → Fin S1x8192.rank)
  bcast_S1x8192_S4x8192_0_1 : S1x8192.BroadcastsInDim S4x8192 (![0, 1] : Fin 2 → Fin S4x8192.rank)
  bcast_S_S4x8192 : S_.BroadcastsInDim S4x8192 (![] : Fin 0 → Fin S4x8192.rank)
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S1_S1x1x1_2 : S1.BroadcastsInDim S1x1x1 (![2] : Fin 1 → Fin S1x1x1.rank)
  bcast_S1x1x1_S4x8192x1_0_1_2 : S1x1x1.BroadcastsInDim S4x8192x1 (![0, 1, 2] : Fin 3 → Fin S4x8192x1.rank)
  reducesTo_S4x8192x1_S4x8192_d2 : S4x8192x1.ReducesTo [2] S4x8192
  h_S_ : 0 < S_.numel
  bcast_S4x8192_S4x8192x768_0_1 : S4x8192.BroadcastsInDim S4x8192x768 (![0, 1] : Fin 2 → Fin S4x8192x768.rank)
  bcast_S_S4x8192x768 : S_.BroadcastsInDim S4x8192x768 (![] : Fin 0 → Fin S4x8192x768.rank)
  reducesTo_S4x8192x768_S4x8192_d2 : S4x8192x768.ReducesTo [2] S4x8192
  bcast_S4x8192x1_S4x8192x768_0_1_2 : S4x8192x1.BroadcastsInDim S4x8192x768 (![0, 1, 2] : Fin 3 → Fin S4x8192x768.rank)
  bcast_S768_S1x1x768_2 : S768.BroadcastsInDim S1x1x768 (![2] : Fin 1 → Fin S1x1x768.rank)
  bcast_S1x1x768_S4x8192x768_0_1_2 : S1x1x768.BroadcastsInDim S4x8192x768 (![0, 1, 2] : Fin 3 → Fin S4x8192x768.rank)
  gather_S2x768_S4x8192x1_S4x8192x768_2_0_n_n_0_2_1768_wf : GatherDims.WF S2x768 S4x8192x1 S4x8192x768 [2] [0] [] [0] [] 2 ![1, 768]
  gather_S8194x768_S4x8192x1_S4x8192x768_2_0_n_n_0_2_1768_wf : GatherDims.WF S8194x768 S4x8192x1 S4x8192x768 [2] [0] [] [0] [] 2 ![1, 768]

variable [Facts₀]

def gather_S2x768_S4x8192x1_S4x8192x768_2_0_n_n_0_2_1768 : GatherDims S2x768 S4x8192x1 S4x8192x768 where
  offsetDims := [2]
  collapsedSliceDims := [0]
  operandBatchingDims := []
  startIndicesBatchingDims := []
  startIndexMap := [0]
  indexVectorDim := 2
  sliceSizes := ![1, 768]
  wf := gather_S2x768_S4x8192x1_S4x8192x768_2_0_n_n_0_2_1768_wf
def gather_S8194x768_S4x8192x1_S4x8192x768_2_0_n_n_0_2_1768 : GatherDims S8194x768 S4x8192x1 S4x8192x768 where
  offsetDims := [2]
  collapsedSliceDims := [0]
  operandBatchingDims := []
  startIndicesBatchingDims := []
  startIndexMap := [0]
  indexVectorDim := 2
  sliceSizes := ![1, 768]
  wf := gather_S8194x768_S4x8192x1_S4x8192x768_2_0_n_n_0_2_1768_wf

class Facts : Prop extends Facts₀ where

variable [Facts]
-- ==== Proof.KOutB.lean ====
/-
  What the kernel body leaves in its output block, as a function of the six input blocks (generic in the float
  instance). The body adds to each of the four batch slabs of the input block the bias (position rows 2‥511 of the
  first position block followed by rows 0‥1 of the second, plus row 0 of the token-type block), normalises the rows
  and stores the slab: four stores, one per batch slab, which tile the output block.
-/
import proofs.«128766_g41644002902592_cont_8to1_b_1119_19_alg».proof.Proof.Gen.Kernel.Skeleton
import Idealize.ShloMosaic.Lib.Pipeline.FrameBody
import Idealize.ShloMosaic.Lib.Pipeline.Value

set_option maxRecDepth 16384

noncomputable section

namespace Cert.Kernel.Hand

open Cert.Kernel Cert.Kernel.Gen
open Idealize.ShloMosaic Idealize.SL.Sem

variable {F : FTy → Type} [FloatOps F]

/-- Rows 2‥511 of the first position block. -/
abbrev rP : Rect S512x768 := Rect.unit (s := S512x768) ![2, 0] S510x768.size inb_S512x768_S510x768_2_0
/-- Rows 0‥1 of the second position block. -/
abbrev rQ : Rect S8x768 := Rect.unit (s := S8x768) ![0, 0] S2x768.size inb_S8x768_S2x768_0_0
/-- Row 0 of the token-type block. -/
abbrev rT : Rect S2x768 := Rect.unit (s := S2x768) ![0, 0] S1x768.size inb_S2x768_S1x768_0_0
/-- The whole scale (or shift) row. -/
abbrev rG : Rect S1x768 := Rect.unit (s := S1x768) ![0, 0] S1x768.size inb_S1x768_S1x768_0_0
/-- The four batch slabs of the input and of the output block. -/
abbrev rB0 : Rect S4x512x768 := Rect.unit (s := S4x512x768) ![0, 0, 0] S1x512x768.size inb_S4x512x768_S1x512x768_0_0_0
abbrev rB1 : Rect S4x512x768 := Rect.unit (s := S4x512x768) ![1, 0, 0] S1x512x768.size inb_S4x512x768_S1x512x768_1_0_0
abbrev rB2 : Rect S4x512x768 := Rect.unit (s := S4x512x768) ![2, 0, 0] S1x512x768.size inb_S4x512x768_S1x512x768_2_0_0
abbrev rB3 : Rect S4x512x768 := Rect.unit (s := S4x512x768) ![3, 0, 0] S1x512x768.size inb_S4x512x768_S1x512x768_3_0_0

/-- The bias the four slabs share: the shifted position rows plus the token-type row 0. -/
def bias (x1 : Vec F S512x768 .f32) (x2 : Vec F S8x768 .f32) (x3 : Vec F S2x768 .f32) : FVec F S512x768 .f32 :=
  k0_pay2 (View.ld x1 rP) (View.ld x2 rQ) (View.ld x3 rT)

/-- The four stored slabs. -/
def slab0 (x0 : Vec F S4x512x768 .f32) (x1 : Vec F S512x768 .f32) (x2 : Vec F S8x768 .f32) (x3 : Vec F S2x768 .f32)
    (x4 x5 : Vec F S1x768 .f32) : FVec F S1x512x768 .f32 :=
  k0_pay3 (View.ld x1 rP) (View.ld x2 rQ) (View.ld x3 rT) (View.ld x0 rB0) (View.ld x4 rG) (View.ld x5 rG)
def slab1 (x0 : Vec F S4x512x768 .f32) (x1 : Vec F S512x768 .f32) (x2 : Vec F S8x768 .f32) (x3 : Vec F S2x768 .f32)
    (x4 x5 : Vec F S1x768 .f32) : FVec F S1x512x768 .f32 :=
  k0_pay4 (bias x1 x2 x3) (View.ld x0 rB1) (View.ld x4 rG) (View.ld x5 rG)
def slab2 (x0 : Vec F S4x512x768 .f32) (x1 : Vec F S512x768 .f32) (x2 : Vec F S8x768 .f32) (x3 : Vec F S2x768 .f32)
    (x4 x5 : Vec F S1x768 .f32) : FVec F S1x512x768 .f32 :=
  k0_pay8 (k0_pay5 (bias x1 x2 x3) (View.ld x0 rB2)) (k0_pay6 (bias x1 x2 x3) (View.ld x0 rB2)) (k0_pay7 (F := F)) (View.ld x4 rG) (View.ld x5 rG)
def slab3 (x0 : Vec F S4x512x768 .f32) (x1 : Vec F S512x768 .f32) (x2 : Vec F S8x768 .f32) (x3 : Vec F S2x768 .f32)
    (x4 x5 : Vec F S1x768 .f32) : FVec F S1x512x768 .f32 :=
  k0_pay1 (k0_pay11 (bias x1 x2 x3) (View.ld x0 rB3)) (k0_pay12 (bias x1 x2 x3) (View.ld x0 rB3)) (View.ld x4 rG) (View.ld x5 rG)

/-- The output block after the body: its four stores as pieces, last first. -/
def out6 (x0 : Vec F S4x512x768 .f32) (x1 : Vec F S512x768 .f32) (x2 : Vec F S8x768 .f32) (x3 : Vec F S2x768 .f32)
    (x4 x5 : Vec F S1x768 .f32) : Vec F S4x512x768 .f32 :=
  View.canon [⟨rB3, slab3 x0 x1 x2 x3 x4 x5⟩, ⟨rB2, slab2 x0 x1 x2 x3 x4 x5⟩, ⟨rB1, slab1 x0 x1 x2 x3 x4 x5⟩, ⟨rB0, slab0 x0 x1 x2 x3 x4 x5⟩]

/-- The four slabs tile the block, so they cover it. -/
theorem cover6 (p3 p2 p1 p0 : FVec F S1x512x768 .f32) (y : S4x512x768.Idx) :
    ∃ pc ∈ ([⟨rB3, p3⟩, ⟨rB2, p2⟩, ⟨rB1, p1⟩, ⟨rB0, p0⟩] : List (View.Piece (Elt F) S4x512x768 .f32)), y ∈ pc.1.set :=
  View.cover_of_tiled ([⟨rB3, p3⟩, ⟨rB2, p2⟩, ⟨rB1, p1⟩, ⟨rB0, p0⟩] : List (View.Piece (Elt F) S4x512x768 .f32)) S1x512x768.size (by rfl) y

end Cert.Kernel.Hand

end
-- ==== Proof.KDataB.lean ====
/-
  The proof data of the kernel's one pipeline (generic in the float instance): the arrays as the region finds them
  after the two host reshapes, each input window's block at a grid point, and what the body leaves in each staging
  buffer. The two position windows read ONE array (the position table), the first in blocks of 512 rows and the
  second in blocks of 8 rows starting 512 rows further on; the table's 8194 rows are no multiple of either, so both
  are cut at the table's end: the first is in fact never cut (its sixteen blocks end at row 8192), the second is cut
  to two rows at the last point, and the body reads exactly those two rows.
-/
import proofs.«128766_g41644002902592_cont_8to1_b_1119_19_alg».proof.Proof.KOutB
import proofs.«128766_g41644002902592_cont_8to1_b_1119_19_alg».proof.Proof.Gen.Kernel.Launch
import proofs.«128766_g41644002902592_cont_8to1_b_1119_19_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the two reshapes of the scale and the shift. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main up to the region: the two reshapes, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## The windows' blocks -/

/-- Window `w`'s block at point `t`, its part inside the array, read off the array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The same filled out to the staging buffer's shape with `d` past the array's end. -/
def fblk (c : Dev nD) (w : Fin cfg0.W) (t : Fin cfg0.N) (d : (cfg0.win w).block.Idx → Elt F (cfg0.win w).elt) :
    (cfg0.win w).block.Idx → Elt F (cfg0.win w).elt :=
  (cfg0.win w).fill (cfg0.grid.coords t) d (iblk m c w t)

/-- A filler nothing reads. -/
def zf (w : Fin cfg0.W) : (cfg0.win w).block.Idx → Elt F (cfg0.win w).elt := fun _ => Classical.arbitrary _

/-! ## The proof data -/

/-- The proof data of the one pipeline on core `c`: the arrays as the region finds them; after the body each input's
    buffer at its block (filled out with a filler nothing reads) and the output's at `out6` of those; the class's
    invariant; nothing owed; the position table's share dealt in halves to the two windows that read it. -/
def dats (_ : Fin 1) (c : Dev nD) : Dat τ (Elt F) Unit ℕ (UR sig nD τ) ℕ cfg0 c where
  A w := V m c (Pipeline.arrRef spec0 w)
  after w t := match w with
    | ⟨0, _⟩ => fblk m c 0 t (zf 0)
    | ⟨1, _⟩ => fblk m c 1 t (zf 1)
    | ⟨2, _⟩ => fblk m c 2 t (zf 2)
    | ⟨3, _⟩ => fblk m c 3 t (zf 3)
    | ⟨4, _⟩ => fblk m c 4 t (zf 4)
    | ⟨5, _⟩ => fblk m c 5 t (zf 5)
    | ⟨6, _⟩ => out6 (fblk m c 0 t (zf 0)) (fblk m c 1 t (zf 1)) (fblk m c 2 t (zf 2)) (fblk m c 3 t (zf 3)) (fblk m c 4 t (zf 4)) (fblk m c 5 t (zf 5))
  Φ _ := Pipeline.ΦA spec0 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = fblk m c 0 t (zf 0) := by dsimp only [dats]
theorem after0_1 (c : Dev nD) (t : Fin cfg0.N) : (dats m 0 c).after 1 t = fblk m c 1 t (zf 1) := by dsimp only [dats]
theorem after0_2 (c : Dev nD) (t : Fin cfg0.N) : (dats m 0 c).after 2 t = fblk m c 2 t (zf 2) := by dsimp only [dats]
theorem after0_3 (c : Dev nD) (t : Fin cfg0.N) : (dats m 0 c).after 3 t = fblk m c 3 t (zf 3) := by dsimp only [dats]
theorem after0_4 (c : Dev nD) (t : Fin cfg0.N) : (dats m 0 c).after 4 t = fblk m c 4 t (zf 4) := by dsimp only [dats]
theorem after0_5 (c : Dev nD) (t : Fin cfg0.N) : (dats m 0 c).after 5 t = fblk m c 5 t (zf 5) := by dsimp only [dats]
theorem after0_6 (c : Dev nD) (t : Fin cfg0.N) : (dats m 0 c).after 6 t
    = out6 (fblk m c 0 t (zf 0)) (fblk m c 1 t (zf 1)) (fblk m c 2 t (zf 2)) (fblk m c 3 t (zf 3)) (fblk m c 4 t (zf 4)) (fblk m c 5 t (zf 5)) := by
  dsimp only [dats]

/-- The block the library reads at a point is `iblk`. -/
theorem blockOf_eq (c : Dev nD) (w : Fin cfg0.W) (t : Fin cfg0.N) : (dats m 0 c).blockOf w t = iblk m c w t := by
  unfold Dat.blockOf iblk; rw [A_eq]

theorem fetched_eq (c : Dev nD) (w : Fin cfg0.W) (t : Fin cfg0.N) (d) : (dats m 0 c).fetched w t d = fblk m c w t d := by
  unfold Dat.fetched fblk; rw [blockOf_eq]

/-- Each input's current staging buffer holds its block at every point, fetched there or not, filled out with
    whatever the buffer held past the array's end. -/
theorem before0_0 (c : Dev nD) (t : Fin cfg0.N) (d) : (dats m 0 c).before 0 t d = fblk m c 0 t d :=
  ((dats m 0 c).before_in_eq_fetched 0 rfl (fun _ => rfl) (fun _ _ _ => rfl)
    (fun t => by rw [after0_0, blockOf_eq]; exact (cfg0.win 0).cut_fill _ _ _) t d).trans (fetched_eq m c 0 t d)
theorem before0_3 (c : Dev nD) (t : Fin cfg0.N) (d) : (dats m 0 c).before 3 t d = fblk m c 3 t d :=
  ((dats m 0 c).before_in_eq_fetched 3 rfl (fun _ => rfl) (fun _ _ _ => rfl)
    (fun t => by rw [after0_3, blockOf_eq]; exact (cfg0.win 3).cut_fill _ _ _) t d).trans (fetched_eq m c 3 t d)
theorem before0_4 (c : Dev nD) (t : Fin cfg0.N) (d) : (dats m 0 c).before 4 t d = fblk m c 4 t d :=
  ((dats m 0 c).before_in_eq_fetched 4 rfl (fun _ => rfl) (fun _ _ _ => rfl)
    (fun t => by rw [after0_4, blockOf_eq]; exact (cfg0.win 4).cut_fill _ _ _) t d).trans (fetched_eq m c 4 t d)
theorem before0_5 (c : Dev nD) (t : Fin cfg0.N) (d) : (dats m 0 c).before 5 t d = fblk m c 5 t d :=
  ((dats m 0 c).before_in_eq_fetched 5 rfl (fun _ => rfl) (fun _ _ _ => rfl)
    (fun t => by rw [after0_5, blockOf_eq]; exact (cfg0.win 5).cut_fill _ _ _) t d).trans (fetched_eq m c 5 t d)
/-- The two position windows are fetched at every point. -/
theorem before0_1 (c : Dev nD) (t : Fin cfg0.N) (d) : (dats m 0 c).before 1 t d = fblk m c 1 t d :=
  ((dats m 0 c).before_fetched 1 t (fetch0_1 t) d).trans (fetched_eq m c 1 t d)
theorem before0_2 (c : Dev nD) (t : Fin cfg0.N) (d) : (dats m 0 c).before 2 t d = fblk m c 2 t d :=
  ((dats m 0 c).before_fetched 2 t (fetch0_2 t) d).trans (fetched_eq m c 2 t d)
/-- The output's buffer is written back at every point: the body finds it at anything. -/
theorem before0_6 (c : Dev nD) (t : Fin cfg0.N) (d) : (dats m 0 c).before 6 t d = d :=
  (dats m 0 c).before_out_reset 6 rfl t (by
    by_cases h : t.val = 0
    · exact .inl h
    · exact .inr ⟨h, flush0_6 _⟩) d

end Cert.Kernel.Hand

end
-- ==== Proof.KBodyB.lean ====
/-
  The kernel body's triple, generic in the float instance: on whole staging memrefs, the six inputs' at contents
  x0‥x5 and the output's at anything, the body runs to the continuation holding the inputs' as they were and the
  output's at the four stored slabs as a function of the inputs (the canonical form of its four stores). The four
  loads of the output block that the body makes read values nothing uses, so they do not enter the result.
-/
import proofs.«128766_g41644002902592_cont_8to1_b_1119_19_alg».proof.Proof.KOutB
import proofs.«128766_g41644002902592_cont_8to1_b_1119_19_alg».proof.Proof.Gen.Kernel.Launch
import proofs.«128766_g41644002902592_cont_8to1_b_1119_19_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple: the printed functions are their skeletons, which are run statement by statement through every
    part; the output block then holds its four stores, which are the four slabs and tile it. -/
theorem sound_kernel (c : Dev nD) (E : Set ℕ) (i : grid0.Coords)
    (arg1 : Memref sig .tc .vmem S4x512x768 .f32) (harg1 : arg1.IsWhole) (arg2 : Memref sig .tc .vmem S512x768 .f32) (harg2 : arg2.IsWhole)
    (arg3 : Memref sig .tc .vmem S8x768 .f32) (harg3 : arg3.IsWhole) (arg4 : Memref sig .tc .vmem S2x768 .f32) (harg4 : arg4.IsWhole)
    (arg5 : Memref sig .tc .vmem S1x768 .f32) (harg5 : arg5.IsWhole) (arg6 : Memref sig .tc .vmem S1x768 .f32) (harg6 : arg6.IsWhole)
    (arg7 : Memref sig .tc .vmem S4x512x768 .f32) (harg7 : arg7.IsWhole)
    (x0 : Vec F S4x512x768 .f32) (x1 : Vec F S512x768 .f32) (x2 : Vec F S8x768 .f32) (x3 : Vec F S2x768 .f32) (x4 x5 : Vec F S1x768 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out6 x0 x1 x2 x3 x4 x5)) -∗ K ⟨⟩))
      ⊢ wp frame (wpE (defs₀ (F := F)) Variants.none c none) E
          (cc0__embed_ln_kernel i arg1 harg1 arg2 harg2 arg3 harg3 arg4 harg4 arg5 harg5 arg6 harg6 arg7 harg7) K := by
  simp only [cc0__embed_ln_kernel_eq_skeleton]; unfold cc0__embed_ln_kernel_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover6 _ _ _ _)

end Cert.Kernel.Hand

end
-- ==== Proof.KFrameB.lean ====
/-
  The frame of the kernel program (generic in the float instance): the body obligation at every grid point from the
  body's triple, the position table's full share dealt in halves to the two windows that read it, and the run of
  @main: every weakly fair execution terminates, faults nowhere, every array of the pipeline ends at what the
  write-backs computed and every other buffer as the region found it.
-/
import proofs.«128766_g41644002902592_cont_8to1_b_1119_19_alg».proof.Proof.KDataB
import proofs.«128766_g41644002902592_cont_8to1_b_1119_19_alg».proof.Proof.KBodyB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Fillers nothing reads -/

/-- Windows 0, 1, 3, 4, 5 are never cut: their fetch fills the whole staging buffer. -/
theorem clip0_0 (t : Fin cfg0.N) (a) : (cfg0.win 0).clip (cfg0.grid.coords t) a = none := rfl
theorem clip0_3 (t : Fin cfg0.N) (a) : (cfg0.win 3).clip (cfg0.grid.coords t) a = none := rfl
theorem clip0_4 (t : Fin cfg0.N) (a) : (cfg0.win 4).clip (cfg0.grid.coords t) a = none := rfl
theorem clip0_5 (t : Fin cfg0.N) (a) : (cfg0.win 5).clip (cfg0.grid.coords t) a = none := rfl
theorem clip0_1 : ∀ (t : Fin cfg0.N) (a), (cfg0.win 1).clip (cfg0.grid.coords t) a = none :=
  (by decide +kernel : ∀ (t : Fin grid0.N) (a), win0_1.clip (grid0.coords t) a = none)
/-- The second position window always moves at least its first two rows, whole. -/
theorem xsize0_2 : ∀ t : Fin cfg0.N, 2 ≤ (cfg0.win 2).xsize (cfg0.grid.coords t) 0 ∧ 768 ≤ (cfg0.win 2).xsize (cfg0.grid.coords t) 1 :=
  (by decide +kernel : ∀ t : Fin grid0.N, 2 ≤ win0_2.xsize (grid0.coords t) 0 ∧ 768 ≤ win0_2.xsize (grid0.coords t) 1)

theorem fblk_irrel (c : Dev nD) (w : Fin cfg0.W) (t : Fin cfg0.N) (h : ∀ a, (cfg0.win w).clip (cfg0.grid.coords t) a = none) (d d') :
    fblk m c w t d = fblk m c w t d' := by
  unfold fblk; exact Pipeline.fill_of_clip_none w _ h d d' _

/-- The body reads only rows 0‥1 of the second position block, which every fetch fills. -/
theorem ld_fblk2 (c : Dev nD) (t : Fin cfg0.N) (d d') :
    View.ld (fblk m c 2 t d) rQ = View.ld (fblk m c 2 t d') rQ := by
  funext y
  have hm : (cfg0.win 2).moved (cfg0.grid.coords t) (rQ.idx y) = true := by
    refine ((cfg0.win 2).moved_iff _ _).mpr fun a => ?_
    have h := xsize0_2 t
    match a with
    | ⟨0, h0⟩ =>
      have h1 : ((rQ.idx y) ⟨0, h0⟩).val = 0 + 1 * (y ⟨0, h0⟩).val := Rect.emb_apply _ _ _
      have h2 : (y ⟨0, h0⟩).val < 2 := (y ⟨0, h0⟩).isLt
      have h3 : ((rQ.idx y) ⟨0, h0⟩).val < 2 := by omega
      exact lt_of_lt_of_le h3 h.1
    | ⟨1, h0⟩ =>
      have h1 : ((rQ.idx y) ⟨1, h0⟩).val = 0 + 1 * (y ⟨1, h0⟩).val := Rect.emb_apply _ _ _
      have h2 : (y ⟨1, h0⟩).val < 768 := (y ⟨1, h0⟩).isLt
      have h3 : ((rQ.idx y) ⟨1, h0⟩).val < 768 := by omega
      exact lt_of_lt_of_le h3 h.2
  show fblk m c 2 t d (rQ.idx y) = fblk m c 2 t d' (rQ.idx y)
  unfold fblk Window.fill; rw [dif_pos hm, dif_pos hm]

theorem out6_congr2 (x0 : Vec F S4x512x768 .f32) (x1 : Vec F S512x768 .f32) (x2 x2' : Vec F S8x768 .f32) (x3 : Vec F S2x768 .f32)
    (x4 x5 : Vec F S1x768 .f32) (h : View.ld x2 rQ = View.ld x2' rQ) : out6 x0 x1 x2 x3 x4 x5 = out6 x0 x1 x2' x3 x4 x5 := by
  unfold out6 slab0 slab1 slab2 slab3 bias; rw [h]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns: the two position windows' buffers stated on the part their transfers move. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare ((cfg0.win 1).fill (cfg0.grid.coords t) d ((cfg0.win 1).cut (cfg0.grid.coords t) ((dats m 0 c).after 1 t))))
    ∗ (∃ d, owns (c : Thread nD τ) (st0_2 t) fullShare ((cfg0.win 2).fill (cfg0.grid.coords t) d ((cfg0.win 2).cut (cfg0.grid.coords t) ((dats m 0 c).after 2 t))))
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so the body's triple applies; what it leaves in the
    output does not depend on what filled the inputs' buffers past the array's end. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  have e0 : fblk m c 0 t (zf 0) = fblk m c 0 t d0 := fblk_irrel m c 0 t (clip0_0 t) _ _
  have e1 : fblk m c 1 t (zf 1) = fblk m c 1 t d1 := fblk_irrel m c 1 t (clip0_1 t) _ _
  have e3 : fblk m c 3 t (zf 3) = fblk m c 3 t d3 := fblk_irrel m c 3 t (clip0_3 t) _ _
  have e4 : fblk m c 4 t (zf 4) = fblk m c 4 t d4 := fblk_irrel m c 4 t (clip0_4 t) _ _
  have e5 : fblk m c 5 t (zf 5) = fblk m c 5 t d5 := fblk_irrel m c 5 t (clip0_5 t) _ _
  have e6 : out6 (fblk m c 0 t (zf 0)) (fblk m c 1 t (zf 1)) (fblk m c 2 t (zf 2)) (fblk m c 3 t (zf 3)) (fblk m c 4 t (zf 4)) (fblk m c 5 t (zf 5))
      = out6 (fblk m c 0 t d0) (fblk m c 1 t d1) (fblk m c 2 t d2) (fblk m c 3 t d3) (fblk m c 4 t d4) (fblk m c 5 t d5) := by
    rw [e0, e1, e3, e4, e5]; exact out6_congr2 _ _ _ _ _ _ _ (ld_fblk2 m c t _ _)
  rw [e6, e0, e3, e4, e5]
  iapply (sound_kernel c Set.univ (grid0.coords t) _ _ _ _ _ _ _ _ _ _ _ _ _ _ (fblk m c 0 t d0) (fblk m c 1 t d1) (fblk m c 2 t d2) (fblk m c 3 t d3) (fblk m c 4 t d4) (fblk m c 5 t d5) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]
  · iexists d1
    rw [show (cfg0.win 1).cut (cfg0.grid.coords t) (fblk m c 1 t (zf 1)) = iblk m c 1 t from (cfg0.win 1).cut_fill _ _ _]
    iexact H1
  isplitl [H2]
  · iexists d2
    rw [show (cfg0.win 2).cut (cfg0.grid.coords t) (fblk m c 2 t (zf 2)) = iblk m c 2 t from (cfg0.win 2).cut_fill _ _ _]
    iexact H2
  isplitl [H3]; · iexact H3
  isplitl [H4]; · iexact H4
  isplitl [H5]; · iexact H5
  iexact H6

/-- The library's body obligation, at every point. -/
theorem body_obligation (c : Dev nD) : BodyObligationLoose (dats (F := F) m 0 c) (defs₀ (F := F)) Variants.none () Set.univ := fun t => by
  rw [bigSep_W0, bigSep_W0]
  exact sound_body m c t

/-! ## The arrays at the region's entry -/

/-- The distinct buffers behind the windows' arrays, listed. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg2) ↦{fullShare} W main_arg2)
          ∗ (((c : Thread nD τ).loc main_arg1) ↦{fullShare} W main_arg1) ∗ (((c : Thread nD τ).loc main_v0) ↦{fullShare} W main_v0)
          ∗ (((c : Thread nD τ).loc main_v1) ↦{fullShare} W main_v1) ∗ (((c : Thread nD τ).loc main_v2) ↦{fullShare} W main_v2)) := by
  unfold Pipeline.arrBufs
  exact bigSep_eq_bigSepL_of_eq [main_arg0, main_arg2, main_arg1, main_v0, main_v1, main_v2] (by decide) (by decide) _

/-- The distinct buffers behind the windows' arrays, each whole at the full share, are the pipeline's arrays: the
    position table's full share is dealt in halves to the two windows that read it. -/
theorem arrays_of_bufs (c : Dev nD) :
    (Pipeline.arrBufs (Ix := Unit) (Name := ℕ) (U := UR sig nD τ) (Lvl := ℕ) spec0 c (V m c) : sProp 𝕄)
      ⊢ (dats m 0 c).toR.arrays (dats m 0 c).toR.A := by
  rw [Dat.toR_arrays, Dat.toR_A]
  rw [arrBufs0_eq]
  unfold Dat.arrays
  rw [bigSep_W0]
  have h0 : (cfg0.win 0).arr.view.set = Finset.univ := (arr_whole0 0).set_eq_univ
  have h1 : (cfg0.win 1).arr.view.set = Finset.univ := (arr_whole0 1).set_eq_univ
  have h2 : (cfg0.win 2).arr.view.set = Finset.univ := (arr_whole0 2).set_eq_univ
  have h3 : (cfg0.win 3).arr.view.set = Finset.univ := (arr_whole0 3).set_eq_univ
  have h4 : (cfg0.win 4).arr.view.set = Finset.univ := (arr_whole0 4).set_eq_univ
  have h5 : (cfg0.win 5).arr.view.set = Finset.univ := (arr_whole0 5).set_eq_univ
  have h6 : (cfg0.win 6).arr.view.set = Finset.univ := (arr_whole0 6).set_eq_univ
  rw [h0, h1, h3, h4, h5, h6, A_eq, A_eq, A_eq, A_eq, A_eq, A_eq, A_eq,
    show (dats m 0 c).share 0 = fullShare from rfl, show (dats m 0 c).share 1 = fullShare.left from rfl,
    show (dats m 0 c).share 2 = fullShare.right from rfl, show (dats m 0 c).share 3 = fullShare from rfl,
    show (dats m 0 c).share 4 = fullShare from rfl, show (dats m 0 c).share 5 = fullShare from rfl,
    show (dats m 0 c).share 6 = fullShare from rfl]
  have hs : ((((c : Thread nD τ).loc main_arg2) ↦{fullShare} V m c main_arg2 : sProp 𝕄))
      = iprop((((c : Thread nD τ).loc main_arg2) ↦{fullShare.left} V m c main_arg2) ∗ (((c : Thread nD τ).loc main_arg2) ↦{fullShare.right} V m c main_arg2)) :=
    Entails.antisymm (pointsTo_share (PosShare.mem_left_op_right fullShare)).1 (pointsTo_share (PosShare.mem_left_op_right fullShare)).2
  rw [hs]
  iintro ⟨H0, ⟨H2l, H2r⟩, H1, Hv0, Hv1, Hv2⟩
  isplitl [H0]; · iexact H0
  isplitl [H2l]; · iexact H2l
  isplitl [H2r]; · iexact H2r
  isplitl [H1]; · iexact H1
  isplitl [Hv0]; · iexact Hv0
  isplitl [Hv1]; · iexact Hv1
  iexact Hv2

/-! ## The run and the frame -/

set_option backward.isDefEq.respectTransparency.types false in
/-- At the compiled mesh, for any values, from any memory with zero counters: every weakly fair execution of @main
    terminates, and every final state has every array of the pipeline at what the write-backs computed from the
    proof data and every other unscoped buffer as the region found it. The launch is the library's region theorem
    taken by its fields: two windows read one array, whose full share is dealt between them. -/
theorem run_main : θ_run defs (onTc (τ := τ) (main (F := F))) (s₀ m ρ) (Pipeline.FramePost cfgs (dats m) 0 (V m)) := by
  classical
  have hinj : Function.Injective (cellOf (nD := nD) (τ := τ)
      (Pipeline.pin (fun q => (cfgs q).toPCfg (Val := Elt F)) (fun q => (cfgs q).toPCfg_adm))) := cellOf_inj
  refine (θ_run defs _ _).mono (fun r h => Pipeline.RDat.FramePost.toDat cfgs (dats m) 0 (V m) r h) ?_
  exact Pipeline.RDat.θ_run_region_pf (fun q => (cfgs q).toPCfg (Val := Elt F)) (fun q => (cfgs q).toPCfg_adm)
    (Pipeline.RDat.familyOf (fun q => (cfgs q).toPCfg (Val := Elt F)) (fun q => (cfgs q).toPCfg_adm) 0 (fun c => (dats m 0 c).toR)) ()
    hinj 0 winFacts₀0 (Pipeline.OwnSemFacts.none spec0) (Pipeline.PreFacts.none spec0) emb₁ defs₀ Variants.none m ρ main
    (fun c => by rw [Pipeline.RDat.familyOf_self]; exact (body_obligation m c).toR)
    block_pos0 arr_whole0 stage_whole0 (fun c t => by rw [Pipeline.RDat.familyOf_self]; rfl)
    (G := fun _ => iprop(emp)) (u₀ := initOf (Pipeline.cells _ hinj) (Pipeline.launchToks _ hinj))
    (hu₀ := by
      iintro Hu; imodintro
      isplitl [Hu]
      · iapply (show (ownU _ : sProp 𝕄) ⊢ BI.own (emb₁ (initOf (Pipeline.cells _ hinj) (Pipeline.launchToks _ hinj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => by rw [Pipeline.RDat.familyOf_self]; exact arrays_of_bufs m c)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (hX := fun c => by
      iintro ⟨HU, -, -, -, Hp, -⟩; imodintro
      isplitl [Hp]; · iexists _; iexact Hp
      iexact HU)
    (hin := fun c => by
      rw [Pipeline.RDat.familyOf_self]
      show _ ⊢ Pipeline.ΦA spec0 c
      unfold Pipeline.ΦA; iintro ⟨Hp, Ht, Hr⟩
      isplitl [Hr] <;> iassumption)
    (hout := fun c => by
      rw [Pipeline.RDat.familyOf_self]
      show Pipeline.ΦA spec0 c ⊢ _
      rw [Pipeline.ownSems0_none]; unfold Pipeline.ΦA
      iintro ⟨Hr, Hp⟩
      isplitl [Hp]; · iexact Hp
      isplitr; · iempintro
      iexact Hr)
    (QY := fun c s => ∀ b ∈ Pipeline.restRefsP sig Pipeline.Prefetch.none spec0, s.mem ((c.tc : Thread nD τ).loc b) = V m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (V m c) s')
      isplitl [HU] <;> iassumption)
    (hQ := fun s h c => ⟨fun w => by simpa only [Pipeline.RDat.familyOf_self] using (h c).1 w,
      Pipeline.rest_of_restP Pipeline.Prefetch.none spec0 (fun k => k.elim0) c (V m c) s (fun k => k.elim0) (h c).2.1 (h c).2.2⟩)

/-- info: 'Cert.Kernel.Hand.run_main' depends on axioms: [propext, Classical.choice, Quot.sound] -/
#guard_msgs in #print axioms run_main

/-! ## The argument arrays end as launched -/

/-- No host operation before the region writes `main_arg0`: the region finds it as launched. -/
theorem V_kept_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
/-- No host operation before the region writes `main_arg1`: the region finds it as launched. -/
theorem V_kept_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
/-- No host operation before the region writes `main_arg2`: the region finds it as launched. -/
theorem V_kept_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))
/-- No host operation before the region writes `main_arg3`: the region finds it as launched. -/
theorem V_kept_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))
/-- No host operation before the region writes `main_arg4`: the region finds it as launched. -/
theorem V_kept_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))

/-- From the run's post: each argument array ends as launched — a staged input by the library's reading of an input
    array, an array no window stages by the post's second clause. -/
theorem args_kept (c : Dev nD) (r : PUnit × MemSt nD τ sig (Elt F)) (h : Pipeline.FramePost cfgs (dats m) 0 (V m) r) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨((h c).1 0).trans (((dats m 0 c).arrAt_in 0 rfl _).trans ((A_eq m c 0).trans (V_kept_arg0 m c))),
   ((h c).1 3).trans (((dats m 0 c).arrAt_in 3 rfl _).trans ((A_eq m c 3).trans (V_kept_arg1 m c))),
   ((h c).1 1).trans (((dats m 0 c).arrAt_in 1 rfl _).trans ((A_eq m c 1).trans (V_kept_arg2 m c))),
   ((h c).2 main_arg3 (Pipeline.mem_restRefs_of main_arg3 rfl (by decide))).trans (V_kept_arg3 m c),
   ((h c).2 main_arg4 (Pipeline.mem_restRefs_of main_arg4 rfl (by decide))).trans (V_kept_arg4 m c)⟩

/-- THE FRAME, at any float instance: @main runs to the end, faults nowhere, and leaves its arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => args_kept m c r h) (run_main m ρ)

end Cert.Kernel.Hand

end
-- ==== Proof.KOutI.lean ====
/-
  What the kernel body leaves in its output block, as a function of the six input blocks (generic in the float
  instance). The body adds to each of the four batch slabs of the input block the bias (position rows 2‥511 of the
  first position block followed by rows 0‥1 of the second, plus row 0 of the token-type block), normalises the rows
  and stores the slab: four stores, one per batch slab, which tile the output block.
-/
import proofs.«128766_g41644002902592_cont_8to1_b_1119_19_alg».proof.Proof.Gen.KernelIdeal.Skeleton
import Idealize.ShloMosaic.Lib.Pipeline.FrameBody
import Idealize.ShloMosaic.Lib.Pipeline.Value

set_option maxRecDepth 16384

noncomputable section

namespace Cert.KernelIdeal.Hand

open Cert.KernelIdeal Cert.KernelIdeal.Gen
open Idealize.ShloMosaic Idealize.SL.Sem

variable {F : FTy → Type} [FloatOps F]

/-- Rows 2‥511 of the first position block. -/
abbrev rP : Rect S512x768 := Rect.unit (s := S512x768) ![2, 0] S510x768.size inb_S512x768_S510x768_2_0
/-- Rows 0‥1 of the second position block. -/
abbrev rQ : Rect S8x768 := Rect.unit (s := S8x768) ![0, 0] S2x768.size inb_S8x768_S2x768_0_0
/-- Row 0 of the token-type block. -/
abbrev rT : Rect S2x768 := Rect.unit (s := S2x768) ![0, 0] S1x768.size inb_S2x768_S1x768_0_0
/-- The whole scale (or shift) row. -/
abbrev rG : Rect S1x768 := Rect.unit (s := S1x768) ![0, 0] S1x768.size inb_S1x768_S1x768_0_0
/-- The four batch slabs of the input and of the output block. -/
abbrev rB0 : Rect S4x512x768 := Rect.unit (s := S4x512x768) ![0, 0, 0] S1x512x768.size inb_S4x512x768_S1x512x768_0_0_0
abbrev rB1 : Rect S4x512x768 := Rect.unit (s := S4x512x768) ![1, 0, 0] S1x512x768.size inb_S4x512x768_S1x512x768_1_0_0
abbrev rB2 : Rect S4x512x768 := Rect.unit (s := S4x512x768) ![2, 0, 0] S1x512x768.size inb_S4x512x768_S1x512x768_2_0_0
abbrev rB3 : Rect S4x512x768 := Rect.unit (s := S4x512x768) ![3, 0, 0] S1x512x768.size inb_S4x512x768_S1x512x768_3_0_0

/-- The bias the four slabs share: the shifted position rows plus the token-type row 0. -/
def bias (x1 : Vec F S512x768 .f32) (x2 : Vec F S8x768 .f32) (x3 : Vec F S2x768 .f32) : FVec F S512x768 .f32 :=
  k0_pay2 (View.ld x1 rP) (View.ld x2 rQ) (View.ld x3 rT)

/-- The four stored slabs. -/
def slab0 (x0 : Vec F S4x512x768 .f32) (x1 : Vec F S512x768 .f32) (x2 : Vec F S8x768 .f32) (x3 : Vec F S2x768 .f32)
    (x4 x5 : Vec F S1x768 .f32) : FVec F S1x512x768 .f32 :=
  k0_pay3 (View.ld x1 rP) (View.ld x2 rQ) (View.ld x3 rT) (View.ld x0 rB0) (View.ld x4 rG) (View.ld x5 rG)
def slab1 (x0 : Vec F S4x512x768 .f32) (x1 : Vec F S512x768 .f32) (x2 : Vec F S8x768 .f32) (x3 : Vec F S2x768 .f32)
    (x4 x5 : Vec F S1x768 .f32) : FVec F S1x512x768 .f32 :=
  k0_pay4 (bias x1 x2 x3) (View.ld x0 rB1) (View.ld x4 rG) (View.ld x5 rG)
def slab2 (x0 : Vec F S4x512x768 .f32) (x1 : Vec F S512x768 .f32) (x2 : Vec F S8x768 .f32) (x3 : Vec F S2x768 .f32)
    (x4 x5 : Vec F S1x768 .f32) : FVec F S1x512x768 .f32 :=
  k0_pay8 (k0_pay5 (bias x1 x2 x3) (View.ld x0 rB2)) (k0_pay6 (bias x1 x2 x3) (View.ld x0 rB2)) (k0_pay7 (F := F)) (View.ld x4 rG) (View.ld x5 rG)
def slab3 (x0 : Vec F S4x512x768 .f32) (x1 : Vec F S512x768 .f32) (x2 : Vec F S8x768 .f32) (x3 : Vec F S2x768 .f32)
    (x4 x5 : Vec F S1x768 .f32) : FVec F S1x512x768 .f32 :=
  k0_pay1 (k0_pay11 (bias x1 x2 x3) (View.ld x0 rB3)) (k0_pay12 (bias x1 x2 x3) (View.ld x0 rB3)) (View.ld x4 rG) (View.ld x5 rG)

/-- The output block after the body: its four stores as pieces, last first. -/
def out6 (x0 : Vec F S4x512x768 .f32) (x1 : Vec F S512x768 .f32) (x2 : Vec F S8x768 .f32) (x3 : Vec F S2x768 .f32)
    (x4 x5 : Vec F S1x768 .f32) : Vec F S4x512x768 .f32 :=
  View.canon [⟨rB3, slab3 x0 x1 x2 x3 x4 x5⟩, ⟨rB2, slab2 x0 x1 x2 x3 x4 x5⟩, ⟨rB1, slab1 x0 x1 x2 x3 x4 x5⟩, ⟨rB0, slab0 x0 x1 x2 x3 x4 x5⟩]

/-- The four slabs tile the block, so they cover it. -/
theorem cover6 (p3 p2 p1 p0 : FVec F S1x512x768 .f32) (y : S4x512x768.Idx) :
    ∃ pc ∈ ([⟨rB3, p3⟩, ⟨rB2, p2⟩, ⟨rB1, p1⟩, ⟨rB0, p0⟩] : List (View.Piece (Elt F) S4x512x768 .f32)), y ∈ pc.1.set :=
  View.cover_of_tiled ([⟨rB3, p3⟩, ⟨rB2, p2⟩, ⟨rB1, p1⟩, ⟨rB0, p0⟩] : List (View.Piece (Elt F) S4x512x768 .f32)) S1x512x768.size (by rfl) y

end Cert.KernelIdeal.Hand

end
-- ==== Proof.KDataI.lean ====
/-
  The proof data of the kernel's one pipeline (generic in the float instance): the arrays as the region finds them
  after the two host reshapes, each input window's block at a grid point, and what the body leaves in each staging
  buffer. The two position windows read ONE array (the position table), the first in blocks of 512 rows and the
  second in blocks of 8 rows starting 512 rows further on; the table's 8194 rows are no multiple of either, so both
  are cut at the table's end: the first is in fact never cut (its sixteen blocks end at row 8192), the second is cut
  to two rows at the last point, and the body reads exactly those two rows.
-/
import proofs.«128766_g41644002902592_cont_8to1_b_1119_19_alg».proof.Proof.KOutI
import proofs.«128766_g41644002902592_cont_8to1_b_1119_19_alg».proof.Proof.Gen.KernelIdeal.Launch
import proofs.«128766_g41644002902592_cont_8to1_b_1119_19_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the two reshapes of the scale and the shift. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main up to the region: the two reshapes, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## The windows' blocks -/

/-- Window `w`'s block at point `t`, its part inside the array, read off the array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The same filled out to the staging buffer's shape with `d` past the array's end. -/
def fblk (c : Dev nD) (w : Fin cfg0.W) (t : Fin cfg0.N) (d : (cfg0.win w).block.Idx → Elt F (cfg0.win w).elt) :
    (cfg0.win w).block.Idx → Elt F (cfg0.win w).elt :=
  (cfg0.win w).fill (cfg0.grid.coords t) d (iblk m c w t)

/-- A filler nothing reads. -/
def zf (w : Fin cfg0.W) : (cfg0.win w).block.Idx → Elt F (cfg0.win w).elt := fun _ => Classical.arbitrary _

/-! ## The proof data -/

/-- The proof data of the one pipeline on core `c`: the arrays as the region finds them; after the body each input's
    buffer at its block (filled out with a filler nothing reads) and the output's at `out6` of those; the class's
    invariant; nothing owed; the position table's share dealt in halves to the two windows that read it. -/
def dats (_ : Fin 1) (c : Dev nD) : Dat τ (Elt F) Unit ℕ (UR sig nD τ) ℕ cfg0 c where
  A w := V m c (Pipeline.arrRef spec0 w)
  after w t := match w with
    | ⟨0, _⟩ => fblk m c 0 t (zf 0)
    | ⟨1, _⟩ => fblk m c 1 t (zf 1)
    | ⟨2, _⟩ => fblk m c 2 t (zf 2)
    | ⟨3, _⟩ => fblk m c 3 t (zf 3)
    | ⟨4, _⟩ => fblk m c 4 t (zf 4)
    | ⟨5, _⟩ => fblk m c 5 t (zf 5)
    | ⟨6, _⟩ => out6 (fblk m c 0 t (zf 0)) (fblk m c 1 t (zf 1)) (fblk m c 2 t (zf 2)) (fblk m c 3 t (zf 3)) (fblk m c 4 t (zf 4)) (fblk m c 5 t (zf 5))
  Φ _ := Pipeline.ΦA spec0 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = fblk m c 0 t (zf 0) := by dsimp only [dats]
theorem after0_1 (c : Dev nD) (t : Fin cfg0.N) : (dats m 0 c).after 1 t = fblk m c 1 t (zf 1) := by dsimp only [dats]
theorem after0_2 (c : Dev nD) (t : Fin cfg0.N) : (dats m 0 c).after 2 t = fblk m c 2 t (zf 2) := by dsimp only [dats]
theorem after0_3 (c : Dev nD) (t : Fin cfg0.N) : (dats m 0 c).after 3 t = fblk m c 3 t (zf 3) := by dsimp only [dats]
theorem after0_4 (c : Dev nD) (t : Fin cfg0.N) : (dats m 0 c).after 4 t = fblk m c 4 t (zf 4) := by dsimp only [dats]
theorem after0_5 (c : Dev nD) (t : Fin cfg0.N) : (dats m 0 c).after 5 t = fblk m c 5 t (zf 5) := by dsimp only [dats]
theorem after0_6 (c : Dev nD) (t : Fin cfg0.N) : (dats m 0 c).after 6 t
    = out6 (fblk m c 0 t (zf 0)) (fblk m c 1 t (zf 1)) (fblk m c 2 t (zf 2)) (fblk m c 3 t (zf 3)) (fblk m c 4 t (zf 4)) (fblk m c 5 t (zf 5)) := by
  dsimp only [dats]

/-- The block the library reads at a point is `iblk`. -/
theorem blockOf_eq (c : Dev nD) (w : Fin cfg0.W) (t : Fin cfg0.N) : (dats m 0 c).blockOf w t = iblk m c w t := by
  unfold Dat.blockOf iblk; rw [A_eq]

theorem fetched_eq (c : Dev nD) (w : Fin cfg0.W) (t : Fin cfg0.N) (d) : (dats m 0 c).fetched w t d = fblk m c w t d := by
  unfold Dat.fetched fblk; rw [blockOf_eq]

/-- Each input's current staging buffer holds its block at every point, fetched there or not, filled out with
    whatever the buffer held past the array's end. -/
theorem before0_0 (c : Dev nD) (t : Fin cfg0.N) (d) : (dats m 0 c).before 0 t d = fblk m c 0 t d :=
  ((dats m 0 c).before_in_eq_fetched 0 rfl (fun _ => rfl) (fun _ _ _ => rfl)
    (fun t => by rw [after0_0, blockOf_eq]; exact (cfg0.win 0).cut_fill _ _ _) t d).trans (fetched_eq m c 0 t d)
theorem before0_3 (c : Dev nD) (t : Fin cfg0.N) (d) : (dats m 0 c).before 3 t d = fblk m c 3 t d :=
  ((dats m 0 c).before_in_eq_fetched 3 rfl (fun _ => rfl) (fun _ _ _ => rfl)
    (fun t => by rw [after0_3, blockOf_eq]; exact (cfg0.win 3).cut_fill _ _ _) t d).trans (fetched_eq m c 3 t d)
theorem before0_4 (c : Dev nD) (t : Fin cfg0.N) (d) : (dats m 0 c).before 4 t d = fblk m c 4 t d :=
  ((dats m 0 c).before_in_eq_fetched 4 rfl (fun _ => rfl) (fun _ _ _ => rfl)
    (fun t => by rw [after0_4, blockOf_eq]; exact (cfg0.win 4).cut_fill _ _ _) t d).trans (fetched_eq m c 4 t d)
theorem before0_5 (c : Dev nD) (t : Fin cfg0.N) (d) : (dats m 0 c).before 5 t d = fblk m c 5 t d :=
  ((dats m 0 c).before_in_eq_fetched 5 rfl (fun _ => rfl) (fun _ _ _ => rfl)
    (fun t => by rw [after0_5, blockOf_eq]; exact (cfg0.win 5).cut_fill _ _ _) t d).trans (fetched_eq m c 5 t d)
/-- The two position windows are fetched at every point. -/
theorem before0_1 (c : Dev nD) (t : Fin cfg0.N) (d) : (dats m 0 c).before 1 t d = fblk m c 1 t d :=
  ((dats m 0 c).before_fetched 1 t (fetch0_1 t) d).trans (fetched_eq m c 1 t d)
theorem before0_2 (c : Dev nD) (t : Fin cfg0.N) (d) : (dats m 0 c).before 2 t d = fblk m c 2 t d :=
  ((dats m 0 c).before_fetched 2 t (fetch0_2 t) d).trans (fetched_eq m c 2 t d)
/-- The output's buffer is written back at every point: the body finds it at anything. -/
theorem before0_6 (c : Dev nD) (t : Fin cfg0.N) (d) : (dats m 0 c).before 6 t d = d :=
  (dats m 0 c).before_out_reset 6 rfl t (by
    by_cases h : t.val = 0
    · exact .inl h
    · exact .inr ⟨h, flush0_6 _⟩) d

end Cert.KernelIdeal.Hand

end
-- ==== Proof.KBodyI.lean ====
/-
  The kernel body's triple, generic in the float instance: on whole staging memrefs, the six inputs' at contents
  x0‥x5 and the output's at anything, the body runs to the continuation holding the inputs' as they were and the
  output's at the four stored slabs as a function of the inputs (the canonical form of its four stores). The four
  loads of the output block that the body makes read values nothing uses, so they do not enter the result.
-/
import proofs.«128766_g41644002902592_cont_8to1_b_1119_19_alg».proof.Proof.KOutI
import proofs.«128766_g41644002902592_cont_8to1_b_1119_19_alg».proof.Proof.Gen.KernelIdeal.Launch
import proofs.«128766_g41644002902592_cont_8to1_b_1119_19_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple: the printed functions are their skeletons, which are run statement by statement through every
    part; the output block then holds its four stores, which are the four slabs and tile it. -/
theorem sound_kernel (c : Dev nD) (E : Set ℕ) (i : grid0.Coords)
    (arg1 : Memref sig .tc .vmem S4x512x768 .f32) (harg1 : arg1.IsWhole) (arg2 : Memref sig .tc .vmem S512x768 .f32) (harg2 : arg2.IsWhole)
    (arg3 : Memref sig .tc .vmem S8x768 .f32) (harg3 : arg3.IsWhole) (arg4 : Memref sig .tc .vmem S2x768 .f32) (harg4 : arg4.IsWhole)
    (arg5 : Memref sig .tc .vmem S1x768 .f32) (harg5 : arg5.IsWhole) (arg6 : Memref sig .tc .vmem S1x768 .f32) (harg6 : arg6.IsWhole)
    (arg7 : Memref sig .tc .vmem S4x512x768 .f32) (harg7 : arg7.IsWhole)
    (x0 : Vec F S4x512x768 .f32) (x1 : Vec F S512x768 .f32) (x2 : Vec F S8x768 .f32) (x3 : Vec F S2x768 .f32) (x4 x5 : Vec F S1x768 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out6 x0 x1 x2 x3 x4 x5)) -∗ K ⟨⟩))
      ⊢ wp frame (wpE (defs₀ (F := F)) Variants.none c none) E
          (cc0__embed_ln_kernel i arg1 harg1 arg2 harg2 arg3 harg3 arg4 harg4 arg5 harg5 arg6 harg6 arg7 harg7) K := by
  simp only [cc0__embed_ln_kernel_eq_skeleton]; unfold cc0__embed_ln_kernel_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover6 _ _ _ _)

end Cert.KernelIdeal.Hand

end
-- ==== Proof.KFrameI.lean ====
/-
  The frame of the kernel program (generic in the float instance): the body obligation at every grid point from the
  body's triple, the position table's full share dealt in halves to the two windows that read it, and the run of
  @main: every weakly fair execution terminates, faults nowhere, every array of the pipeline ends at what the
  write-backs computed and every other buffer as the region found it.
-/
import proofs.«128766_g41644002902592_cont_8to1_b_1119_19_alg».proof.Proof.KDataI
import proofs.«128766_g41644002902592_cont_8to1_b_1119_19_alg».proof.Proof.KBodyI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Fillers nothing reads -/

/-- Windows 0, 1, 3, 4, 5 are never cut: their fetch fills the whole staging buffer. -/
theorem clip0_0 (t : Fin cfg0.N) (a) : (cfg0.win 0).clip (cfg0.grid.coords t) a = none := rfl
theorem clip0_3 (t : Fin cfg0.N) (a) : (cfg0.win 3).clip (cfg0.grid.coords t) a = none := rfl
theorem clip0_4 (t : Fin cfg0.N) (a) : (cfg0.win 4).clip (cfg0.grid.coords t) a = none := rfl
theorem clip0_5 (t : Fin cfg0.N) (a) : (cfg0.win 5).clip (cfg0.grid.coords t) a = none := rfl
theorem clip0_1 : ∀ (t : Fin cfg0.N) (a), (cfg0.win 1).clip (cfg0.grid.coords t) a = none :=
  (by decide +kernel : ∀ (t : Fin grid0.N) (a), win0_1.clip (grid0.coords t) a = none)
/-- The second position window always moves at least its first two rows, whole. -/
theorem xsize0_2 : ∀ t : Fin cfg0.N, 2 ≤ (cfg0.win 2).xsize (cfg0.grid.coords t) 0 ∧ 768 ≤ (cfg0.win 2).xsize (cfg0.grid.coords t) 1 :=
  (by decide +kernel : ∀ t : Fin grid0.N, 2 ≤ win0_2.xsize (grid0.coords t) 0 ∧ 768 ≤ win0_2.xsize (grid0.coords t) 1)

theorem fblk_irrel (c : Dev nD) (w : Fin cfg0.W) (t : Fin cfg0.N) (h : ∀ a, (cfg0.win w).clip (cfg0.grid.coords t) a = none) (d d') :
    fblk m c w t d = fblk m c w t d' := by
  unfold fblk; exact Pipeline.fill_of_clip_none w _ h d d' _

/-- The body reads only rows 0‥1 of the second position block, which every fetch fills. -/
theorem ld_fblk2 (c : Dev nD) (t : Fin cfg0.N) (d d') :
    View.ld (fblk m c 2 t d) rQ = View.ld (fblk m c 2 t d') rQ := by
  funext y
  have hm : (cfg0.win 2).moved (cfg0.grid.coords t) (rQ.idx y) = true := by
    refine ((cfg0.win 2).moved_iff _ _).mpr fun a => ?_
    have h := xsize0_2 t
    match a with
    | ⟨0, h0⟩ =>
      have h1 : ((rQ.idx y) ⟨0, h0⟩).val = 0 + 1 * (y ⟨0, h0⟩).val := Rect.emb_apply _ _ _
      have h2 : (y ⟨0, h0⟩).val < 2 := (y ⟨0, h0⟩).isLt
      have h3 : ((rQ.idx y) ⟨0, h0⟩).val < 2 := by omega
      exact lt_of_lt_of_le h3 h.1
    | ⟨1, h0⟩ =>
      have h1 : ((rQ.idx y) ⟨1, h0⟩).val = 0 + 1 * (y ⟨1, h0⟩).val := Rect.emb_apply _ _ _
      have h2 : (y ⟨1, h0⟩).val < 768 := (y ⟨1, h0⟩).isLt
      have h3 : ((rQ.idx y) ⟨1, h0⟩).val < 768 := by omega
      exact lt_of_lt_of_le h3 h.2
  show fblk m c 2 t d (rQ.idx y) = fblk m c 2 t d' (rQ.idx y)
  unfold fblk Window.fill; rw [dif_pos hm, dif_pos hm]

theorem out6_congr2 (x0 : Vec F S4x512x768 .f32) (x1 : Vec F S512x768 .f32) (x2 x2' : Vec F S8x768 .f32) (x3 : Vec F S2x768 .f32)
    (x4 x5 : Vec F S1x768 .f32) (h : View.ld x2 rQ = View.ld x2' rQ) : out6 x0 x1 x2 x3 x4 x5 = out6 x0 x1 x2' x3 x4 x5 := by
  unfold out6 slab0 slab1 slab2 slab3 bias; rw [h]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns: the two position windows' buffers stated on the part their transfers move. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare ((cfg0.win 1).fill (cfg0.grid.coords t) d ((cfg0.win 1).cut (cfg0.grid.coords t) ((dats m 0 c).after 1 t))))
    ∗ (∃ d, owns (c : Thread nD τ) (st0_2 t) fullShare ((cfg0.win 2).fill (cfg0.grid.coords t) d ((cfg0.win 2).cut (cfg0.grid.coords t) ((dats m 0 c).after 2 t))))
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so the body's triple applies; what it leaves in the
    output does not depend on what filled the inputs' buffers past the array's end. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  have e0 : fblk m c 0 t (zf 0) = fblk m c 0 t d0 := fblk_irrel m c 0 t (clip0_0 t) _ _
  have e1 : fblk m c 1 t (zf 1) = fblk m c 1 t d1 := fblk_irrel m c 1 t (clip0_1 t) _ _
  have e3 : fblk m c 3 t (zf 3) = fblk m c 3 t d3 := fblk_irrel m c 3 t (clip0_3 t) _ _
  have e4 : fblk m c 4 t (zf 4) = fblk m c 4 t d4 := fblk_irrel m c 4 t (clip0_4 t) _ _
  have e5 : fblk m c 5 t (zf 5) = fblk m c 5 t d5 := fblk_irrel m c 5 t (clip0_5 t) _ _
  have e6 : out6 (fblk m c 0 t (zf 0)) (fblk m c 1 t (zf 1)) (fblk m c 2 t (zf 2)) (fblk m c 3 t (zf 3)) (fblk m c 4 t (zf 4)) (fblk m c 5 t (zf 5))
      = out6 (fblk m c 0 t d0) (fblk m c 1 t d1) (fblk m c 2 t d2) (fblk m c 3 t d3) (fblk m c 4 t d4) (fblk m c 5 t d5) := by
    rw [e0, e1, e3, e4, e5]; exact out6_congr2 _ _ _ _ _ _ _ (ld_fblk2 m c t _ _)
  rw [e6, e0, e3, e4, e5]
  iapply (sound_kernel c Set.univ (grid0.coords t) _ _ _ _ _ _ _ _ _ _ _ _ _ _ (fblk m c 0 t d0) (fblk m c 1 t d1) (fblk m c 2 t d2) (fblk m c 3 t d3) (fblk m c 4 t d4) (fblk m c 5 t d5) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]
  · iexists d1
    rw [show (cfg0.win 1).cut (cfg0.grid.coords t) (fblk m c 1 t (zf 1)) = iblk m c 1 t from (cfg0.win 1).cut_fill _ _ _]
    iexact H1
  isplitl [H2]
  · iexists d2
    rw [show (cfg0.win 2).cut (cfg0.grid.coords t) (fblk m c 2 t (zf 2)) = iblk m c 2 t from (cfg0.win 2).cut_fill _ _ _]
    iexact H2
  isplitl [H3]; · iexact H3
  isplitl [H4]; · iexact H4
  isplitl [H5]; · iexact H5
  iexact H6

/-- The library's body obligation, at every point. -/
theorem body_obligation (c : Dev nD) : BodyObligationLoose (dats (F := F) m 0 c) (defs₀ (F := F)) Variants.none () Set.univ := fun t => by
  rw [bigSep_W0, bigSep_W0]
  exact sound_body m c t

/-! ## The arrays at the region's entry -/

/-- The distinct buffers behind the windows' arrays, listed. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg2) ↦{fullShare} W main_arg2)
          ∗ (((c : Thread nD τ).loc main_arg1) ↦{fullShare} W main_arg1) ∗ (((c : Thread nD τ).loc main_v0) ↦{fullShare} W main_v0)
          ∗ (((c : Thread nD τ).loc main_v1) ↦{fullShare} W main_v1) ∗ (((c : Thread nD τ).loc main_v2) ↦{fullShare} W main_v2)) := by
  unfold Pipeline.arrBufs
  exact bigSep_eq_bigSepL_of_eq [main_arg0, main_arg2, main_arg1, main_v0, main_v1, main_v2] (by decide) (by decide) _

/-- The distinct buffers behind the windows' arrays, each whole at the full share, are the pipeline's arrays: the
    position table's full share is dealt in halves to the two windows that read it. -/
theorem arrays_of_bufs (c : Dev nD) :
    (Pipeline.arrBufs (Ix := Unit) (Name := ℕ) (U := UR sig nD τ) (Lvl := ℕ) spec0 c (V m c) : sProp 𝕄)
      ⊢ (dats m 0 c).toR.arrays (dats m 0 c).toR.A := by
  rw [Dat.toR_arrays, Dat.toR_A]
  rw [arrBufs0_eq]
  unfold Dat.arrays
  rw [bigSep_W0]
  have h0 : (cfg0.win 0).arr.view.set = Finset.univ := (arr_whole0 0).set_eq_univ
  have h1 : (cfg0.win 1).arr.view.set = Finset.univ := (arr_whole0 1).set_eq_univ
  have h2 : (cfg0.win 2).arr.view.set = Finset.univ := (arr_whole0 2).set_eq_univ
  have h3 : (cfg0.win 3).arr.view.set = Finset.univ := (arr_whole0 3).set_eq_univ
  have h4 : (cfg0.win 4).arr.view.set = Finset.univ := (arr_whole0 4).set_eq_univ
  have h5 : (cfg0.win 5).arr.view.set = Finset.univ := (arr_whole0 5).set_eq_univ
  have h6 : (cfg0.win 6).arr.view.set = Finset.univ := (arr_whole0 6).set_eq_univ
  rw [h0, h1, h3, h4, h5, h6, A_eq, A_eq, A_eq, A_eq, A_eq, A_eq, A_eq,
    show (dats m 0 c).share 0 = fullShare from rfl, show (dats m 0 c).share 1 = fullShare.left from rfl,
    show (dats m 0 c).share 2 = fullShare.right from rfl, show (dats m 0 c).share 3 = fullShare from rfl,
    show (dats m 0 c).share 4 = fullShare from rfl, show (dats m 0 c).share 5 = fullShare from rfl,
    show (dats m 0 c).share 6 = fullShare from rfl]
  have hs : ((((c : Thread nD τ).loc main_arg2) ↦{fullShare} V m c main_arg2 : sProp 𝕄))
      = iprop((((c : Thread nD τ).loc main_arg2) ↦{fullShare.left} V m c main_arg2) ∗ (((c : Thread nD τ).loc main_arg2) ↦{fullShare.right} V m c main_arg2)) :=
    Entails.antisymm (pointsTo_share (PosShare.mem_left_op_right fullShare)).1 (pointsTo_share (PosShare.mem_left_op_right fullShare)).2
  rw [hs]
  iintro ⟨H0, ⟨H2l, H2r⟩, H1, Hv0, Hv1, Hv2⟩
  isplitl [H0]; · iexact H0
  isplitl [H2l]; · iexact H2l
  isplitl [H2r]; · iexact H2r
  isplitl [H1]; · iexact H1
  isplitl [Hv0]; · iexact Hv0
  isplitl [Hv1]; · iexact Hv1
  iexact Hv2

/-! ## The run and the frame -/

set_option backward.isDefEq.respectTransparency.types false in
/-- At the compiled mesh, for any values, from any memory with zero counters: every weakly fair execution of @main
    terminates, and every final state has every array of the pipeline at what the write-backs computed from the
    proof data and every other unscoped buffer as the region found it. The launch is the library's region theorem
    taken by its fields: two windows read one array, whose full share is dealt between them. -/
theorem run_main : θ_run defs (onTc (τ := τ) (main (F := F))) (s₀ m ρ) (Pipeline.FramePost cfgs (dats m) 0 (V m)) := by
  classical
  have hinj : Function.Injective (cellOf (nD := nD) (τ := τ)
      (Pipeline.pin (fun q => (cfgs q).toPCfg (Val := Elt F)) (fun q => (cfgs q).toPCfg_adm))) := cellOf_inj
  refine (θ_run defs _ _).mono (fun r h => Pipeline.RDat.FramePost.toDat cfgs (dats m) 0 (V m) r h) ?_
  exact Pipeline.RDat.θ_run_region_pf (fun q => (cfgs q).toPCfg (Val := Elt F)) (fun q => (cfgs q).toPCfg_adm)
    (Pipeline.RDat.familyOf (fun q => (cfgs q).toPCfg (Val := Elt F)) (fun q => (cfgs q).toPCfg_adm) 0 (fun c => (dats m 0 c).toR)) ()
    hinj 0 winFacts₀0 (Pipeline.OwnSemFacts.none spec0) (Pipeline.PreFacts.none spec0) emb₁ defs₀ Variants.none m ρ main
    (fun c => by rw [Pipeline.RDat.familyOf_self]; exact (body_obligation m c).toR)
    block_pos0 arr_whole0 stage_whole0 (fun c t => by rw [Pipeline.RDat.familyOf_self]; rfl)
    (G := fun _ => iprop(emp)) (u₀ := initOf (Pipeline.cells _ hinj) (Pipeline.launchToks _ hinj))
    (hu₀ := by
      iintro Hu; imodintro
      isplitl [Hu]
      · iapply (show (ownU _ : sProp 𝕄) ⊢ BI.own (emb₁ (initOf (Pipeline.cells _ hinj) (Pipeline.launchToks _ hinj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => by rw [Pipeline.RDat.familyOf_self]; exact arrays_of_bufs m c)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (hX := fun c => by
      iintro ⟨HU, -, -, -, Hp, -⟩; imodintro
      isplitl [Hp]; · iexists _; iexact Hp
      iexact HU)
    (hin := fun c => by
      rw [Pipeline.RDat.familyOf_self]
      show _ ⊢ Pipeline.ΦA spec0 c
      unfold Pipeline.ΦA; iintro ⟨Hp, Ht, Hr⟩
      isplitl [Hr] <;> iassumption)
    (hout := fun c => by
      rw [Pipeline.RDat.familyOf_self]
      show Pipeline.ΦA spec0 c ⊢ _
      rw [Pipeline.ownSems0_none]; unfold Pipeline.ΦA
      iintro ⟨Hr, Hp⟩
      isplitl [Hp]; · iexact Hp
      isplitr; · iempintro
      iexact Hr)
    (QY := fun c s => ∀ b ∈ Pipeline.restRefsP sig Pipeline.Prefetch.none spec0, s.mem ((c.tc : Thread nD τ).loc b) = V m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (V m c) s')
      isplitl [HU] <;> iassumption)
    (hQ := fun s h c => ⟨fun w => by simpa only [Pipeline.RDat.familyOf_self] using (h c).1 w,
      Pipeline.rest_of_restP Pipeline.Prefetch.none spec0 (fun k => k.elim0) c (V m c) s (fun k => k.elim0) (h c).2.1 (h c).2.2⟩)

/-- info: 'Cert.KernelIdeal.Hand.run_main' depends on axioms: [propext, Classical.choice, Quot.sound] -/
#guard_msgs in #print axioms run_main

/-! ## The argument arrays end as launched -/

/-- No host operation before the region writes `main_arg0`: the region finds it as launched. -/
theorem V_kept_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
/-- No host operation before the region writes `main_arg1`: the region finds it as launched. -/
theorem V_kept_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
/-- No host operation before the region writes `main_arg2`: the region finds it as launched. -/
theorem V_kept_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))
/-- No host operation before the region writes `main_arg3`: the region finds it as launched. -/
theorem V_kept_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))
/-- No host operation before the region writes `main_arg4`: the region finds it as launched. -/
theorem V_kept_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))

/-- From the run's post: each argument array ends as launched — a staged input by the library's reading of an input
    array, an array no window stages by the post's second clause. -/
theorem args_kept (c : Dev nD) (r : PUnit × MemSt nD τ sig (Elt F)) (h : Pipeline.FramePost cfgs (dats m) 0 (V m) r) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨((h c).1 0).trans (((dats m 0 c).arrAt_in 0 rfl _).trans ((A_eq m c 0).trans (V_kept_arg0 m c))),
   ((h c).1 3).trans (((dats m 0 c).arrAt_in 3 rfl _).trans ((A_eq m c 3).trans (V_kept_arg1 m c))),
   ((h c).1 1).trans (((dats m 0 c).arrAt_in 1 rfl _).trans ((A_eq m c 1).trans (V_kept_arg2 m c))),
   ((h c).2 main_arg3 (Pipeline.mem_restRefs_of main_arg3 rfl (by decide))).trans (V_kept_arg3 m c),
   ((h c).2 main_arg4 (Pipeline.mem_restRefs_of main_arg4 rfl (by decide))).trans (V_kept_arg4 m c)⟩

/-- THE FRAME, at any float instance: @main runs to the end, faults nowhere, and leaves its arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => args_kept m c r h) (run_main m ρ)

end Cert.KernelIdeal.Hand

end
-- ==== Proof.KPos.lean ====
/-
  Row r of the position rows a grid point adds: rows 2‥511 of the point's first position block followed by rows
  0‥1 of its second (the table's rows two below the input's).
-/
import Idealize.ShloMosaic.PureOps.Ideal
import Idealize.ShloMosaic.Lib.ValueIdx

noncomputable section

namespace Cert.KernelIdeal.Hand

open Idealize.ShloMosaic Idealize.ShloMosaic.ValueIdx

/-- Row r of the shifted position block: rows 2‥511 of the first block, then rows 0‥1 of the second. -/
def posRow (x1 : (⟨2, ![512, 768]⟩ : Shape).Idx → EReal) (x2 : (⟨2, ![8, 768]⟩ : Shape).Idx → EReal) (r : Fin 512) (k : Fin 768) : EReal :=
  if h : r.val < 510 then x1 (ix2 (⟨r.val + 2, by omega⟩ : Fin 512) k) else x2 (ix2 (⟨r.val - 510, by omega⟩ : Fin 8) k)

end Cert.KernelIdeal.Hand

end
-- ==== Proof.Spec.lean ====
/-
  The mathematics the two programs share, stated once over plain index functions at the extended reals.
  A row of the embedding is `e h = x(b, s, h) + (pos(s + 2, h) + tt(0, h))`: the input row, the position table's
  row two below, and the token-type table's row 0. The kernel normalises a row with the one-pass variance
  `E[e²] − E[e]²` and a reciprocal square root; the reference with the two-pass variance `E[(e − E[e])²]` and a
  quotient by the square root. `lnK` and `lnR` are these two spellings, operation by operation; on a row of
  real numbers they are one function (proved beside, not here).
-/
import Idealize.ShloMosaic.PureOps.Ideal
import Idealize.ShloMosaic.Lib.ValueIdx

noncomputable section

open scoped BigOperators

namespace Cert.Spec

open Idealize.ShloMosaic Idealize.ShloMosaic.ValueIdx

/-- The row length 768 as both programs spell it. -/
abbrev c768 : EReal := Ideal.ofBits .f32 0x44400000#32
/-- The variance offset both programs add (the same word on both sides). -/
abbrev eps : EReal := Ideal.ofBits .f32 0x2B8CBCCC#32
/-- The zero a host sum starts from. -/
abbrev z0 : EReal := Ideal.ofBits .f32 0x00000000#32

/-- The kernel's normalisation of one row: one-pass variance, reciprocal square root. -/
def lnK (e g β : Fin 768 → EReal) (h : Fin 768) : EReal :=
  (e h - Ideal.div (∑ k, e k) c768)
      * Ideal.rsqrt ((Ideal.div (∑ k, e k * e k) c768
          - Ideal.div (∑ k, e k) c768 * Ideal.div (∑ k, e k) c768) + eps)
      * g h + β h

/-- The reference's normalisation of one row: two-pass variance, quotient by the square root. -/
def lnR (e g β : Fin 768 → EReal) (h : Fin 768) : EReal :=
  Ideal.div (e h - Ideal.div (z0 + ∑ k, e k) c768)
      (Ideal.sqrt (Ideal.div (z0 + ∑ k, (e k - Ideal.div (z0 + ∑ k, e k) c768) * (e k - Ideal.div (z0 + ∑ k, e k) c768)) c768 + eps))
      * g h + β h

/-- Row `(b, s)` of the embedding: the input row plus the position row `s + 2` plus the token-type row 0. -/
def row (x : (⟨3, ![4, 8192, 768]⟩ : Shape).Idx → EReal) (tt : (⟨2, ![2, 768]⟩ : Shape).Idx → EReal)
    (pos : (⟨2, ![8194, 768]⟩ : Shape).Idx → EReal) (b : Fin 4) (s : Fin 8192) (h : Fin 768) : EReal :=
  x (ix3 b s h) + (pos (ix2 (⟨s.val + 2, by omega⟩ : Fin 8194) h) + tt (ix2 (0 : Fin 2) h))

/-- The kernel's result array as one function of the argument arrays. -/
def GK (x : (⟨3, ![4, 8192, 768]⟩ : Shape).Idx → EReal) (tt : (⟨2, ![2, 768]⟩ : Shape).Idx → EReal)
    (pos : (⟨2, ![8194, 768]⟩ : Shape).Idx → EReal) (g β : (⟨1, ![768]⟩ : Shape).Idx → EReal) :
    (⟨3, ![4, 8192, 768]⟩ : Shape).Idx → EReal :=
  fun i => lnK (row x tt pos ⟨(i 0).val, (i 0).isLt⟩ ⟨(i 1).val, (i 1).isLt⟩) (fun k => g (ix1 k)) (fun k => β (ix1 k)) ⟨(i 2).val, (i 2).isLt⟩

/-- The reference's result array as one function of the argument arrays. -/
def GR (x : (⟨3, ![4, 8192, 768]⟩ : Shape).Idx → EReal) (tt : (⟨2, ![2, 768]⟩ : Shape).Idx → EReal)
    (pos : (⟨2, ![8194, 768]⟩ : Shape).Idx → EReal) (g β : (⟨1, ![768]⟩ : Shape).Idx → EReal) :
    (⟨3, ![4, 8192, 768]⟩ : Shape).Idx → EReal :=
  fun i => lnR (row x tt pos ⟨(i 0).val, (i 0).isLt⟩ ⟨(i 1).val, (i 1).isLt⟩) (fun k => g (ix1 k)) (fun k => β (ix1 k)) ⟨(i 2).val, (i 2).isLt⟩

end Cert.Spec

end
-- ==== Proof.LibRowVector.lean ====
/-
  A length-n vector laid out as a 1×n row, and a 1×n row copied to every row of an R×n matrix, read at an entry.

  * `broadcastTo_row`: a 1×n row broadcast to R×n holds, at (p, k), the row's entry (0, k) — for n ≠ 1
    (a unit axis of the operand is the one that is copied; a length-1 last axis would be copied too).
  * `shapeCast_row`: a length-n vector reshaped to a 1×n row holds, at (0, k), the vector's entry k: both sit at
    row-major position k.
-/
import Idealize.ShloMosaic.Lib.Pipeline.Value
import Idealize.ShloMosaic.Lib.ValueIdx

noncomputable section

namespace Cert.RowVector

open Idealize.ShloMosaic Idealize.ShloMosaic.ValueIdx

variable {α : Type} {R n : Nat}

/-- A 1×n row copied to every row of an R×n matrix, at (p, k): the row at (0, k). -/
theorem broadcastTo_row (hn : n ≠ 1) (v : (⟨2, ![1, n]⟩ : Shape).Idx → α)
    (h : (⟨2, ![1, n]⟩ : Shape).Broadcasts ⟨2, ![R, n]⟩) (p : Fin R) (k : Fin n) :
    broadcastTo ⟨2, ![R, n]⟩ v h (ix2 p k) = v (ix2 0 k) :=
  broadcastTo_apply v h (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

/-- A length-n vector reshaped to a 1×n row, at (0, k): the vector at k. -/
theorem shapeCast_row (x : (⟨1, ![n]⟩ : Shape).Idx → α)
    (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]
    show k.val = 0 * n + k.val
    omega)

end Cert.RowVector

end
-- ==== Proof.LibRowOps.lean ====
/-
  Row-wise reductions with `keepdims`, read at an index: a length-`a` vector viewed as an `[a, 1]` column, a column
  broadcast along its rows to `[a, b]`, and a reduction over the second axis of an `[a, b]` array read at row `r` — the
  index the reduction inserts the dropped coordinate into is (r, k), so a row maximum is the fold of `max` over the row's
  entries and a row sum is the sum over them.
-/
import Idealize.ShloMosaic.Lib.Pipeline.Value
import Idealize.ShloMosaic.Lib.ValueIdx
import Idealize.ShloMosaic.PureOps.Ideal.Laws

noncomputable section

namespace RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index `r` with the second-axis coordinate `k` put back is (r, k). -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A maximum over the second axis, at row `r`: the fold of `max`, from the accumulator's value, over the row. -/
theorem rowMax_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun k => src (ix2 r k)) := by
  refine (Ideal.multiReduction_maximumf_single src acc h hφ hacc (ix1 r)).trans ?_
  have hf : (src ∘ h.lift (ix1 r)) = fun k : Fin b => src (ix2 r k) := funext fun k => congrArg src (lift_row h r k)
  exact congrArg (fun f => Finset.fold max (Ideal.ofBits .f32 acc) f (Finset.univ : Finset (Fin b))) hf

/-- A sum over the second axis, at row `r`: the sum over the row. -/
theorem rowSum_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end RowOps

end
-- ==== Proof.KPay.lean ====
/-
  What the kernel body stores, read at one element, at the ideal values. Each of the four batch slabs is the same
  arithmetic on the rows of `y = x0 slab + bias`: the row mean `(∑ y) / 768`, the mean square `(∑ y²) / 768`, the
  variance `mean square − mean²`, and `(y − mean) · rsqrt(variance + ε) · g + β`. The bias at row `r` is row `r` of
  the shifted position block (rows 2‥511 of the first position block, then rows 0‥1 of the second) plus row 0 of the
  token-type block. The four stores tile the output block; element `(b, r, l)` lies in slab `b` only.
-/
import proofs.«128766_g41644002902592_cont_8to1_b_1119_19_alg».proof.Proof.KOutI
import proofs.«128766_g41644002902592_cont_8to1_b_1119_19_alg».proof.Proof.Spec
import proofs.«128766_g41644002902592_cont_8to1_b_1119_19_alg».proof.Proof.KPos
import proofs.«128766_g41644002902592_cont_8to1_b_1119_19_alg».proof.Proof.LibRowOps
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.ValueIdx

/-- The row means of an array, as a column: the sum over each row, divided by 768. -/
def meanCol (y : FVec Ideal S512x768 .f32) : FVec Ideal S512x1 .f32 :=
  divf (shapeCast S512x1 (multiReduction .add [1] S512 y 0x00000000#32 reduces_S512x768_S512 (.inl rfl) rfl) shapeCasts_S512_S512x1)
    (broadcast S512x1 (Scalar.ofBits .f32 0x44400000#32))

/-- The arithmetic the four slabs share, on the rows of `y`. -/
def normOf (y : FVec Ideal S512x768 .f32) (g β : Vec Ideal S1x768 .f32) : FVec Ideal S1x512x768 .f32 :=
  shapeCast S1x512x768
    (addf
      (mulf
        (mulf (subf y (broadcastTo S512x768 (meanCol y) broadcasts_S512x1_S512x768))
          (broadcastTo S512x768
            (rsqrt (addf (subf (meanCol (mulf y y)) (mulf (meanCol y) (meanCol y)))
              (broadcast S512x1 (Scalar.ofBits .f32 0x2B8CBCCC#32))))
            broadcasts_S512x1_S512x768))
        (broadcastTo S512x768 (shapeCast S1x768 g shapeCasts_S1x768_S1x768) broadcasts_S1x768_S512x768))
      (broadcastTo S512x768 (shapeCast S1x768 β shapeCasts_S1x768_S1x768) broadcasts_S1x768_S512x768))
    shapeCasts_S512x768_S1x512x768

/-- The second slab's payload is that arithmetic on `slab + bias`. -/
theorem pay4_eq (v5 : FVec Ideal S512x768 .f32) (v38 : Vec Ideal S1x512x768 .f32) (g β : Vec Ideal S1x768 .f32) :
    k0_pay4 (F := Ideal) v5 v38 g β
      = normOf (addf (shapeCast S512x768 v38 shapeCasts_S1x512x768_S512x768) v5) g β := rfl

/-- The first slab's payload likewise, the bias spelt out. -/
theorem pay3_eq (v0 : Vec Ideal S510x768 .f32) (v1 : Vec Ideal S2x768 .f32) (v3 : Vec Ideal S1x768 .f32)
    (v6 : Vec Ideal S1x512x768 .f32) (g β : Vec Ideal S1x768 .f32) :
    k0_pay3 (F := Ideal) v0 v1 v3 v6 g β
      = normOf (addf (shapeCast S512x768 v6 shapeCasts_S1x512x768_S512x768) (k0_pay2 v0 v1 v3)) g β := rfl

/-- The third slab's payload, split over three payload definitions. -/
theorem pay8_eq (v5 : FVec Ideal S512x768 .f32) (v70 : Vec Ideal S1x512x768 .f32) (g β : Vec Ideal S1x768 .f32) :
    k0_pay8 (F := Ideal) (k0_pay5 v5 v70) (k0_pay6 v5 v70) (k0_pay7 (F := Ideal)) g β
      = normOf (addf (shapeCast S512x768 v70 shapeCasts_S1x512x768_S512x768) v5) g β := rfl

/-- The fourth slab's payload, split over three payload definitions. -/
theorem pay1_eq (v5 : FVec Ideal S512x768 .f32) (v102 : Vec Ideal S1x512x768 .f32) (g β : Vec Ideal S1x768 .f32) :
    k0_pay1 (F := Ideal) (k0_pay11 v5 v102) (k0_pay12 v5 v102) g β
      = normOf (addf (shapeCast S512x768 v102 shapeCasts_S1x512x768_S512x768) v5) g β := rfl

/-- The mean column at row `r`: the row's sum over 768. -/
theorem meanCol_apply (y : FVec Ideal S512x768 .f32) (r : Fin 512) :
    meanCol y (ix2 r (0 : Fin 1)) = Ideal.div (∑ k : Fin 768, y (ix2 r k)) Cert.Spec.c768 := by
  unfold meanCol
  show Ideal.div (shapeCast S512x1 _ shapeCasts_S512_S512x1 (ix2 r (0 : Fin 1))) (Ideal.ofBits .f32 0x44400000#32) = _
  refine congrArg (fun t => Ideal.div t Cert.Spec.c768) ?_
  refine (RowOps.shapeCast_a_a1_apply _ shapeCasts_S512_S512x1 r (0 : Fin 1)).trans ?_
  exact RowOps.rowSum_apply y 0x00000000#32 reduces_S512x768_S512 (.inl rfl) rfl r

/-- A scale or shift row, cast to itself and copied to every row, read at `(r, l)`: the row's entry `l`. -/
theorem rowBcast_apply (g : Vec Ideal S1x768 .f32) (r : Fin 512) (l : Fin 768) :
    broadcastTo S512x768 (shapeCast S1x768 g shapeCasts_S1x768_S1x768) broadcasts_S1x768_S512x768 (ix2 r l)
      = g (ix2 (0 : Fin 1) l) := by
  refine (broadcastTo_1b_ab_apply _ broadcasts_S1x768_S512x768 r l).trans ?_
  rw [shapeCast_self]

/-- The shared arithmetic read at `(0, r, l)`: the kernel's normalisation of row `r` of `y`, at `l`. -/
theorem normOf_apply (y : FVec Ideal S512x768 .f32) (g β : Vec Ideal S1x768 .f32) (r : Fin 512) (l : Fin 768) :
    normOf y g β (ix3 (0 : Fin 1) r l)
      = Cert.Spec.lnK (fun k => y (ix2 r k)) (fun k => g (ix2 (0 : Fin 1) k)) (fun k => β (ix2 (0 : Fin 1) k)) l := by
  unfold normOf
  refine (shapeCast_ab_1ab_apply _ shapeCasts_S512x768_S1x512x768 (0 : Fin 1) r l).trans ?_
  have hM : broadcastTo S512x768 (meanCol y) broadcasts_S512x1_S512x768 (ix2 r l)
      = Ideal.div (∑ k : Fin 768, y (ix2 r k)) Cert.Spec.c768 :=
    (RowOps.broadcastTo_a1_ab_apply (meanCol y) broadcasts_S512x1_S512x768 r l).trans (meanCol_apply y r)
  have hR : broadcastTo S512x768
        (rsqrt (addf (subf (meanCol (mulf y y)) (mulf (meanCol y) (meanCol y)))
          (broadcast S512x1 (Scalar.ofBits .f32 0x2B8CBCCC#32))))
        broadcasts_S512x1_S512x768 (ix2 r l)
      = Ideal.rsqrt ((Ideal.div (∑ k : Fin 768, y (ix2 r k) * y (ix2 r k)) Cert.Spec.c768
          - Ideal.div (∑ k : Fin 768, y (ix2 r k)) Cert.Spec.c768 * Ideal.div (∑ k : Fin 768, y (ix2 r k)) Cert.Spec.c768)
          + Cert.Spec.eps) := by
    refine (RowOps.broadcastTo_a1_ab_apply _ broadcasts_S512x1_S512x768 r l).trans ?_
    show Ideal.rsqrt ((meanCol (mulf y y) (ix2 r (0 : Fin 1)) - meanCol y (ix2 r (0 : Fin 1)) * meanCol y (ix2 r (0 : Fin 1)))
      + Cert.Spec.eps) = _
    rw [meanCol_apply, meanCol_apply]
    rfl
  show (y (ix2 r l) - broadcastTo S512x768 (meanCol y) broadcasts_S512x1_S512x768 (ix2 r l))
      * broadcastTo S512x768
        (rsqrt (addf (subf (meanCol (mulf y y)) (mulf (meanCol y) (meanCol y)))
          (broadcast S512x1 (Scalar.ofBits .f32 0x2B8CBCCC#32))))
        broadcasts_S512x1_S512x768 (ix2 r l)
      * broadcastTo S512x768 (shapeCast S1x768 g shapeCasts_S1x768_S1x768) broadcasts_S1x768_S512x768 (ix2 r l)
      + broadcastTo S512x768 (shapeCast S1x768 β shapeCasts_S1x768_S1x768) broadcasts_S1x768_S512x768 (ix2 r l) = _
  rw [hM, hR, rowBcast_apply g r l, rowBcast_apply β r l]
  rfl

/-- Local row `r` of the first position block's rows 2‥511 is the block's row `r + 2`. -/
theorem rP_idx (r : Fin 510) (k : Fin 768) :
    rP.idx (ix2 r k) = (ix2 (⟨r.val + 2, by omega⟩ : Fin 512) k : S512x768.Idx) := by
  funext a
  match a with
  | ⟨0, _⟩ => exact Fin.ext (by show 2 + 1 * r.val = r.val + 2; omega)
  | ⟨1, _⟩ => exact Fin.ext (by show 0 + 1 * k.val = k.val; omega)

/-- Local row `r` of the second position block's rows 0‥1 is the block's row `r`. -/
theorem rQ_idx (r : Fin 2) (k : Fin 768) :
    rQ.idx (ix2 r k) = (ix2 (⟨r.val, by omega⟩ : Fin 8) k : S8x768.Idx) := by
  funext a
  match a with
  | ⟨0, _⟩ => exact Fin.ext (by show 0 + 1 * r.val = r.val; omega)
  | ⟨1, _⟩ => exact Fin.ext (by show 0 + 1 * k.val = k.val; omega)

/-- The one local row of the token-type block's row 0 is the block's row 0. -/
theorem rT_idx (k : Fin 768) : rT.idx (ix2 (0 : Fin 1) k) = (ix2 (0 : Fin 2) k : S2x768.Idx) := by
  funext a
  match a with
  | ⟨0, _⟩ => exact Fin.ext (by show 0 + 1 * 0 = 0; omega)
  | ⟨1, _⟩ => exact Fin.ext (by show 0 + 1 * k.val = k.val; omega)

/-- The whole scale (or shift) row read through its rectangle is the row. -/
theorem rG_idx (k : Fin 768) : rG.idx (ix2 (0 : Fin 1) k) = (ix2 (0 : Fin 1) k : S1x768.Idx) := by
  funext a
  match a with
  | ⟨0, _⟩ => exact Fin.ext (by show 0 + 1 * 0 = 0; omega)
  | ⟨1, _⟩ => exact Fin.ext (by show 0 + 1 * k.val = k.val; omega)

/-- Local index `(0, r, k)` of the batch slab at offset `o` is the block's `(o, r, k)`. -/
theorem rB_idx (o : Nat) (ho : o < 4) (inb : ∀ a, (![o, 0, 0] : Fin 3 → Nat) a + S1x512x768.size a ≤ S4x512x768.size a)
    (r : Fin 512) (k : Fin 768) :
    (Rect.unit (s := S4x512x768) ![o, 0, 0] S1x512x768.size inb).idx (ix3 (0 : Fin 1) r k)
      = (ix3 (⟨o, ho⟩ : Fin 4) r k : S4x512x768.Idx) := by
  funext a
  match a with
  | ⟨0, _⟩ => exact Fin.ext (by show o + 1 * 0 = o; omega)
  | ⟨1, _⟩ => exact Fin.ext (by show 0 + 1 * r.val = r.val; omega)
  | ⟨2, _⟩ => exact Fin.ext (by show 0 + 1 * k.val = k.val; omega)

/-- The bias at `(r, k)`: row `r` of the shifted position block plus row 0 of the token-type block. -/
theorem bias_apply (x1 : Vec Ideal S512x768 .f32) (x2 : Vec Ideal S8x768 .f32) (x3 : Vec Ideal S2x768 .f32)
    (r : Fin 512) (k : Fin 768) :
    bias (F := Ideal) x1 x2 x3 (ix2 r k) = posRow x1 x2 r k + x3 (ix2 (0 : Fin 2) k) := by
  unfold bias k0_pay2
  show concatenate S512x768 0 [⟨S510x768, View.ld x1 rP⟩, ⟨S2x768, View.ld x2 rQ⟩]
        concatenates_S510x768_S2x768_S512x768_d0 (ix2 r k)
      + broadcastTo S512x768 (View.ld x3 rT) broadcasts_S1x768_S512x768 (ix2 r k) = _
  have hT : broadcastTo S512x768 (View.ld x3 rT) broadcasts_S1x768_S512x768 (ix2 r k) = x3 (ix2 (0 : Fin 2) k) := by
    refine (broadcastTo_1b_ab_apply _ broadcasts_S1x768_S512x768 r k).trans ?_
    show x3 (rT.idx (ix2 (0 : Fin 1) k)) = _
    rw [rT_idx]
  have hC : concatenate S512x768 0 [⟨S510x768, View.ld x1 rP⟩, ⟨S2x768, View.ld x2 rQ⟩]
        concatenates_S510x768_S2x768_S512x768_d0 (ix2 r k) = posRow x1 x2 r k := by
    unfold posRow
    split
    · next h =>
      refine (concatenate_pair_apply_left 0 (View.ld x1 rP) (View.ld x2 rQ) concatenates_S510x768_S2x768_S512x768_d0
        (ix2 r k) rfl (ix2 (⟨r.val, h⟩ : Fin 510) k) (fun b => ?_)).trans ?_
      · match b with
        | ⟨0, _⟩ => rfl
        | ⟨1, _⟩ => rfl
      · show x1 (rP.idx (ix2 (⟨r.val, h⟩ : Fin 510) k)) = _
        rw [rP_idx]
    · next h =>
      have hr := r.isLt
      refine (concatenate_pair_apply_right 0 (View.ld x1 rP) (View.ld x2 rQ) concatenates_S510x768_S2x768_S512x768_d0
        (ix2 r k) rfl rfl (ix2 (⟨r.val - 510, by omega⟩ : Fin 2) k) (fun b hb => ?_) ?_).trans ?_
      · match b, hb with
        | ⟨0, _⟩, hb => exact absurd rfl hb
        | ⟨1, _⟩, _ => rfl
      · show (r.val - 510) + 510 = r.val
        omega
      · show x2 (rQ.idx (ix2 (⟨r.val - 510, by omega⟩ : Fin 2) k)) = _
        rw [rQ_idx]
  rw [hC, hT]

/-- A batch slab's payload, as the shared arithmetic on `slab + bias`, read at `(0, r, l)`: the kernel's
    normalisation of the row `x0(o, r, ·) + bias(r, ·)`. -/
theorem slabOf_apply (x0 : Vec Ideal S4x512x768 .f32) (x1 : Vec Ideal S512x768 .f32) (x2 : Vec Ideal S8x768 .f32)
    (x3 : Vec Ideal S2x768 .f32) (x4 x5 : Vec Ideal S1x768 .f32) (o : Nat) (ho : o < 4)
    (inb : ∀ a, (![o, 0, 0] : Fin 3 → Nat) a + S1x512x768.size a ≤ S4x512x768.size a) (r : Fin 512) (l : Fin 768) :
    normOf (addf (shapeCast S512x768
          (View.ld x0 (Rect.unit (s := S4x512x768) ![o, 0, 0] S1x512x768.size inb) : Vec Ideal S1x512x768 .f32)
          shapeCasts_S1x512x768_S512x768)
        (bias (F := Ideal) x1 x2 x3)) (View.ld x4 rG) (View.ld x5 rG) (ix3 (0 : Fin 1) r l)
      = Cert.Spec.lnK (fun k => x0 (ix3 (⟨o, ho⟩ : Fin 4) r k) + (posRow x1 x2 r k + x3 (ix2 (0 : Fin 2) k)))
          (fun k => x4 (ix2 (0 : Fin 1) k)) (fun k => x5 (ix2 (0 : Fin 1) k)) l := by
  refine (normOf_apply _ _ _ r l).trans ?_
  have h1 : ∀ k : Fin 768,
      (addf (shapeCast S512x768
          (View.ld x0 (Rect.unit (s := S4x512x768) ![o, 0, 0] S1x512x768.size inb) : Vec Ideal S1x512x768 .f32)
          shapeCasts_S1x512x768_S512x768) (bias (F := Ideal) x1 x2 x3)) (ix2 r k)
        = x0 (ix3 (⟨o, ho⟩ : Fin 4) r k) + (posRow x1 x2 r k + x3 (ix2 (0 : Fin 2) k)) := fun k => by
    show shapeCast S512x768
          (View.ld x0 (Rect.unit (s := S4x512x768) ![o, 0, 0] S1x512x768.size inb) : Vec Ideal S1x512x768 .f32)
          shapeCasts_S1x512x768_S512x768 (ix2 r k) + bias (F := Ideal) x1 x2 x3 (ix2 r k) = _
    refine congrArg₂ (· + ·) ?_ (bias_apply x1 x2 x3 r k)
    refine (shapeCast_1ab_ab_apply _ shapeCasts_S1x512x768_S512x768 r k).trans ?_
    show x0 ((Rect.unit (s := S4x512x768) ![o, 0, 0] S1x512x768.size inb).idx (ix3 (0 : Fin 1) r k)) = _
    rw [rB_idx o ho inb r k]
  have h2 : ∀ (x : Vec Ideal S1x768 .f32) (k : Fin 768), View.ld x rG (ix2 (0 : Fin 1) k) = x (ix2 (0 : Fin 1) k) :=
    fun x k => by
      show x (rG.idx (ix2 (0 : Fin 1) k)) = _
      rw [rG_idx]
  exact congrFun (congr (congr (congrArg Cert.Spec.lnK (funext h1)) (funext (h2 x4))) (funext (h2 x5))) l

/-- Element `(b, r, l)` is outside the batch slab at offset `o ≠ b`. -/
theorem not_mem_rB (o : Nat) (inb : ∀ a, (![o, 0, 0] : Fin 3 → Nat) a + S1x512x768.size a ≤ S4x512x768.size a)
    (b : Fin 4) (hb : b.val ≠ o) (r : Fin 512) (l : Fin 768) :
    (ix3 b r l : S4x512x768.Idx) ∉ (Rect.unit (s := S4x512x768) ![o, 0, 0] S1x512x768.size inb).set := by
  intro h
  have h0 := (Rect.mem_set_unit.mp h) ⟨0, by decide⟩
  have h1 : o ≤ b.val := h0.1
  have h2 : b.val < o + 1 := h0.2
  omega

/-- A store through the batch slab at offset `o ≠ b` leaves element `(b, r, l)` to the earlier stores. -/
theorem canon_skip (o : Nat) (inb : ∀ a, (![o, 0, 0] : Fin 3 → Nat) a + S1x512x768.size a ≤ S4x512x768.size a)
    (w : FVec Ideal S1x512x768 .f32) (L : List (View.Piece (Elt Ideal) S4x512x768 .f32))
    (b : Fin 4) (hb : b.val ≠ o) (r : Fin 512) (l : Fin 768) :
    View.canon ((⟨Rect.unit (s := S4x512x768) ![o, 0, 0] S1x512x768.size inb, w⟩ : View.Piece (Elt Ideal) S4x512x768 .f32) :: L)
        (ix3 b r l : S4x512x768.Idx)
      = View.canon L (ix3 b r l : S4x512x768.Idx) :=
  View.canon_cons_of_not_mem
    (⟨Rect.unit (s := S4x512x768) ![o, 0, 0] S1x512x768.size inb, w⟩ : View.Piece (Elt Ideal) S4x512x768 .f32) L
    (y := (ix3 b r l : S4x512x768.Idx)) (not_mem_rB o inb b hb r l)

/-- A store through the batch slab at offset `o`, made last, leaves its payload at `(0, r, l)` in element `(o, r, l)`. -/
theorem canon_hit (o : Nat) (ho : o < 4) (inb : ∀ a, (![o, 0, 0] : Fin 3 → Nat) a + S1x512x768.size a ≤ S4x512x768.size a)
    (w : FVec Ideal S1x512x768 .f32) (L : List (View.Piece (Elt Ideal) S4x512x768 .f32)) (r : Fin 512) (l : Fin 768) :
    View.canon ((⟨Rect.unit (s := S4x512x768) ![o, 0, 0] S1x512x768.size inb, w⟩ : View.Piece (Elt Ideal) S4x512x768 .f32) :: L)
        (ix3 (⟨o, ho⟩ : Fin 4) r l : S4x512x768.Idx)
      = w (ix3 (0 : Fin 1) r l) := by
  have e : (ix3 (⟨o, ho⟩ : Fin 4) r l : S4x512x768.Idx)
      = (Rect.unit (s := S4x512x768) ![o, 0, 0] S1x512x768.size inb).emb (ix3 (0 : Fin 1) r l) :=
    (rB_idx o ho inb r l).symm
  rw [e]
  exact View.canon_cons_emb (Val := Elt Ideal) (e := .f32)
    (Rect.unit (s := S4x512x768) ![o, 0, 0] S1x512x768.size inb) w L (ix3 (0 : Fin 1) r l)

/-- THE OUTPUT BLOCK AT ONE ELEMENT: the kernel's normalisation of the row `x0(b, r, ·) + bias(r, ·)`, at `l`. -/
theorem out6_apply (x0 : Vec Ideal S4x512x768 .f32) (x1 : Vec Ideal S512x768 .f32) (x2 : Vec Ideal S8x768 .f32)
    (x3 : Vec Ideal S2x768 .f32) (x4 x5 : Vec Ideal S1x768 .f32) (b : Fin 4) (r : Fin 512) (l : Fin 768) :
    out6 (F := Ideal) x0 x1 x2 x3 x4 x5 (ix3 b r l)
      = Cert.Spec.lnK (fun k => x0 (ix3 b r k) + (posRow x1 x2 r k + x3 (ix2 (0 : Fin 2) k)))
          (fun k => x4 (ix2 (0 : Fin 1) k)) (fun k => x5 (ix2 (0 : Fin 1) k)) l := by
  unfold out6
  match b with
  | ⟨0, hb⟩ =>
    refine (canon_skip 3 inb_S4x512x768_S1x512x768_3_0_0 _ _ ⟨0, hb⟩ (by show (0 : Nat) ≠ _; decide) r l).trans ?_
    refine (canon_skip 2 inb_S4x512x768_S1x512x768_2_0_0 _ _ ⟨0, hb⟩ (by show (0 : Nat) ≠ _; decide) r l).trans ?_
    refine (canon_skip 1 inb_S4x512x768_S1x512x768_1_0_0 _ _ ⟨0, hb⟩ (by show (0 : Nat) ≠ _; decide) r l).trans ?_
    refine (canon_hit 0 hb inb_S4x512x768_S1x512x768_0_0_0 _ _ r l).trans ?_
    unfold slab0
    rw [pay3_eq]
    exact slabOf_apply x0 x1 x2 x3 x4 x5 0 hb inb_S4x512x768_S1x512x768_0_0_0 r l
  | ⟨1, hb⟩ =>
    refine (canon_skip 3 inb_S4x512x768_S1x512x768_3_0_0 _ _ ⟨1, hb⟩ (by show (1 : Nat) ≠ _; decide) r l).trans ?_
    refine (canon_skip 2 inb_S4x512x768_S1x512x768_2_0_0 _ _ ⟨1, hb⟩ (by show (1 : Nat) ≠ _; decide) r l).trans ?_
    refine (canon_hit 1 hb inb_S4x512x768_S1x512x768_1_0_0 _ _ r l).trans ?_
    unfold slab1
    rw [pay4_eq]
    exact slabOf_apply x0 x1 x2 x3 x4 x5 1 hb inb_S4x512x768_S1x512x768_1_0_0 r l
  | ⟨2, hb⟩ =>
    refine (canon_skip 3 inb_S4x512x768_S1x512x768_3_0_0 _ _ ⟨2, hb⟩ (by show (2 : Nat) ≠ _; decide) r l).trans ?_
    refine (canon_hit 2 hb inb_S4x512x768_S1x512x768_2_0_0 _ _ r l).trans ?_
    unfold slab2
    rw [pay8_eq]
    exact slabOf_apply x0 x1 x2 x3 x4 x5 2 hb inb_S4x512x768_S1x512x768_2_0_0 r l
  | ⟨3, hb⟩ =>
    refine (canon_hit 3 hb inb_S4x512x768_S1x512x768_3_0_0 _ _ r l).trans ?_
    unfold slab3
    rw [pay1_eq]
    exact slabOf_apply x0 x1 x2 x3 x4 x5 3 hb inb_S4x512x768_S1x512x768_3_0_0 r l

end Cert.KernelIdeal.Hand

end
-- ==== Proof.KValueI.lean ====
/-
  The kernel's value at the ideal instance: the result array after the sixteen write-backs is one function of the
  argument arrays. A grid point t writes back rows 512·t ‥ 512·t + 511 of all four batches. At an element (b, r, l)
  of its block the body's result is the normalised row whose entries are the input's (b, 512·t + r, ·), the position
  table's row 512·t + r + 2 — row r + 2 of the point's first position block for r < 510, else row r − 510 of its
  second, whose fetch moves rows 0‥1 at every point — and the token-type table's row 0, scaled and shifted by the
  two vectors the host laid out as rows. The sixteen blocks tile the result array.
-/
import proofs.«128766_g41644002902592_cont_8to1_b_1119_19_alg».proof.Proof.KDataI
import proofs.«128766_g41644002902592_cont_8to1_b_1119_19_alg».proof.Proof.KPos
import proofs.«128766_g41644002902592_cont_8to1_b_1119_19_alg».proof.Proof.Spec
import proofs.«128766_g41644002902592_cont_8to1_b_1119_19_alg».proof.Proof.LibRowVector
import proofs.«128766_g41644002902592_cont_8to1_b_1119_19_alg».proof.Proof.KPay
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable (m : (ℓ : Loc nD τ sig) → Buf (Elt Ideal) ℓ)

/-! ## The grid and the printed index maps -/

/-- A grid point is below 16. -/
theorem t_lt (t : Fin cfg0.N) : t.val < 16 :=
  Nat.lt_of_lt_of_eq t.isLt N_0

/-- The printed index maps at a grid point, decided over the sixteen points: the input and the output move down one
    block of 512 rows a point, the first position window with them, the second position window sits 512 rows further
    on in blocks of 8 rows, the other three windows stay. -/
theorem idx_facts : ∀ t : Fin cfg0.N,
    win0_0.index t (0 : Fin 3) = 0 ∧ win0_0.index t (1 : Fin 3) = t.val ∧ win0_0.index t (2 : Fin 3) = 0
    ∧ win0_1.index t (0 : Fin 2) = t.val ∧ win0_1.index t (1 : Fin 2) = 0
    ∧ win0_2.index t (0 : Fin 2) = 64 * (t.val + 1) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = 0 ∧ win0_6.index t (1 : Fin 3) = t.val ∧ win0_6.index t (2 : Fin 3) = 0 :=
  (by decide +kernel : ∀ t : Fin grid0.N, _)

/-- The first position window is never cut. -/
theorem clip1 : ∀ (t : Fin cfg0.N) (a : Fin 2), win0_1.clip (grid0.coords t) a = none :=
  (by decide +kernel : ∀ (t : Fin grid0.N) (a : Fin 2), win0_1.clip (grid0.coords t) a = none)

/-- The second position window's fetch always moves at least its rows 0‥1, whole. -/
theorem xsize2 : ∀ t : Fin cfg0.N, 2 ≤ win0_2.xsize (grid0.coords t) (0 : Fin 2) ∧ 768 ≤ win0_2.xsize (grid0.coords t) (1 : Fin 2) :=
  (by decide +kernel : ∀ t : Fin grid0.N, 2 ≤ win0_2.xsize (grid0.coords t) (0 : Fin 2) ∧ 768 ≤ win0_2.xsize (grid0.coords t) (1 : Fin 2))

/-! ## The arrays as the region finds them -/

/-- No host operation writes the input array, -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
/-- nor the token-type table, -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
/-- nor the position table. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))

/-- The scale as the region finds it is the scale vector laid out as a row, -/
theorem V_main_v0 (c : Dev nD) : (V m c main_v0 : S1x768.Idx → EReal)
    = shapeCast S1x768 (m ((c : Thread nD τ).loc main_arg3) : S768.Idx → EReal) shapeCasts_S768_S1x768 := by
  dsimp only [V, hostOps0]; after_results; rfl
/-- and the shift likewise. -/
theorem V_main_v1 (c : Dev nD) : (V m c main_v1 : S1x768.Idx → EReal)
    = shapeCast S1x768 (m ((c : Thread nD τ).loc main_arg4) : S768.Idx → EReal) shapeCasts_S768_S1x768 := by
  dsimp only [V, hostOps0]; after_results; rfl

/-! ## A staging buffer's contents at an index the fetch moved -/

/-- Where the fetch moves the index, the filled-out block is the block. -/
theorem fill_apply_of_lt {G : Pipeline.Grid} (w : Window sig G) {α : Type} (i : G.Coords) (d : w.block.Idx → α)
    (g : (w.xblock i).Idx → α) (j : w.block.Idx) (h : ∀ a, (j a).val < w.xsize i a) :
    w.fill i d g j = g fun a => ⟨(j a).val, h a⟩ := by
  unfold Window.fill
  rw [dif_pos ((w.moved_iff i j).mpr h)]

/-- A window's block at an index is the array, as the region finds it, at the index's place in the array. -/
theorem iblk_apply (c : Dev nD) (w : Fin cfg0.W) (t : Fin cfg0.N) (y : ((cfg0.win w).xblock (cfg0.grid.coords t)).Idx) :
    iblk m c w t y = _root_.cast (congrArg (Elt Ideal) ((cfg0.win w).blk t).view.elt_eq) (V m c (Pipeline.arrRef spec0 w) (((cfg0.win w).blk t).view.emb y)) := by
  unfold iblk
  rw [View.read_apply]

/-- The input block at a point is rows 512·t ‥ 512·t + 511 of the input array. -/
theorem fblk0_apply (c : Dev nD) (t : Fin cfg0.N) (b : Fin 4) (r : Fin 512) (k : Fin 768) :
    (fblk m c 0 t (zf 0) : S4x512x768.Idx → EReal) (ix3 b r k)
      = (m ((c : Thread nD τ).loc main_arg0) : S4x8192x768.Idx → EReal) (ix3 b (⟨512 * t.val + r.val, by have := t_lt t; omega⟩ : Fin 8192) k) := by
  obtain ⟨e0, e1, e2, -⟩ := idx_facts t
  unfold fblk
  rw [fill_apply_of_lt (cfg0.win 0) (cfg0.grid.coords t) (zf 0) (iblk m c 0 t) (ix3 b r k) (fun a => by
    match a with
    | ⟨0, _⟩ => exact b.isLt
    | ⟨1, _⟩ => exact r.isLt
    | ⟨2, _⟩ => exact k.isLt)]
  rw [iblk_apply]
  show V m c main_arg0 _ = _
  rw [V_main_arg0]
  congr 1
  funext a
  apply Fin.ext
  match a with
  | ⟨0, _⟩ => show win0_0.index t (0 : Fin 3) * 4 + 1 * b.val = b.val; omega
  | ⟨1, _⟩ => show win0_0.index t (1 : Fin 3) * 512 + 1 * r.val = 512 * t.val + r.val; omega
  | ⟨2, _⟩ => show win0_0.index t (2 : Fin 3) * 768 + 1 * k.val = k.val; omega

/-- Two rank-2 indices with equal rows and the same lane are one. -/
theorem ix2_congr {n0 n1 : Nat} {a a' : Fin n0} (h : a.val = a'.val) (b : Fin n1) : ix2 a b = ix2 a' b := by
  rw [Fin.ext h]

/-- The first position window moves whole blocks: its sixteen blocks end at row 8192 of the table's 8194. -/
theorem xsize1 : ∀ t : Fin cfg0.N, win0_1.xsize (grid0.coords t) (0 : Fin 2) = 512 ∧ win0_1.xsize (grid0.coords t) (1 : Fin 2) = 768 :=
  (by decide +kernel : ∀ t : Fin grid0.N, win0_1.xsize (grid0.coords t) (0 : Fin 2) = 512 ∧ win0_1.xsize (grid0.coords t) (1 : Fin 2) = 768)

/-- The first position block at a point is rows 512·t ‥ 512·t + 511 of the position table. -/
theorem fblk1_apply (c : Dev nD) (t : Fin cfg0.N) (p : Fin 512) (k : Fin 768) :
    (fblk m c 1 t (zf 1) : S512x768.Idx → EReal) (ix2 p k)
      = (m ((c : Thread nD τ).loc main_arg2) : S8194x768.Idx → EReal) (ix2 (⟨512 * t.val + p.val, by have := t_lt t; omega⟩ : Fin 8194) k) := by
  obtain ⟨-, -, -, e0, e1, -⟩ := idx_facts t
  obtain ⟨s0, s1⟩ := xsize1 t
  unfold fblk
  rw [fill_apply_of_lt (cfg0.win 1) (cfg0.grid.coords t) (zf 1) (iblk m c 1 t) (ix2 p k) (fun a => by
    match a with
    | ⟨0, _⟩ => show p.val < win0_1.xsize (grid0.coords t) (0 : Fin 2); omega
    | ⟨1, _⟩ => show k.val < win0_1.xsize (grid0.coords t) (1 : Fin 2); omega)]
  rw [iblk_apply]
  show V m c main_arg2 _ = _
  rw [V_main_arg2]
  congr 1
  funext a
  apply Fin.ext
  match a with
  | ⟨0, _⟩ => show win0_1.index t (0 : Fin 2) * 512 + 1 * p.val = 512 * t.val + p.val; omega
  | ⟨1, _⟩ => show win0_1.index t (1 : Fin 2) * 768 + 1 * k.val = k.val; omega

/-- Rows 0‥1 of the second position block at a point are rows 512·t + 512 ‥ 512·t + 513 of the position table: the
    fetch moves them at every point, the last included, where the table ends two rows into the block. -/
theorem fblk2_apply (c : Dev nD) (t : Fin cfg0.N) (q : Fin 8) (hq : q.val < 2) (k : Fin 768) :
    (fblk m c 2 t (zf 2) : S8x768.Idx → EReal) (ix2 q k)
      = (m ((c : Thread nD τ).loc main_arg2) : S8194x768.Idx → EReal) (ix2 (⟨512 * t.val + 512 + q.val, by have := t_lt t; omega⟩ : Fin 8194) k) := by
  obtain ⟨-, -, -, -, -, e0, e1, -⟩ := idx_facts t
  obtain ⟨s0, s1⟩ := xsize2 t
  unfold fblk
  rw [fill_apply_of_lt (cfg0.win 2) (cfg0.grid.coords t) (zf 2) (iblk m c 2 t) (ix2 q k) (fun a => by
    match a with
    | ⟨0, _⟩ => show q.val < win0_2.xsize (grid0.coords t) (0 : Fin 2); omega
    | ⟨1, _⟩ => show k.val < win0_2.xsize (grid0.coords t) (1 : Fin 2); have := k.isLt; omega)]
  rw [iblk_apply]
  show V m c main_arg2 _ = _
  rw [V_main_arg2]
  congr 1
  funext a
  apply Fin.ext
  match a with
  | ⟨0, _⟩ => show win0_2.index t (0 : Fin 2) * 8 + 1 * q.val = 512 * t.val + 512 + q.val; omega
  | ⟨1, _⟩ => show win0_2.index t (1 : Fin 2) * 768 + 1 * k.val = k.val; omega

/-- The position rows a point adds are rows 512·t + 2 ‥ 512·t + 513 of the position table. -/
theorem posRow_fblk (c : Dev nD) (t : Fin cfg0.N) (r : Fin 512) (k : Fin 768) :
    posRow (fblk m c 1 t (zf 1)) (fblk m c 2 t (zf 2)) r k
      = (m ((c : Thread nD τ).loc main_arg2) : S8194x768.Idx → EReal) (ix2 (⟨512 * t.val + r.val + 2, by have := t_lt t; omega⟩ : Fin 8194) k) := by
  unfold posRow
  split
  · next h =>
    rw [fblk1_apply]
    exact congrArg _ (ix2_congr (by show 512 * t.val + (r.val + 2) = 512 * t.val + r.val + 2; omega) k)
  · next h =>
    rw [fblk2_apply m c t _ (by show r.val - 510 < 2; omega)]
    exact congrArg _ (ix2_congr (by show 512 * t.val + 512 + (r.val - 510) = 512 * t.val + r.val + 2; omega) k)

/-- The token-type block is the token-type table. -/
theorem fblk3_apply (c : Dev nD) (t : Fin cfg0.N) (q : Fin 2) (k : Fin 768) :
    (fblk m c 3 t (zf 3) : S2x768.Idx → EReal) (ix2 q k)
      = (m ((c : Thread nD τ).loc main_arg1) : S2x768.Idx → EReal) (ix2 q k) := by
  obtain ⟨-, -, -, -, -, -, -, e0, e1, -⟩ := idx_facts t
  unfold fblk
  rw [fill_apply_of_lt (cfg0.win 3) (cfg0.grid.coords t) (zf 3) (iblk m c 3 t) (ix2 q k) (fun a => by
    match a with
    | ⟨0, _⟩ => exact q.isLt
    | ⟨1, _⟩ => exact k.isLt)]
  rw [iblk_apply]
  show V m c main_arg1 _ = _
  rw [V_main_arg1]
  congr 1
  funext a
  apply Fin.ext
  match a with
  | ⟨0, _⟩ => show win0_3.index t (0 : Fin 2) * 2 + 1 * q.val = q.val; omega
  | ⟨1, _⟩ => show win0_3.index t (1 : Fin 2) * 768 + 1 * k.val = k.val; omega

/-- The scale block's row is the scale vector, -/
theorem fblk4_apply (c : Dev nD) (t : Fin cfg0.N) (k : Fin 768) :
    (fblk m c 4 t (zf 4) : S1x768.Idx → EReal) (ix2 (0 : Fin 1) k)
      = (m ((c : Thread nD τ).loc main_arg3) : S768.Idx → EReal) (ix1 k) := by
  obtain ⟨-, -, -, -, -, -, -, -, -, e0, e1, -⟩ := idx_facts t
  unfold fblk
  rw [fill_apply_of_lt (cfg0.win 4) (cfg0.grid.coords t) (zf 4) (iblk m c 4 t) (ix2 (0 : Fin 1) k) (fun a => by
    match a with
    | ⟨0, _⟩ => exact (0 : Fin 1).isLt
    | ⟨1, _⟩ => exact k.isLt)]
  rw [iblk_apply]
  show (V m c main_v0 : S1x768.Idx → EReal) _ = _
  rw [V_main_v0]
  refine Eq.trans (congrArg _ ?_) (Cert.RowVector.shapeCast_row (m ((c : Thread nD τ).loc main_arg3) : S768.Idx → EReal) shapeCasts_S768_S1x768 k)
  funext a
  apply Fin.ext
  match a with
  | ⟨0, _⟩ => show win0_4.index t (0 : Fin 2) * 1 + 1 * 0 = 0; omega
  | ⟨1, _⟩ => show win0_4.index t (1 : Fin 2) * 768 + 1 * k.val = k.val; omega

/-- and the shift block's row is the shift vector. -/
theorem fblk5_apply (c : Dev nD) (t : Fin cfg0.N) (k : Fin 768) :
    (fblk m c 5 t (zf 5) : S1x768.Idx → EReal) (ix2 (0 : Fin 1) k)
      = (m ((c : Thread nD τ).loc main_arg4) : S768.Idx → EReal) (ix1 k) := by
  obtain ⟨-, -, -, -, -, -, -, -, -, -, -, e0, e1, -⟩ := idx_facts t
  unfold fblk
  rw [fill_apply_of_lt (cfg0.win 5) (cfg0.grid.coords t) (zf 5) (iblk m c 5 t) (ix2 (0 : Fin 1) k) (fun a => by
    match a with
    | ⟨0, _⟩ => exact (0 : Fin 1).isLt
    | ⟨1, _⟩ => exact k.isLt)]
  rw [iblk_apply]
  show (V m c main_v1 : S1x768.Idx → EReal) _ = _
  rw [V_main_v1]
  refine Eq.trans (congrArg _ ?_) (Cert.RowVector.shapeCast_row (m ((c : Thread nD τ).loc main_arg4) : S768.Idx → EReal) shapeCasts_S768_S1x768 k)
  funext a
  apply Fin.ext
  match a with
  | ⟨0, _⟩ => show win0_5.index t (0 : Fin 2) * 1 + 1 * 0 = 0; omega
  | ⟨1, _⟩ => show win0_5.index t (1 : Fin 2) * 768 + 1 * k.val = k.val; omega

/-! ## What a grid point writes back -/

/-- The body's result at a point, at an element: the kernel's function of the argument arrays at the element's
    place in the result array (row 512·t + r). -/
theorem out6_at (c : Dev nD) (t : Fin cfg0.N) (b : Fin 4) (r : Fin 512) (l : Fin 768) :
    out6 (F := Ideal) (fblk m c 0 t (zf 0)) (fblk m c 1 t (zf 1)) (fblk m c 2 t (zf 2)) (fblk m c 3 t (zf 3)) (fblk m c 4 t (zf 4)) (fblk m c 5 t (zf 5)) (ix3 b r l)
      = Cert.Spec.GK (m ((c : Thread nD τ).loc main_arg0)) (m ((c : Thread nD τ).loc main_arg1)) (m ((c : Thread nD τ).loc main_arg2))
          (m ((c : Thread nD τ).loc main_arg3)) (m ((c : Thread nD τ).loc main_arg4))
          (ix3 b (⟨512 * t.val + r.val, by have := t_lt t; omega⟩ : Fin 8192) l) := by
  rw [out6_apply]
  simp only [fblk0_apply, posRow_fblk, fblk3_apply, fblk4_apply, fblk5_apply]
  rfl

/-- WHAT POINT t WRITES BACK is block t of the kernel's function of the argument arrays: the output window is never
    cut, and an element (b, r, l) of its block sits at (b, 512·t + r, l) of the result array. -/
theorem flushed_eq (c : Dev nD) (t : Fin cfg0.N) :
    (dats (F := Ideal) m 0 c).flushed 6 t = ((cfg0.win 6).blk t).view.read (Elt Ideal)
      (Cert.Spec.GK (m ((c : Thread nD τ).loc main_arg0)) (m ((c : Thread nD τ).loc main_arg1)) (m ((c : Thread nD τ).loc main_arg2))
        (m ((c : Thread nD τ).loc main_arg3)) (m ((c : Thread nD τ).loc main_arg4))) := by
  obtain ⟨-, -, -, -, -, -, -, -, -, -, -, -, -, e0, e1, e2⟩ := idx_facts t
  show (cfg0.win 6).cut (grid0.coords t) ((dats m 0 c).after 6 t) = _
  rw [after0_6]
  funext y
  obtain ⟨b, r, l, rfl⟩ : ∃ (b : Fin 4) (r : Fin 512) (l : Fin 768), (y : S4x512x768.Idx) = ix3 b r l :=
    ⟨_, _, _, eq_ix3 (y : S4x512x768.Idx)⟩
  rw [View.read_apply]
  show out6 (F := Ideal) _ _ _ _ _ _ (ix3 b r l) = Cert.Spec.GK _ _ _ _ _ (((cfg0.win 6).blk t).view.emb (ix3 b r l))
  rw [out6_at m c t b r l]
  congr 1
  funext a
  apply Fin.ext
  match a with
  | ⟨0, _⟩ => show b.val = win0_6.index t (0 : Fin 3) * 4 + 1 * b.val; omega
  | ⟨1, _⟩ => show 512 * t.val + r.val = win0_6.index t (1 : Fin 3) * 512 + 1 * r.val; omega
  | ⟨2, _⟩ => show l.val = win0_6.index t (2 : Fin 3) * 768 + 1 * l.val; omega

/-! ## The sixteen blocks cover the result array -/

/-- An index of the result array is in point t's block iff each coordinate is in the block's range on its axis. -/
theorem mem_blk (t : Fin cfg0.N) (i : S4x8192x768.Idx) :
    i ∈ ((cfg0.win 6).blk t).view.set ↔ ∀ a : Fin 3, win0_6.index t a * S4x512x768.size a ≤ (i a).val
      ∧ (i a).val < win0_6.index t a * S4x512x768.size a + S4x512x768.size a := by
  show i ∈ ((View.whole main_v2).slice (win0_6.rect t)).set ↔ _
  rw [View.set_slice_whole, Rect.mem_set_unit]
  exact Iff.rfl

/-- Row s of the result array is in the block of point s / 512, and every point writes back. -/
theorem cover (i : S4x8192x768.Idx) :
    ∃ t : Fin cfg0.N, (cfg0.win 6).flush t = true ∧ i ∈ ((cfg0.win 6).blk t).view.set := by
  have h0 : (i 0).val < 4 := (i 0).isLt
  have h1 : (i 1).val < 8192 := (i 1).isLt
  have h2 : (i 2).val < 768 := (i 2).isLt
  have hN : (i 1).val / 512 < cfg0.N := Nat.lt_of_lt_of_eq (by omega) N_0.symm
  refine ⟨⟨(i 1).val / 512, hN⟩, flush0_6 _, ?_⟩
  rw [mem_blk]
  obtain ⟨-, -, -, -, -, -, -, -, -, -, -, -, -, e0, e1, e2⟩ := idx_facts ⟨(i 1).val / 512, hN⟩
  have e1' : win0_6.index ⟨(i 1).val / 512, hN⟩ (1 : Fin 3) = (i 1).val / 512 := e1
  intro a
  match a with
  | ⟨0, _⟩ =>
    show win0_6.index ⟨(i 1).val / 512, hN⟩ (0 : Fin 3) * 4 ≤ (i 0).val ∧ (i 0).val < win0_6.index ⟨(i 1).val / 512, hN⟩ (0 : Fin 3) * 4 + 4
    omega
  | ⟨1, _⟩ =>
    show win0_6.index ⟨(i 1).val / 512, hN⟩ (1 : Fin 3) * 512 ≤ (i 1).val ∧ (i 1).val < win0_6.index ⟨(i 1).val / 512, hN⟩ (1 : Fin 3) * 512 + 512
    omega
  | ⟨2, _⟩ =>
    show win0_6.index ⟨(i 1).val / 512, hN⟩ (2 : Fin 3) * 768 ≤ (i 2).val ∧ (i 2).val < win0_6.index ⟨(i 1).val / 512, hN⟩ (2 : Fin 3) * 768 + 768
    omega

/-! ## The result array after the sixteen write-backs -/

/-- The result array after all sixteen write-backs is the kernel's function of the argument arrays. -/
theorem final6 (m : (ℓ : Loc nD τ sig) → Buf (Elt Ideal) ℓ) (c : Dev nD) :
    (dats (F := Ideal) m 0 c).arrAt 6 cfg0.N
      = Cert.Spec.GK (m ((c : Thread nD τ).loc main_arg0)) (m ((c : Thread nD τ).loc main_arg1)) (m ((c : Thread nD τ).loc main_arg2))
          (m ((c : Thread nD τ).loc main_arg3)) (m ((c : Thread nD τ).loc main_arg4)) :=
  (dats m 0 c).arrAt_eq_of_cover 6
    (Cert.Spec.GK (m ((c : Thread nD τ).loc main_arg0)) (m ((c : Thread nD τ).loc main_arg1)) (m ((c : Thread nD τ).loc main_arg2))
        (m ((c : Thread nD τ).loc main_arg3)) (m ((c : Thread nD τ).loc main_arg4)))
    (fun t _ => flushed_eq m c t) cover

end Cert.KernelIdeal.Hand

end
-- ==== Proof.RefTerm.lean ====
/-
  What the reference program computes from its five argument arrays, as one pure term: the operations of its
  main function composed in program order, each call of the two row-lookup functions replaced by the callee's
  operations on the call's operands. Nothing is proved here; the term is the object the reference's run is
  shown to end at, and the object whose value is computed beside.
-/
import proofs.«128766_g41644002902592_cont_8to1_b_1119_19_alg».proof.ReferenceIdeal

noncomputable section

namespace Cert.RefTerm

open Idealize.ShloMosaic Idealize.SL.Sem
open Cert.ReferenceIdeal
open Cert.ReferenceIdeal.Facts₀

variable {F : FTy → Type} [FloatOps F] [Cert.ReferenceIdeal.Facts]

/-- The position ids: the iota along the sequence axis plus two, broadcast over the batch. -/
def posIds : (⟨S4x8192, .i32⟩ : BufTy).Contents (Elt F) :=
  let v0 : (⟨S8192, .i32⟩ : BufTy).Contents (Elt F) := iotaInDim S8192 32 0
  let c : (⟨S_, .i32⟩ : BufTy).Contents (Elt F) := constantI S_ 32 2#32
  let v1 : (⟨S8192, .i32⟩ : BufTy).Contents (Elt F) := broadcastInDim S8192 ![] bcast_S_S8192 c
  let v2 : (⟨S8192, .i32⟩ : BufTy).Contents (Elt F) := addi v1 v0
  let v3 : (⟨S1x8192, .i32⟩ : BufTy).Contents (Elt F) := broadcastInDim S1x8192 ![1] bcast_S8192_S1x8192_1 v2
  broadcastInDim S4x8192 ![0, 1] bcast_S1x8192_S4x8192_0_1 v3

/-- The token-type ids: the zero word everywhere. -/
def ttIds : (⟨S4x8192, .i32⟩ : BufTy).Contents (Elt F) :=
  let c_0 : (⟨S_, .i32⟩ : BufTy).Contents (Elt F) := constantI S_ 32 0#32
  broadcastInDim S4x8192 ![] bcast_S_S4x8192 c_0

/-- The first row lookup (into the two-row table), operation by operation. -/
def take (a0 : (⟨S2x768, .f32⟩ : BufTy).Contents (Elt F)) (a1 : (⟨S4x8192, .i32⟩ : BufTy).Contents (Elt F)) :
    (⟨S4x8192x768, .f32⟩ : BufTy).Contents (Elt F) :=
  let c : (⟨S_, .i32⟩ : BufTy).Contents (Elt F) := constantI S_ 32 0#32
  let v0 : (⟨S4x8192, .i32⟩ : BufTy).Contents (Elt F) := broadcastInDim S4x8192 ![] bcast_S_S4x8192 c
  let v1 : (⟨S4x8192, .i1⟩ : BufTy).Contents (Elt F) := cmpi .slt a1 v0
  let c_0 : (⟨S_, .i32⟩ : BufTy).Contents (Elt F) := constantI S_ 32 2#32
  let v2 : (⟨S4x8192, .i32⟩ : BufTy).Contents (Elt F) := broadcastInDim S4x8192 ![] bcast_S_S4x8192 c_0
  let v3 : (⟨S4x8192, .i32⟩ : BufTy).Contents (Elt F) := addi a1 v2
  let v4 : (⟨S4x8192, .i32⟩ : BufTy).Contents (Elt F) := select v1 v3 a1
  let v5 : (⟨S4x8192x1, .i32⟩ : BufTy).Contents (Elt F) := broadcastInDim S4x8192x1 ![0, 1] bcast_S4x8192_S4x8192x1_0_1 v4
  let c_1 : (⟨S1, .i32⟩ : BufTy).Contents (Elt F) := constantI S1 32 1#32
  let c_2 : (⟨S_, .i32⟩ : BufTy).Contents (Elt F) := constantI S_ 32 0#32
  let v6 : (⟨S4x8192x1, .i32⟩ : BufTy).Contents (Elt F) := broadcastInDim S4x8192x1 ![] bcast_S_S4x8192x1 c_2
  let v7 : (⟨S4x8192x1, .i1⟩ : BufTy).Contents (Elt F) := cmpi .sge v5 v6
  let v8 : (⟨S1x1x1, .i32⟩ : BufTy).Contents (Elt F) := broadcastInDim S1x1x1 ![2] bcast_S1_S1x1x1_2 c_1
  let v9 : (⟨S4x8192x1, .i32⟩ : BufTy).Contents (Elt F) := broadcastInDim S4x8192x1 ![0, 1, 2] bcast_S1x1x1_S4x8192x1_0_1_2 v8
  let v10 : (⟨S4x8192x1, .i1⟩ : BufTy).Contents (Elt F) := cmpi .sle v5 v9
  let v11 : (⟨S4x8192x1, .i1⟩ : BufTy).Contents (Elt F) := andi v7 v10
  let c_3 : (⟨S_, .i1⟩ : BufTy).Contents (Elt F) := constantI S_ 1 1#1
  let v12 : (⟨S4x8192, .i1⟩ : BufTy).Contents (Elt F) := Host.reduce IntOp.andi v11 c_3 reducesTo_S4x8192x1_S4x8192_d2 h_S_
  let v13 : (⟨S4x8192x768, .f32⟩ : BufTy).Contents (Elt F) := Host.gather gather_S2x768_S4x8192x1_S4x8192x768_2_0_n_n_0_2_1768 a0 v5
  let v14 : (⟨S4x8192x768, .i1⟩ : BufTy).Contents (Elt F) := broadcastInDim S4x8192x768 ![0, 1] bcast_S4x8192_S4x8192x768_0_1 v12
  let cst : (⟨S_, .f32⟩ : BufTy).Contents (Elt F) := constant S_ .f32 0x7FC00000#32
  let v15 : (⟨S4x8192x768, .f32⟩ : BufTy).Contents (Elt F) := broadcastInDim S4x8192x768 ![] bcast_S_S4x8192x768 cst
  select v14 v13 v15

/-- The second row lookup (into the position table), operation by operation. -/
def take0 (a0 : (⟨S8194x768, .f32⟩ : BufTy).Contents (Elt F)) (a1 : (⟨S4x8192, .i32⟩ : BufTy).Contents (Elt F)) :
    (⟨S4x8192x768, .f32⟩ : BufTy).Contents (Elt F) :=
  let c : (⟨S_, .i32⟩ : BufTy).Contents (Elt F) := constantI S_ 32 0#32
  let v0 : (⟨S4x8192, .i32⟩ : BufTy).Contents (Elt F) := broadcastInDim S4x8192 ![] bcast_S_S4x8192 c
  let v1 : (⟨S4x8192, .i1⟩ : BufTy).Contents (Elt F) := cmpi .slt a1 v0
  let c_0 : (⟨S_, .i32⟩ : BufTy).Contents (Elt F) := constantI S_ 32 8194#32
  let v2 : (⟨S4x8192, .i32⟩ : BufTy).Contents (Elt F) := broadcastInDim S4x8192 ![] bcast_S_S4x8192 c_0
  let v3 : (⟨S4x8192, .i32⟩ : BufTy).Contents (Elt F) := addi a1 v2
  let v4 : (⟨S4x8192, .i32⟩ : BufTy).Contents (Elt F) := select v1 v3 a1
  let v5 : (⟨S4x8192x1, .i32⟩ : BufTy).Contents (Elt F) := broadcastInDim S4x8192x1 ![0, 1] bcast_S4x8192_S4x8192x1_0_1 v4
  let c_1 : (⟨S1, .i32⟩ : BufTy).Contents (Elt F) := constantI S1 32 8193#32
  let c_2 : (⟨S_, .i32⟩ : BufTy).Contents (Elt F) := constantI S_ 32 0#32
  let v6 : (⟨S4x8192x1, .i32⟩ : BufTy).Contents (Elt F) := broadcastInDim S4x8192x1 ![] bcast_S_S4x8192x1 c_2
  let v7 : (⟨S4x8192x1, .i1⟩ : BufTy).Contents (Elt F) := cmpi .sge v5 v6
  let v8 : (⟨S1x1x1, .i32⟩ : BufTy).Contents (Elt F) := broadcastInDim S1x1x1 ![2] bcast_S1_S1x1x1_2 c_1
  let v9 : (⟨S4x8192x1, .i32⟩ : BufTy).Contents (Elt F) := broadcastInDim S4x8192x1 ![0, 1, 2] bcast_S1x1x1_S4x8192x1_0_1_2 v8
  let v10 : (⟨S4x8192x1, .i1⟩ : BufTy).Contents (Elt F) := cmpi .sle v5 v9
  let v11 : (⟨S4x8192x1, .i1⟩ : BufTy).Contents (Elt F) := andi v7 v10
  let c_3 : (⟨S_, .i1⟩ : BufTy).Contents (Elt F) := constantI S_ 1 1#1
  let v12 : (⟨S4x8192, .i1⟩ : BufTy).Contents (Elt F) := Host.reduce IntOp.andi v11 c_3 reducesTo_S4x8192x1_S4x8192_d2 h_S_
  let v13 : (⟨S4x8192x768, .f32⟩ : BufTy).Contents (Elt F) := Host.gather gather_S8194x768_S4x8192x1_S4x8192x768_2_0_n_n_0_2_1768 a0 v5
  let v14 : (⟨S4x8192x768, .i1⟩ : BufTy).Contents (Elt F) := broadcastInDim S4x8192x768 ![0, 1] bcast_S4x8192_S4x8192x768_0_1 v12
  let cst : (⟨S_, .f32⟩ : BufTy).Contents (Elt F) := constant S_ .f32 0x7FC00000#32
  let v15 : (⟨S4x8192x768, .f32⟩ : BufTy).Contents (Elt F) := broadcastInDim S4x8192x768 ![] bcast_S_S4x8192x768 cst
  select v14 v13 v15

/-- The normalisation of the summed embedding `v9` with scale `g` and shift `β`, operation by operation. -/
def tail (v9 : (⟨S4x8192x768, .f32⟩ : BufTy).Contents (Elt F)) (g β : (⟨S768, .f32⟩ : BufTy).Contents (Elt F)) :
    (⟨S4x8192x768, .f32⟩ : BufTy).Contents (Elt F) :=
  let cst : (⟨S_, .f32⟩ : BufTy).Contents (Elt F) := constant S_ .f32 0x00000000#32
  let v10 : (⟨S4x8192, .f32⟩ : BufTy).Contents (Elt F) := Host.reduceAdd v9 cst reducesTo_S4x8192x768_S4x8192_d2 h_S_
  let v11 : (⟨S4x8192x1, .f32⟩ : BufTy).Contents (Elt F) := broadcastInDim S4x8192x1 ![0, 1] bcast_S4x8192_S4x8192x1_0_1 v10
  let cst_1 : (⟨S_, .f32⟩ : BufTy).Contents (Elt F) := constant S_ .f32 0x44400000#32
  let v12 : (⟨S4x8192x1, .f32⟩ : BufTy).Contents (Elt F) := broadcastInDim S4x8192x1 ![] bcast_S_S4x8192x1 cst_1
  let v13 : (⟨S4x8192x1, .f32⟩ : BufTy).Contents (Elt F) := Host.divf v11 v12
  let v14 : (⟨S4x8192x768, .f32⟩ : BufTy).Contents (Elt F) := broadcastInDim S4x8192x768 ![0, 1, 2] bcast_S4x8192x1_S4x8192x768_0_1_2 v13
  let v15 : (⟨S4x8192x768, .f32⟩ : BufTy).Contents (Elt F) := subf v9 v14
  let v16 : (⟨S4x8192x768, .f32⟩ : BufTy).Contents (Elt F) := mulf v15 v15
  let cst_2 : (⟨S_, .f32⟩ : BufTy).Contents (Elt F) := constant S_ .f32 0x00000000#32
  let v17 : (⟨S4x8192, .f32⟩ : BufTy).Contents (Elt F) := Host.reduceAdd v16 cst_2 reducesTo_S4x8192x768_S4x8192_d2 h_S_
  let v18 : (⟨S4x8192x1, .f32⟩ : BufTy).Contents (Elt F) := broadcastInDim S4x8192x1 ![0, 1] bcast_S4x8192_S4x8192x1_0_1 v17
  let cst_3 : (⟨S_, .f32⟩ : BufTy).Contents (Elt F) := constant S_ .f32 0x44400000#32
  let v19 : (⟨S4x8192x1, .f32⟩ : BufTy).Contents (Elt F) := broadcastInDim S4x8192x1 ![] bcast_S_S4x8192x1 cst_3
  let v20 : (⟨S4x8192x1, .f32⟩ : BufTy).Contents (Elt F) := Host.divf v18 v19
  let v21 : (⟨S4x8192x768, .f32⟩ : BufTy).Contents (Elt F) := broadcastInDim S4x8192x768 ![0, 1, 2] bcast_S4x8192x1_S4x8192x768_0_1_2 v13
  let v22 : (⟨S4x8192x768, .f32⟩ : BufTy).Contents (Elt F) := subf v9 v21
  let cst_4 : (⟨S_, .f32⟩ : BufTy).Contents (Elt F) := constant S_ .f32 0x2B8CBCCC#32
  let v23 : (⟨S4x8192x1, .f32⟩ : BufTy).Contents (Elt F) := broadcastInDim S4x8192x1 ![] bcast_S_S4x8192x1 cst_4
  let v24 : (⟨S4x8192x1, .f32⟩ : BufTy).Contents (Elt F) := addf v20 v23
  let v25 : (⟨S4x8192x1, .f32⟩ : BufTy).Contents (Elt F) := Host.sqrt v24
  let v26 : (⟨S4x8192x768, .f32⟩ : BufTy).Contents (Elt F) := broadcastInDim S4x8192x768 ![0, 1, 2] bcast_S4x8192x1_S4x8192x768_0_1_2 v25
  let v27 : (⟨S4x8192x768, .f32⟩ : BufTy).Contents (Elt F) := Host.divf v22 v26
  let v28 : (⟨S1x1x768, .f32⟩ : BufTy).Contents (Elt F) := broadcastInDim S1x1x768 ![2] bcast_S768_S1x1x768_2 g
  let v29 : (⟨S4x8192x768, .f32⟩ : BufTy).Contents (Elt F) := broadcastInDim S4x8192x768 ![0, 1, 2] bcast_S1x1x768_S4x8192x768_0_1_2 v28
  let v30 : (⟨S4x8192x768, .f32⟩ : BufTy).Contents (Elt F) := mulf v27 v29
  let v31 : (⟨S1x1x768, .f32⟩ : BufTy).Contents (Elt F) := broadcastInDim S1x1x768 ![2] bcast_S768_S1x1x768_2 β
  let v32 : (⟨S4x8192x768, .f32⟩ : BufTy).Contents (Elt F) := broadcastInDim S4x8192x768 ![0, 1, 2] bcast_S1x1x768_S4x8192x768_0_1_2 v31
  addf v30 v32

/-- The reference's result array as a function of its five argument arrays: the input plus the token-type rows,
    plus the position rows, normalised. -/
def out (x : (⟨S4x8192x768, .f32⟩ : BufTy).Contents (Elt F)) (tt : (⟨S2x768, .f32⟩ : BufTy).Contents (Elt F))
    (pos : (⟨S8194x768, .f32⟩ : BufTy).Contents (Elt F)) (g β : (⟨S768, .f32⟩ : BufTy).Contents (Elt F)) :
    (⟨S4x8192x768, .f32⟩ : BufTy).Contents (Elt F) :=
  let v6 : (⟨S4x8192x768, .f32⟩ : BufTy).Contents (Elt F) := take tt (ttIds (F := F))
  let v7 : (⟨S4x8192x768, .f32⟩ : BufTy).Contents (Elt F) := addf x v6
  let v8 : (⟨S4x8192x768, .f32⟩ : BufTy).Contents (Elt F) := take0 pos (posIds (F := F))
  let v9 : (⟨S4x8192x768, .f32⟩ : BufTy).Contents (Elt F) := addf v7 v8
  tail v9 g β

end Cert.RefTerm

end
-- ==== Proof.RefRun.lean ====
/-
  The reference program's @main read as one straight line of host operations, and its run read back.
  @main calls three module-local functions: the row lookup of the token-type table (`_take`), the row lookup of the
  position table (`_take_0`), and inside each the index wrap `_where`. A call means its callee's body on the
  operands, so the line lists the callee's operations at the call site over that call's own buffers: eight
  operations building the two index arrays (the iota plus two broadcast over the batch, and the all-zero one), the
  twenty-three of the first lookup (the index wrapped and bounds-tested, the gather, the select against the
  not-a-number fill), the sum with the input, the twenty-three of the second lookup, the second sum, and the
  twenty-nine of the normalisation (mean, centred square, mean again, the offset, the square root, the quotient,
  the scale and the shift): eighty-five in all. Every buffer then ends at the fold of the operations' results over
  the launch contents; at the result buffer that fold is the operations' composition as a pure term of the five
  argument arrays, and at each argument buffer it is what was there.
-/
import proofs.«128766_g41644002902592_cont_8to1_b_1119_19_alg».proof.Proof.Gen.ReferenceIdeal
import Idealize.ShloMosaic.Lib.StableHlo.Run
import Idealize.ShloMosaic.PureOps.Ideal
import proofs.«128766_g41644002902592_cont_8to1_b_1119_19_alg».proof.Proof.RefTerm

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- @main's eighty-five operations in order, each call's operations inline over that call's buffers. -/
abbrev ops : List (HloOp τ sig (Elt F)) :=
  [ StableHlo.nullary main_v0 (iotaInDim S8192 32 0),
    StableHlo.nullary main_c (constantI S_ 32 2#32),
    StableHlo.unary main_c main_v1 (broadcastInDim S8192 ![] bcast_S_S8192 : (⟨S_, .i32⟩ : BufTy).Contents (Elt F) → (⟨S8192, .i32⟩ : BufTy).Contents (Elt F)),
    StableHlo.binary main_v1 main_v0 main_v2 (addi : (⟨S8192, .i32⟩ : BufTy).Contents (Elt F) → (⟨S8192, .i32⟩ : BufTy).Contents (Elt F) → (⟨S8192, .i32⟩ : BufTy).Contents (Elt F)),
    StableHlo.unary main_v2 main_v3 (broadcastInDim S1x8192 ![1] bcast_S8192_S1x8192_1 : (⟨S8192, .i32⟩ : BufTy).Contents (Elt F) → (⟨S1x8192, .i32⟩ : BufTy).Contents (Elt F)),
    StableHlo.unary main_v3 main_v4 (broadcastInDim S4x8192 ![0, 1] bcast_S1x8192_S4x8192_0_1 : (⟨S1x8192, .i32⟩ : BufTy).Contents (Elt F) → (⟨S4x8192, .i32⟩ : BufTy).Contents (Elt F)),
    StableHlo.nullary main_c_0 (constantI S_ 32 0#32),
    StableHlo.unary main_c_0 main_v5 (broadcastInDim S4x8192 ![] bcast_S_S4x8192 : (⟨S_, .i32⟩ : BufTy).Contents (Elt F) → (⟨S4x8192, .i32⟩ : BufTy).Contents (Elt F)),
    StableHlo.TRef.nullary main_call0.c (constantI S_ 32 0#32),
    StableHlo.TRef.unary main_call0.c main_call0.v0 (broadcastInDim S4x8192 ![] bcast_S_S4x8192),
    StableHlo.TRef.binary (.of main_v5) main_call0.v0 main_call0.v1 (cmpi .slt),
    StableHlo.TRef.nullary main_call0.c_0 (constantI S_ 32 2#32),
    StableHlo.TRef.unary main_call0.c_0 main_call0.v2 (broadcastInDim S4x8192 ![] bcast_S_S4x8192),
    StableHlo.TRef.binary (.of main_v5) main_call0.v2 main_call0.v3 addi,
    StableHlo.TRef.ternary main_call0.v1 main_call0.v3 (.of main_v5) main_call0.call0.v0 select,
    StableHlo.TRef.unary main_call0.call0.v0 main_call0.v5 (broadcastInDim S4x8192x1 ![0, 1] bcast_S4x8192_S4x8192x1_0_1),
    StableHlo.TRef.nullary main_call0.c_1 (constantI S1 32 1#32),
    StableHlo.TRef.nullary main_call0.c_2 (constantI S_ 32 0#32),
    StableHlo.TRef.unary main_call0.c_2 main_call0.v6 (broadcastInDim S4x8192x1 ![] bcast_S_S4x8192x1),
    StableHlo.TRef.binary main_call0.v5 main_call0.v6 main_call0.v7 (cmpi .sge),
    StableHlo.TRef.unary main_call0.c_1 main_call0.v8 (broadcastInDim S1x1x1 ![2] bcast_S1_S1x1x1_2),
    StableHlo.TRef.unary main_call0.v8 main_call0.v9 (broadcastInDim S4x8192x1 ![0, 1, 2] bcast_S1x1x1_S4x8192x1_0_1_2),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S4x8192x1_S4x8192_d2 h_S_),
    StableHlo.TRef.binary (.of main_arg1) main_call0.v5 main_call0.v13 (fun x i => Host.gather gather_S2x768_S4x8192x1_S4x8192x768_2_0_n_n_0_2_1768 x i),
    StableHlo.TRef.unary main_call0.v12 main_call0.v14 (broadcastInDim S4x8192x768 ![0, 1] bcast_S4x8192_S4x8192x768_0_1),
    StableHlo.TRef.nullary main_call0.cst (constant S_ .f32 0x7FC00000#32),
    StableHlo.TRef.unary main_call0.cst main_call0.v15 (broadcastInDim S4x8192x768 ![] bcast_S_S4x8192x768),
    StableHlo.TRef.ternary main_call0.v14 main_call0.v13 main_call0.v15 main_call0.v16 select,
    StableHlo.binary main_arg0 main_v6 main_v7 (addf : (⟨S4x8192x768, .f32⟩ : BufTy).Contents (Elt F) → (⟨S4x8192x768, .f32⟩ : BufTy).Contents (Elt F) → (⟨S4x8192x768, .f32⟩ : BufTy).Contents (Elt F)),
    StableHlo.TRef.nullary main_call1.c (constantI S_ 32 0#32),
    StableHlo.TRef.unary main_call1.c main_call1.v0 (broadcastInDim S4x8192 ![] bcast_S_S4x8192),
    StableHlo.TRef.binary (.of main_v4) main_call1.v0 main_call1.v1 (cmpi .slt),
    StableHlo.TRef.nullary main_call1.c_0 (constantI S_ 32 8194#32),
    StableHlo.TRef.unary main_call1.c_0 main_call1.v2 (broadcastInDim S4x8192 ![] bcast_S_S4x8192),
    StableHlo.TRef.binary (.of main_v4) main_call1.v2 main_call1.v3 addi,
    StableHlo.TRef.ternary main_call1.v1 main_call1.v3 (.of main_v4) main_call1.call0.v0 select,
    StableHlo.TRef.unary main_call1.call0.v0 main_call1.v5 (broadcastInDim S4x8192x1 ![0, 1] bcast_S4x8192_S4x8192x1_0_1),
    StableHlo.TRef.nullary main_call1.c_1 (constantI S1 32 8193#32),
    StableHlo.TRef.nullary main_call1.c_2 (constantI S_ 32 0#32),
    StableHlo.TRef.unary main_call1.c_2 main_call1.v6 (broadcastInDim S4x8192x1 ![] bcast_S_S4x8192x1),
    StableHlo.TRef.binary main_call1.v5 main_call1.v6 main_call1.v7 (cmpi .sge),
    StableHlo.TRef.unary main_call1.c_1 main_call1.v8 (broadcastInDim S1x1x1 ![2] bcast_S1_S1x1x1_2),
    StableHlo.TRef.unary main_call1.v8 main_call1.v9 (broadcastInDim S4x8192x1 ![0, 1, 2] bcast_S1x1x1_S4x8192x1_0_1_2),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S4x8192x1_S4x8192_d2 h_S_),
    StableHlo.TRef.binary (.of main_arg2) main_call1.v5 main_call1.v13 (fun x i => Host.gather gather_S8194x768_S4x8192x1_S4x8192x768_2_0_n_n_0_2_1768 x i),
    StableHlo.TRef.unary main_call1.v12 main_call1.v14 (broadcastInDim S4x8192x768 ![0, 1] bcast_S4x8192_S4x8192x768_0_1),
    StableHlo.TRef.nullary main_call1.cst (constant S_ .f32 0x7FC00000#32),
    StableHlo.TRef.unary main_call1.cst main_call1.v15 (broadcastInDim S4x8192x768 ![] bcast_S_S4x8192x768),
    StableHlo.TRef.ternary main_call1.v14 main_call1.v13 main_call1.v15 main_call1.v16 select,
    StableHlo.binary main_v7 main_v8 main_v9 (addf : (⟨S4x8192x768, .f32⟩ : BufTy).Contents (Elt F) → (⟨S4x8192x768, .f32⟩ : BufTy).Contents (Elt F) → (⟨S4x8192x768, .f32⟩ : BufTy).Contents (Elt F)),
    StableHlo.nullary main_cst (constant S_ .f32 0x00000000#32),
    StableHlo.binary main_v9 main_cst main_v10 ((fun x v => Host.reduceAdd x v reducesTo_S4x8192x768_S4x8192_d2 h_S_) : (⟨S4x8192x768, .f32⟩ : BufTy).Contents (Elt F) → (⟨S_, .f32⟩ : BufTy).Contents (Elt F) → (⟨S4x8192, .f32⟩ : BufTy).Contents (Elt F)),
    StableHlo.unary main_v10 main_v11 (broadcastInDim S4x8192x1 ![0, 1] bcast_S4x8192_S4x8192x1_0_1 : (⟨S4x8192, .f32⟩ : BufTy).Contents (Elt F) → (⟨S4x8192x1, .f32⟩ : BufTy).Contents (Elt F)),
    StableHlo.nullary main_cst_1 (constant S_ .f32 0x44400000#32),
    StableHlo.unary main_cst_1 main_v12 (broadcastInDim S4x8192x1 ![] bcast_S_S4x8192x1 : (⟨S_, .f32⟩ : BufTy).Contents (Elt F) → (⟨S4x8192x1, .f32⟩ : BufTy).Contents (Elt F)),
    StableHlo.binary main_v11 main_v12 main_v13 (Host.divf : (⟨S4x8192x1, .f32⟩ : BufTy).Contents (Elt F) → (⟨S4x8192x1, .f32⟩ : BufTy).Contents (Elt F) → (⟨S4x8192x1, .f32⟩ : BufTy).Contents (Elt F)),
    StableHlo.unary main_v13 main_v14 (broadcastInDim S4x8192x768 ![0, 1, 2] bcast_S4x8192x1_S4x8192x768_0_1_2 : (⟨S4x8192x1, .f32⟩ : BufTy).Contents (Elt F) → (⟨S4x8192x768, .f32⟩ : BufTy).Contents (Elt F)),
    StableHlo.binary main_v9 main_v14 main_v15 (subf : (⟨S4x8192x768, .f32⟩ : BufTy).Contents (Elt F) → (⟨S4x8192x768, .f32⟩ : BufTy).Contents (Elt F) → (⟨S4x8192x768, .f32⟩ : BufTy).Contents (Elt F)),
    StableHlo.binary main_v15 main_v15 main_v16 (mulf : (⟨S4x8192x768, .f32⟩ : BufTy).Contents (Elt F) → (⟨S4x8192x768, .f32⟩ : BufTy).Contents (Elt F) → (⟨S4x8192x768, .f32⟩ : BufTy).Contents (Elt F)),
    StableHlo.nullary main_cst_2 (constant S_ .f32 0x00000000#32),
    StableHlo.binary main_v16 main_cst_2 main_v17 ((fun x v => Host.reduceAdd x v reducesTo_S4x8192x768_S4x8192_d2 h_S_) : (⟨S4x8192x768, .f32⟩ : BufTy).Contents (Elt F) → (⟨S_, .f32⟩ : BufTy).Contents (Elt F) → (⟨S4x8192, .f32⟩ : BufTy).Contents (Elt F)),
    StableHlo.unary main_v17 main_v18 (broadcastInDim S4x8192x1 ![0, 1] bcast_S4x8192_S4x8192x1_0_1 : (⟨S4x8192, .f32⟩ : BufTy).Contents (Elt F) → (⟨S4x8192x1, .f32⟩ : BufTy).Contents (Elt F)),
    StableHlo.nullary main_cst_3 (constant S_ .f32 0x44400000#32),
    StableHlo.unary main_cst_3 main_v19 (broadcastInDim S4x8192x1 ![] bcast_S_S4x8192x1 : (⟨S_, .f32⟩ : BufTy).Contents (Elt F) → (⟨S4x8192x1, .f32⟩ : BufTy).Contents (Elt F)),
    StableHlo.binary main_v18 main_v19 main_v20 (Host.divf : (⟨S4x8192x1, .f32⟩ : BufTy).Contents (Elt F) → (⟨S4x8192x1, .f32⟩ : BufTy).Contents (Elt F) → (⟨S4x8192x1, .f32⟩ : BufTy).Contents (Elt F)),
    StableHlo.unary main_v13 main_v21 (broadcastInDim S4x8192x768 ![0, 1, 2] bcast_S4x8192x1_S4x8192x768_0_1_2 : (⟨S4x8192x1, .f32⟩ : BufTy).Contents (Elt F) → (⟨S4x8192x768, .f32⟩ : BufTy).Contents (Elt F)),
    StableHlo.binary main_v9 main_v21 main_v22 (subf : (⟨S4x8192x768, .f32⟩ : BufTy).Contents (Elt F) → (⟨S4x8192x768, .f32⟩ : BufTy).Contents (Elt F) → (⟨S4x8192x768, .f32⟩ : BufTy).Contents (Elt F)),
    StableHlo.nullary main_cst_4 (constant S_ .f32 0x2B8CBCCC#32),
    StableHlo.unary main_cst_4 main_v23 (broadcastInDim S4x8192x1 ![] bcast_S_S4x8192x1 : (⟨S_, .f32⟩ : BufTy).Contents (Elt F) → (⟨S4x8192x1, .f32⟩ : BufTy).Contents (Elt F)),
    StableHlo.binary main_v20 main_v23 main_v24 (addf : (⟨S4x8192x1, .f32⟩ : BufTy).Contents (Elt F) → (⟨S4x8192x1, .f32⟩ : BufTy).Contents (Elt F) → (⟨S4x8192x1, .f32⟩ : BufTy).Contents (Elt F)),
    StableHlo.unary main_v24 main_v25 (Host.sqrt : (⟨S4x8192x1, .f32⟩ : BufTy).Contents (Elt F) → (⟨S4x8192x1, .f32⟩ : BufTy).Contents (Elt F)),
    StableHlo.unary main_v25 main_v26 (broadcastInDim S4x8192x768 ![0, 1, 2] bcast_S4x8192x1_S4x8192x768_0_1_2 : (⟨S4x8192x1, .f32⟩ : BufTy).Contents (Elt F) → (⟨S4x8192x768, .f32⟩ : BufTy).Contents (Elt F)),
    StableHlo.binary main_v22 main_v26 main_v27 (Host.divf : (⟨S4x8192x768, .f32⟩ : BufTy).Contents (Elt F) → (⟨S4x8192x768, .f32⟩ : BufTy).Contents (Elt F) → (⟨S4x8192x768, .f32⟩ : BufTy).Contents (Elt F)),
    StableHlo.unary main_arg3 main_v28 (broadcastInDim S1x1x768 ![2] bcast_S768_S1x1x768_2 : (⟨S768, .f32⟩ : BufTy).Contents (Elt F) → (⟨S1x1x768, .f32⟩ : BufTy).Contents (Elt F)),
    StableHlo.unary main_v28 main_v29 (broadcastInDim S4x8192x768 ![0, 1, 2] bcast_S1x1x768_S4x8192x768_0_1_2 : (⟨S1x1x768, .f32⟩ : BufTy).Contents (Elt F) → (⟨S4x8192x768, .f32⟩ : BufTy).Contents (Elt F)),
    StableHlo.binary main_v27 main_v29 main_v30 (mulf : (⟨S4x8192x768, .f32⟩ : BufTy).Contents (Elt F) → (⟨S4x8192x768, .f32⟩ : BufTy).Contents (Elt F) → (⟨S4x8192x768, .f32⟩ : BufTy).Contents (Elt F)),
    StableHlo.unary main_arg4 main_v31 (broadcastInDim S1x1x768 ![2] bcast_S768_S1x1x768_2 : (⟨S768, .f32⟩ : BufTy).Contents (Elt F) → (⟨S1x1x768, .f32⟩ : BufTy).Contents (Elt F)),
    StableHlo.unary main_v31 main_v32 (broadcastInDim S4x8192x768 ![0, 1, 2] bcast_S1x1x768_S4x8192x768_0_1_2 : (⟨S1x1x768, .f32⟩ : BufTy).Contents (Elt F) → (⟨S4x8192x768, .f32⟩ : BufTy).Contents (Elt F)),
    StableHlo.binary main_v30 main_v32 main_v33 (addf : (⟨S4x8192x768, .f32⟩ : BufTy).Contents (Elt F) → (⟨S4x8192x768, .f32⟩ : BufTy).Contents (Elt F) → (⟨S4x8192x768, .f32⟩ : BufTy).Contents (Elt F)) ]

-- eighty-five binds re-associated: the rewrite under the chain recurses once per statement
set_option maxRecDepth 4096 in
set_option maxHeartbeats 4000000 in
/-- @main is that straight line: the three functions' definitions unfolded at their calls and the calls' records at
    their fields, both sides are one chain of steps once sequencing is re-associated. -/
theorem main_eq (c : Dev nD) : main (F := F) c = seq ops := by
  simp only [main, fn_take.body, fn_take_0.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., unary_bufs_sub .., unary_bufs_sub ..,
    nullary_bufs_sub .., unary_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., binary_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., binary_bufs_sub .., nullary_bufs_sub .., binary_bufs_sub .., unary_bufs_sub .., nullary_bufs_sub ..,
    unary_bufs_sub .., binary_bufs_sub .., unary_bufs_sub .., binary_bufs_sub .., binary_bufs_sub .., nullary_bufs_sub ..,
    binary_bufs_sub .., unary_bufs_sub .., nullary_bufs_sub .., unary_bufs_sub .., binary_bufs_sub .., unary_bufs_sub ..,
    binary_bufs_sub .., nullary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub ..⟩

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The fold read back at the argument buffers and at the result buffer -/

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

theorem arg4_eq (V : Valuation τ sig (Elt F)) :
    after ops V (main_arg4 : DevRef τ sig) = V (main_arg4 : DevRef τ sig) := by
  simp only [after_cons, after_nil]
  rfl

attribute [local irreducible] Host.reduce Host.gather Host.reduceAdd in
set_option maxRecDepth 8192 in
set_option maxHeartbeats 4000000 in
/-- The fold at the result buffer is the operations' composition: the fold unrolled, each operation's result at its
    own buffer rewritten to its function's value and at any other buffer to what was there (the references told
    apart by computation), leaves one term over the argument contents; it is the composed term by computation, the
    typed references' casts being the identity at these literal references. The reductions and the gathers are kept folded meanwhile: their bodies
    are folds and searches over the operand's elements, and the equation never looks inside them. -/
theorem out_eq (V : Valuation τ sig (Elt F)) :
    after ops V (main_v33 : DevRef τ sig)
      = Cert.RefTerm.out (V (main_arg0 : DevRef τ sig)) (V (main_arg1 : DevRef τ sig)) (V (main_arg2 : DevRef τ sig))
          (V (main_arg3 : DevRef τ sig)) (V (main_arg4 : DevRef τ sig)) := by
  after_results_simp
  rfl

/-- At the exact-arithmetic reading of the floats, from any memory with zero counters: every weakly fair execution of
    @main on the TensorCores terminates, the result buffer ends at the operations' composition of the five argument
    arrays' launch contents, and the argument buffers end unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v33) = Cert.RefTerm.out (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c main_v33).trans (out_eq (launchContents m c)),
      (h c main_arg0).trans (arg0_eq (launchContents m c)), (h c main_arg1).trans (arg1_eq (launchContents m c)),
      (h c main_arg2).trans (arg2_eq (launchContents m c)), (h c main_arg3).trans (arg3_eq (launchContents m c)),
      (h c main_arg4).trans (arg4_eq (launchContents m c))⟩)
    (run_main m ρ)

end Cert.RefRun

end
-- ==== Proof.RefValue.lean ====
/-
  The value of the reference's term. At the extended reals the term `Cert.RefTerm.out` is the specification's `GR`:
  read at an index `(b, s, h)`,
    * the position ids are the 32-bit word of `s + 2` and the token-type ids the zero word;
  * a row lookup whose index word is in range leaves the word as it is (it is not below zero), passes the bounds
      test `0 ≤ word ≤ height − 1` (an `and` over an axis of extent one is the one element under it), and gathers
      the table's row at the word read signed and clamped, which is the word itself; the select on the mask 1 takes
      the gathered element, so the filler is never read. Hence the token-type lookup reads row 0 and the position
      lookup row `s + 2`;
    * the sum over the row axis from the zero word is zero plus the sum of the row, a column copied back along the
      row axis reads the column, the scale and shift vectors read at `h`, and every other operation is pointwise:
      the tail is the reference's row normalisation `lnR` of the row;
    * the row itself, `(x + tt₀) + pos`, is the specification's `x + (pos + tt₀)` by associativity and commutativity
      of addition on the extended reals.
-/
import proofs.«128766_g41644002902592_cont_8to1_b_1119_19_alg».proof.Proof.RefTerm
import proofs.«128766_g41644002902592_cont_8to1_b_1119_19_alg».proof.Proof.Spec
import Idealize.ShloMosaic.Lib.Pipeline.Value
import Idealize.ShloMosaic.Lib.IdealHost
import Idealize.ShloMosaic.Lib.ValueIdx
import Idealize.ShloMosaic.Lib.Affine
import Idealize.ShloMosaic.PureOps.Ideal.Laws
import Idealize.ShloMosaic.PureOps.Reduce

noncomputable section

open scoped BigOperators

namespace Cert.RefValue

open Idealize.ShloMosaic Idealize.ShloMosaic.ValueIdx
open Cert.ReferenceIdeal Cert.ReferenceIdeal.Facts₀

/-! ## The row gather read at an index -/

section Gather
variable {α : Type}

/-- The dimension numbers of a row lookup in a `[K, 768]` table at start indices `[4, 8192, 1]`: the result's last
    axis is the row's, the table's first axis is collapsed and is the one the start index names. -/
abbrev rowDims (K : Nat)
    (wf : GatherDims.WF ⟨2, ![K, 768]⟩ ⟨3, ![4, 8192, 1]⟩ ⟨3, ![4, 8192, 768]⟩ [2] [0] [] [0] [] 2 ![1, 768]) :
    GatherDims ⟨2, ![K, 768]⟩ ⟨3, ![4, 8192, 1]⟩ ⟨3, ![4, 8192, 768]⟩ where
  offsetDims := [2]
  collapsedSliceDims := [0]
  operandBatchingDims := []
  startIndicesBatchingDims := []
  startIndexMap := [0]
  indexVectorDim := 2
  sliceSizes := ![1, 768]
  wf := wf

/-- The row lookup at `(b, s, h)`: the table at row "start index `(b, s, 0)`, read signed and clamped into
    `[0, K − 1]`", column `h`. -/
theorem gather_rows_apply {K w : Nat} (hK : 0 < K)
    (wf : GatherDims.WF ⟨2, ![K, 768]⟩ ⟨3, ![4, 8192, 1]⟩ ⟨3, ![4, 8192, 768]⟩ [2] [0] [] [0] [] 2 ![1, 768])
    (x : (⟨2, ![K, 768]⟩ : Shape).Idx → α) (idx : IVec ⟨3, ![4, 8192, 1]⟩ w) (b : Fin 4) (s : Fin 8192) (h : Fin 768) :
    Host.gather (rowDims K wf) x idx (ix3 b s h)
      = x (ix2 ⟨min (idx (ix3 b s (0 : Fin 1))).toInt.toNat (K - 1), by omega⟩ h) := by
  unfold Host.gather
  refine congrArg x (funext fun a => Fin.ext ?_)
  match a with
  | ⟨0, _⟩ =>
    show (rowDims K wf).start (ix3 b s h) idx 0 + (rowDims K wf).batchCoord (ix3 b s h) 0
        + (rowDims K wf).offCoord (ix3 b s h) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 2) ∈ (rowDims K wf).startIndexMap from List.mem_singleton.mpr rfl)]
    have hsi : (rowDims K wf).siIdx (ix3 b s h) ⟨List.idxOf (0 : Fin 2) (rowDims K wf).startIndexMap,
        List.idxOf_lt_length_iff.2 (List.mem_singleton.mpr rfl)⟩ = ix3 b s (0 : Fin 1) := by
      funext c; refine Fin.ext ?_
      match c with
      | ⟨0, _⟩ => rfl
      | ⟨1, _⟩ => rfl
      | ⟨2, _⟩ => rfl
    rw [hsi]
    rfl
  | ⟨1, _⟩ =>
    show (rowDims K wf).start (ix3 b s h) idx 1 + (rowDims K wf).batchCoord (ix3 b s h) 1
        + (rowDims K wf).offCoord (ix3 b s h) 1 = _
    have hst : (rowDims K wf).start (ix3 b s h) idx 1 = 0 := by
      unfold GatherDims.start
      rw [dif_neg (show ¬ (1 : Fin 2) ∈ (rowDims K wf).startIndexMap from (by decide : (1 : Fin 2) ∉ ([0] : List (Fin 2))))]
    rw [GatherDims.batchCoord_eq_zero _ _ _ List.not_mem_nil, hst]
    simp only [Nat.add_zero, Nat.zero_add]
    unfold GatherDims.offCoord
    rw [dif_pos ((GatherDims.mem_sKept _ _).mpr ⟨(by decide : (1 : Fin 2) ∉ ([0] : List (Fin 2))), List.not_mem_nil⟩)]
    rfl

end Gather

/-! ## The bounds mask: an `and` over a unit axis -/

/-- A reduction by `and` over the last axis, of extent one, is the one element under it (combined with the initial
    word). -/
theorem reduce_and_unit [Cert.ReferenceIdeal.Facts] (x : IVec S4x8192x1 1) (init : IVec S_ 1) (b : Fin 4) (s : Fin 8192) :
    Host.reduce IntOp.andi x init reducesTo_S4x8192x1_S4x8192_d2 h_S_ (ix2 b s)
      = IntOp.andi (x (ix3 b s (0 : Fin 1))) (init ix0) := by
  have hR : S4x8192x1.Reduces [2] S4x8192 := by decide
  refine (Host.reduce_eq_fold_single IntOp.andi x init reducesTo_S4x8192x1_S4x8192_d2 hR h_S_ (ix2 b s)).trans ?_
  have one : ∀ (n : Nat) (hn : n = 1) (f : Fin n → BitVec 1) (i0 : BitVec 1),
      (Finset.univ : Finset (Fin n)).fold IntOp.andi i0 f = IntOp.andi (f ⟨0, by omega⟩) i0 := by
    intro n hn; subst hn; intro f i0
    rw [Finset.univ_unique, Finset.fold_singleton]; rfl
  refine (one _ rfl _ _).trans ?_
  refine congrArg₂ IntOp.andi (congrArg x ?_) (congrArg init (eq_ix0 _))
  funext c; refine Fin.ext ?_
  match c with
  | ⟨0, _⟩ => rfl
  | ⟨1, _⟩ => rfl
  | ⟨2, _⟩ => rfl

/-! ## The two row lookups -/

section Lookup
variable [Cert.ReferenceIdeal.Facts]

/-- The start indices of a lookup: an index below zero has the table's height `n` added, and the result is set out as
    a column. -/
def startOf (n : BitVec 32) (a1 : IVec S4x8192 32) : IVec S4x8192x1 32 :=
  broadcastInDim S4x8192x1 ![0, 1] bcast_S4x8192_S4x8192x1_0_1
    (select (cmpi .slt a1 (broadcastInDim S4x8192 ![] bcast_S_S4x8192 (constantI S_ 32 0#32)))
      (addi a1 (broadcastInDim S4x8192 ![] bcast_S_S4x8192 (constantI S_ 32 n))) a1)

/-- The bounds mask of a lookup: `0 ≤ start ≤ m`, reduced by `and` over the column's unit axis. -/
def maskOf (m : BitVec 32) (v5 : IVec S4x8192x1 32) : IVec S4x8192 1 :=
  Host.reduce IntOp.andi
    (andi (cmpi .sge v5 (broadcastInDim S4x8192x1 ![] bcast_S_S4x8192x1 (constantI S_ 32 0#32)))
      (cmpi .sle v5 (broadcastInDim S4x8192x1 ![0, 1, 2] bcast_S1x1x1_S4x8192x1_0_1_2
        (broadcastInDim S1x1x1 ![2] bcast_S1_S1x1x1_2 (constantI S1 32 m)))))
    (constantI S_ 1 1#1) reducesTo_S4x8192x1_S4x8192_d2 h_S_

theorem startOf_apply (n : BitVec 32) (a1 : IVec S4x8192 32) (b : Fin 4) (s : Fin 8192) :
    startOf n a1 (ix3 b s (0 : Fin 1))
      = Scalar.select (IntOp.cmpi .slt (a1 (ix2 b s)) 0#32) (IntOp.addi (a1 (ix2 b s)) n) (a1 (ix2 b s)) :=
  (broadcastInDim_apply _ _ _ (ix3 b s (0 : Fin 1)) (ix2 b s)
    (fun a => match a with | ⟨0, _⟩ => rfl | ⟨1, _⟩ => rfl)).trans rfl

theorem maskOf_apply (m : BitVec 32) (v5 : IVec S4x8192x1 32) (b : Fin 4) (s : Fin 8192) :
    maskOf m v5 (ix2 b s)
      = IntOp.andi (IntOp.andi (IntOp.cmpi .sge (v5 (ix3 b s (0 : Fin 1))) 0#32)
          (IntOp.cmpi .sle (v5 (ix3 b s (0 : Fin 1))) m)) 1#1 :=
  (reduce_and_unit _ _ b s).trans rfl

/-- A lookup whose index word `w` at `(b, s)` is in range — `0 ≤ w ≤ m` read signed — reads row `w` of the table:
    the index is left as it is, the mask is 1, so the select takes the gathered element and never the filler. -/
theorem lookup_apply {K : Nat} (hK : 0 < K)
    (wf : GatherDims.WF ⟨2, ![K, 768]⟩ ⟨3, ![4, 8192, 1]⟩ ⟨3, ![4, 8192, 768]⟩ [2] [0] [] [0] [] 2 ![1, 768])
    (n m : BitVec 32) (a0 : (⟨2, ![K, 768]⟩ : Shape).Idx → EReal) (a1 : IVec S4x8192 32)
    (fill : S4x8192x768.Idx → EReal) (b : Fin 4) (s : Fin 8192) (h : Fin 768)
    (w : BitVec 32) (hw : a1 (ix2 b s) = w) (h0 : 0 ≤ w.toInt) (h1 : w.toInt ≤ m.toInt)
    (r : Fin K) (hr : min w.toInt.toNat (K - 1) = r.val) :
    select (broadcastInDim S4x8192x768 ![0, 1] bcast_S4x8192_S4x8192x768_0_1 (maskOf m (startOf n a1)))
        (Host.gather (rowDims K wf) a0 (startOf n a1)) fill (ix3 b s h)
      = a0 (ix2 r h) := by
  have hst : startOf n a1 (ix3 b s (0 : Fin 1)) = w := by
    rw [startOf_apply, hw]
    have hlt : IntOp.cmpi .slt w 0#32 = 0#1 := by
      refine eq_zero_of_ne_one fun e => ?_
      rw [IntOp.cmpi_slt, show (0#32 : BitVec 32).toInt = 0 from rfl] at e
      omega
    rw [hlt, select_zero]
  have hmask : maskOf m (startOf n a1) (ix2 b s) = 1#1 := by
    rw [maskOf_apply, hst,
      (IntOp.cmpi_sge (x := w) (y := 0#32)).mpr (by rw [show (0#32 : BitVec 32).toInt = 0 from rfl]; exact h0),
      (IntOp.cmpi_sle (x := w) (y := m)).mpr h1]
    rfl
  have hc : broadcastInDim S4x8192x768 ![0, 1] bcast_S4x8192_S4x8192x768_0_1 (maskOf m (startOf n a1)) (ix3 b s h)
      = 1#1 :=
    (broadcastInDim_apply _ _ _ (ix3 b s h) (ix2 b s)
      (fun a => match a with | ⟨0, _⟩ => rfl | ⟨1, _⟩ => rfl)).trans hmask
  show Scalar.select
      (broadcastInDim S4x8192x768 ![0, 1] bcast_S4x8192_S4x8192x768_0_1 (maskOf m (startOf n a1)) (ix3 b s h))
      (Host.gather (rowDims K wf) a0 (startOf n a1) (ix3 b s h)) (fill (ix3 b s h)) = _
  rw [hc, select_one]
  refine (gather_rows_apply hK wf a0 _ b s h).trans (congrArg a0 ?_)
  refine congrArg (fun q : Fin K => (ix2 q h : (⟨2, ![K, 768]⟩ : Shape).Idx)) (Fin.ext ?_)
  show min (startOf n a1 (ix3 b s (0 : Fin 1))).toInt.toNat (K - 1) = r.val
  rw [hst]
  exact hr

/-- The token-type lookup at index word 0 reads the table's row 0. -/
theorem take_apply (tt : S2x768.Idx → EReal) (a1 : IVec S4x8192 32) (b : Fin 4) (s : Fin 8192) (h : Fin 768)
    (hw : a1 (ix2 b s) = 0#32) :
    Cert.RefTerm.take (F := Ideal) tt a1 (ix3 b s h) = tt (ix2 (0 : Fin 2) h) :=
  lookup_apply (K := 2) (by decide) gather_S2x768_S4x8192x1_S4x8192x768_2_0_n_n_0_2_1768_wf 2#32 1#32 tt a1 _ b s h
    0#32 hw (by decide) (by decide) (0 : Fin 2) (by decide)

/-- The word of `s + 2`, for `s` below 8192, read signed. -/
theorem toInt_pos_word (s : Fin 8192) : (2#32 + BitVec.ofNat 32 s.val).toInt = (s.val : Int) + 2 := by
  have hs := s.isLt
  have hn : (2#32 + BitVec.ofNat 32 s.val).toNat = s.val + 2 := by
    rw [BitVec.toNat_add, BitVec.toNat_ofNat, BitVec.toNat_ofNat]; omega
  rw [BitVec.toInt_eq_toNat_of_lt (by omega), hn]; omega

/-- The position lookup at the index word of `s + 2` reads the table's row `s + 2`. -/
theorem take0_apply (pos : S8194x768.Idx → EReal) (a1 : IVec S4x8192 32) (b : Fin 4) (s : Fin 8192) (h : Fin 768)
    (hw : a1 (ix2 b s) = 2#32 + BitVec.ofNat 32 s.val) :
    Cert.RefTerm.take0 (F := Ideal) pos a1 (ix3 b s h) = pos (ix2 (⟨s.val + 2, by omega⟩ : Fin 8194) h) :=
  lookup_apply (K := 8194) (by decide) gather_S8194x768_S4x8192x1_S4x8192x768_2_0_n_n_0_2_1768_wf 8194#32 8193#32 pos a1 _ b s h
    (2#32 + BitVec.ofNat 32 s.val) hw (by rw [toInt_pos_word]; omega)
    (by rw [toInt_pos_word, show (8193#32 : BitVec 32).toInt = 8193 from by decide]; have := s.isLt; omega)
    (⟨s.val + 2, by omega⟩ : Fin 8194) (by show min _ (8194 - 1) = s.val + 2; rw [toInt_pos_word]; have := s.isLt; omega)

/-- The token-type ids are the zero word. -/
theorem ttIds_apply (b : Fin 4) (s : Fin 8192) : Cert.RefTerm.ttIds (F := Ideal) (ix2 b s) = 0#32 := rfl

/-- The position ids are the word of `s + 2`. -/
theorem posIds_apply (b : Fin 4) (s : Fin 8192) :
    Cert.RefTerm.posIds (F := Ideal) (ix2 b s) = 2#32 + BitVec.ofNat 32 s.val := rfl

end Lookup

/-! ## The normalisation -/

section Tail
variable [Cert.ReferenceIdeal.Facts]

/-- A `[4, 8192]` array set out as a column, read at `(b, s, 0)`. -/
theorem bc_col {α : Type} (x : S4x8192.Idx → α) (b : Fin 4) (s : Fin 8192) :
    broadcastInDim S4x8192x1 ![0, 1] bcast_S4x8192_S4x8192x1_0_1 x (ix3 b s (0 : Fin 1)) = x (ix2 b s) :=
  broadcastInDim_apply _ _ x (ix3 b s (0 : Fin 1)) (ix2 b s) (fun a => match a with | ⟨0, _⟩ => rfl | ⟨1, _⟩ => rfl)

/-- A column copied along the row axis, read at `(b, s, h)`. -/
theorem bc_row {α : Type} (x : S4x8192x1.Idx → α) (b : Fin 4) (s : Fin 8192) (h : Fin 768) :
    broadcastInDim S4x8192x768 ![0, 1, 2] bcast_S4x8192x1_S4x8192x768_0_1_2 x (ix3 b s h) = x (ix3 b s (0 : Fin 1)) :=
  broadcastInDim_apply _ _ x (ix3 b s h) (ix3 b s (0 : Fin 1))
    (fun a => match a with | ⟨0, _⟩ => rfl | ⟨1, _⟩ => rfl | ⟨2, _⟩ => rfl)

/-- A length-768 vector copied to every row, read at `(b, s, h)`. -/
theorem bc_vec {α : Type} (g : S768.Idx → α) (b : Fin 4) (s : Fin 8192) (h : Fin 768) :
    broadcastInDim S4x8192x768 ![0, 1, 2] bcast_S1x1x768_S4x8192x768_0_1_2
        (broadcastInDim S1x1x768 ![2] bcast_S768_S1x1x768_2 g) (ix3 b s h) = g (ix1 h) :=
  (broadcastInDim_apply _ _ _ (ix3 b s h) (ix3 (0 : Fin 1) (0 : Fin 1) h)
      (fun a => match a with | ⟨0, _⟩ => rfl | ⟨1, _⟩ => rfl | ⟨2, _⟩ => rfl)).trans
    (broadcastInDim_apply _ _ g (ix3 (0 : Fin 1) (0 : Fin 1) h) (ix1 h) (fun a => match a with | ⟨0, _⟩ => rfl))

/-- The host's sum over the row axis from the zero word, at `(b, s)`: zero plus the sum of the row. -/
theorem rowSum (v : FVec Ideal S4x8192x768 .f32) (b : Fin 4) (s : Fin 8192) :
    Host.reduceAdd (F := Ideal) v (constant S_ .f32 0x00000000#32) reducesTo_S4x8192x768_S4x8192_d2 h_S_ (ix2 b s)
      = Cert.Spec.z0 + ∑ k : Fin 768, v (ix3 b s k) := by
  have hR : S4x8192x768.Reduces [2] S4x8192 := by decide
  refine (Ideal.hostReduceAdd_single reducesTo_S4x8192x768_S4x8192_d2 hR v _ (ix2 b s)).trans ?_
  refine congrArg (fun t => Cert.Spec.z0 + t) ?_
  show ∑ k : Fin 768, v (hR.lift (ix2 b s) k) = _
  refine Finset.sum_congr rfl fun k _ => congrArg v ?_
  funext c; refine Fin.ext ?_
  match c with
  | ⟨0, _⟩ => rfl
  | ⟨1, _⟩ => rfl
  | ⟨2, _⟩ => rfl

/-- The reference's mean column. -/
def mean (v9 : FVec Ideal S4x8192x768 .f32) : FVec Ideal S4x8192x1 .f32 :=
  Host.divf (F := Ideal) (φ := .f32)
    (broadcastInDim S4x8192x1 ![0, 1] bcast_S4x8192_S4x8192x1_0_1
      (Host.reduceAdd (F := Ideal) v9 (constant S_ .f32 0x00000000#32) reducesTo_S4x8192x768_S4x8192_d2 h_S_))
    (broadcastInDim S4x8192x1 ![] bcast_S_S4x8192x1 (constant (F := Ideal) S_ .f32 0x44400000#32))

/-- The centred array. -/
def cen (v9 : FVec Ideal S4x8192x768 .f32) : FVec Ideal S4x8192x768 .f32 :=
  subf (F := Ideal) (φ := .f32) v9 (broadcastInDim S4x8192x768 ![0, 1, 2] bcast_S4x8192x1_S4x8192x768_0_1_2 (mean v9))

/-- The reference's standard-deviation column. -/
def sd (v9 : FVec Ideal S4x8192x768 .f32) : FVec Ideal S4x8192x1 .f32 :=
  Host.sqrt (F := Ideal) (φ := .f32)
    (addf (F := Ideal) (φ := .f32)
      (Host.divf (F := Ideal) (φ := .f32)
        (broadcastInDim S4x8192x1 ![0, 1] bcast_S4x8192_S4x8192x1_0_1
          (Host.reduceAdd (F := Ideal) (mulf (F := Ideal) (φ := .f32) (cen v9) (cen v9)) (constant S_ .f32 0x00000000#32)
            reducesTo_S4x8192x768_S4x8192_d2 h_S_))
        (broadcastInDim S4x8192x1 ![] bcast_S_S4x8192x1 (constant (F := Ideal) S_ .f32 0x44400000#32)))
      (broadcastInDim S4x8192x1 ![] bcast_S_S4x8192x1 (constant (F := Ideal) S_ .f32 0x2B8CBCCC#32)))

/-- The normalisation is the centred array over the standard deviation, scaled and shifted. -/
theorem tail_eq (v9 : FVec Ideal S4x8192x768 .f32) (g β : FVec Ideal S768 .f32) :
    Cert.RefTerm.tail (F := Ideal) v9 g β
      = addf (F := Ideal) (φ := .f32)
          (mulf (F := Ideal) (φ := .f32)
            (Host.divf (F := Ideal) (φ := .f32) (cen v9)
              (broadcastInDim S4x8192x768 ![0, 1, 2] bcast_S4x8192x1_S4x8192x768_0_1_2 (sd v9)))
            (broadcastInDim S4x8192x768 ![0, 1, 2] bcast_S1x1x768_S4x8192x768_0_1_2
              (broadcastInDim S1x1x768 ![2] bcast_S768_S1x1x768_2 g)))
          (broadcastInDim S4x8192x768 ![0, 1, 2] bcast_S1x1x768_S4x8192x768_0_1_2
            (broadcastInDim S1x1x768 ![2] bcast_S768_S1x1x768_2 β)) := rfl

theorem mean_apply (v9 : FVec Ideal S4x8192x768 .f32) (b : Fin 4) (s : Fin 8192) :
    mean v9 (ix3 b s (0 : Fin 1)) = Ideal.div (Cert.Spec.z0 + ∑ k : Fin 768, v9 (ix3 b s k)) Cert.Spec.c768 :=
  congrArg (fun t => Ideal.div t Cert.Spec.c768) ((bc_col _ b s).trans (rowSum v9 b s))

theorem cen_apply (v9 : FVec Ideal S4x8192x768 .f32) (b : Fin 4) (s : Fin 8192) (k : Fin 768) :
    cen v9 (ix3 b s k)
      = v9 (ix3 b s k) - Ideal.div (Cert.Spec.z0 + ∑ k : Fin 768, v9 (ix3 b s k)) Cert.Spec.c768 :=
  congrArg (fun t => v9 (ix3 b s k) - t) ((bc_row _ b s k).trans (mean_apply v9 b s))

theorem sd_apply (v9 : FVec Ideal S4x8192x768 .f32) (b : Fin 4) (s : Fin 8192) :
    sd v9 (ix3 b s (0 : Fin 1))
      = Ideal.sqrt (Ideal.div (Cert.Spec.z0 + ∑ k : Fin 768,
            (v9 (ix3 b s k) - Ideal.div (Cert.Spec.z0 + ∑ k : Fin 768, v9 (ix3 b s k)) Cert.Spec.c768)
              * (v9 (ix3 b s k) - Ideal.div (Cert.Spec.z0 + ∑ k : Fin 768, v9 (ix3 b s k)) Cert.Spec.c768))
          Cert.Spec.c768 + Cert.Spec.eps) := by
  refine congrArg (fun t => Ideal.sqrt (Ideal.div t Cert.Spec.c768 + Cert.Spec.eps)) ?_
  refine ((bc_col _ b s).trans (rowSum _ b s)).trans ?_
  refine congrArg (fun t => Cert.Spec.z0 + t) (Finset.sum_congr rfl fun k _ => ?_)
  show cen v9 (ix3 b s k) * cen v9 (ix3 b s k) = _
  rw [cen_apply]

/-- The normalisation at `(b, s, h)` is the reference's row normalisation of row `(b, s)`, at `h`. -/
theorem tail_apply (v9 : FVec Ideal S4x8192x768 .f32) (g β : FVec Ideal S768 .f32) (b : Fin 4) (s : Fin 8192) (h : Fin 768) :
    Cert.RefTerm.tail (F := Ideal) v9 g β (ix3 b s h)
      = Cert.Spec.lnR (fun k => v9 (ix3 b s k)) (fun k => g (ix1 k)) (fun k => β (ix1 k)) h := by
  rw [tail_eq]
  show Ideal.div (cen v9 (ix3 b s h))
        (broadcastInDim S4x8192x768 ![0, 1, 2] bcast_S4x8192x1_S4x8192x768_0_1_2 (sd v9) (ix3 b s h))
      * broadcastInDim S4x8192x768 ![0, 1, 2] bcast_S1x1x768_S4x8192x768_0_1_2
          (broadcastInDim S1x1x768 ![2] bcast_S768_S1x1x768_2 g) (ix3 b s h)
      + broadcastInDim S4x8192x768 ![0, 1, 2] bcast_S1x1x768_S4x8192x768_0_1_2
          (broadcastInDim S1x1x768 ![2] bcast_S768_S1x1x768_2 β) (ix3 b s h) = _
  rw [bc_row, bc_vec, bc_vec, sd_apply, cen_apply]
  rfl

end Tail

/-! ## The result -/

/-- The reference's term is the specification's `GR`: at `(b, s, h)` the two lookups read the token-type row 0 and the
    position row `s + 2`, the three-term sum is the embedding's row up to the order of addition, and the rest is the
    reference's row normalisation. -/
theorem out_eq_GR [Cert.ReferenceIdeal.Facts] (x : (⟨3, ![4, 8192, 768]⟩ : Shape).Idx → EReal)
    (tt : (⟨2, ![2, 768]⟩ : Shape).Idx → EReal) (pos : (⟨2, ![8194, 768]⟩ : Shape).Idx → EReal)
    (g β : (⟨1, ![768]⟩ : Shape).Idx → EReal) :
    Cert.RefTerm.out (F := Ideal) x tt pos g β = Cert.Spec.GR x tt pos g β := by
  funext i
  obtain ⟨b, s, h, rfl⟩ : ∃ (b : Fin 4) (s : Fin 8192) (h : Fin 768), i = ix3 b s h := ⟨i 0, i 1, i 2, eq_ix3 i⟩
  show Cert.RefTerm.tail (F := Ideal)
      (addf (F := Ideal) (addf (F := Ideal) x (Cert.RefTerm.take (F := Ideal) tt (Cert.RefTerm.ttIds (F := Ideal))))
        (Cert.RefTerm.take0 (F := Ideal) pos (Cert.RefTerm.posIds (F := Ideal)))) g β (ix3 b s h)
    = Cert.Spec.lnR (Cert.Spec.row x tt pos b s) (fun k => g (ix1 k)) (fun k => β (ix1 k)) h
  refine (tail_apply _ g β b s h).trans ?_
  refine congrArg (fun e => Cert.Spec.lnR e (fun k => g (ix1 k)) (fun k => β (ix1 k)) h) (funext fun k => ?_)
  show x (ix3 b s k) + Cert.RefTerm.take (F := Ideal) tt (Cert.RefTerm.ttIds (F := Ideal)) (ix3 b s k)
      + Cert.RefTerm.take0 (F := Ideal) pos (Cert.RefTerm.posIds (F := Ideal)) (ix3 b s k)
    = x (ix3 b s k) + (pos (ix2 (⟨s.val + 2, by omega⟩ : Fin 8194) k) + tt (ix2 (0 : Fin 2) k))
  rw [take_apply tt _ b s k (ttIds_apply b s), take0_apply pos _ b s k (posIds_apply b s), add_assoc,
    add_comm (tt (ix2 (0 : Fin 2) k))]

end Cert.RefValue

end
-- ==== Proof.Finite.lean ====
/-
  What the precondition says of the first three argument arrays: every entry is a real number. The printed
  predicate is the conjunction, over the five arrays, of "every entry's absolute value is below the pattern of plus
  infinity", each "every" an `and` over all axes into a single word. Read back: the conjunction being 1 gives each
  conjunct 1; an `and` over all entries being 1 gives each entry's comparison 1; the pattern is the extended reals'
  top, so `max x (−x) < ⊤`, which neither `⊥` nor `⊤` satisfies: the entry is a real.
-/
import proofs.«128766_g41644002902592_cont_8to1_b_1119_19_alg».proof.Defs
import Idealize.ShloMosaic.Lib.ReduceAll
import Idealize.ShloMosaic.Lib.ValueIdx
import Idealize.ShloMosaic.PureOps.Ideal.Laws

noncomputable section

namespace Cert.Finite

open Idealize.ShloMosaic Idealize.SL.Sem

/-- An extended real whose absolute value compares below the pattern of plus infinity is a real. -/
theorem real_of_abs_lt (x : EReal)
    (hx : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at hx
  have hlt : max x (-x) < ⊤ := by
    by_cases hlt : max x (-x) < ⊤
    · exact hlt
    · rw [show Ideal.cmp .olt (max x (-x)) ⊤ = BitVec.ofBool (decide (max x (-x) < ⊤)) from rfl,
        decide_eq_false hlt] at hx
      exact absurd hx (by decide)
  induction x using EReal.rec with
  | bot => simp at hlt
  | top => simp at hlt
  | coe r => exact ⟨r, rfl⟩

/-- The scalar shape has one index. -/
instance : Subsingleton Cert.Pre_finite_inputs.S_.Idx := ⟨fun a b => funext fun d => d.elim0⟩

/-- The predicate on five arrays, read back on the first three: every entry is a real. -/
theorem reals_of_fn [Cert.Pre_finite_inputs.Facts]
    (x0 : FVec Ideal Cert.Pre_finite_inputs.S4x8192x768 .f32) (x1 : FVec Ideal Cert.Pre_finite_inputs.S2x768 .f32)
    (x2 : FVec Ideal Cert.Pre_finite_inputs.S8194x768 .f32) (x3 x4 : FVec Ideal Cert.Pre_finite_inputs.S768 .f32)
    (h : Cert.Pre_finite_inputs.fn (F := Ideal) x0 x1 x2 x3 x4 ValueIdx.ix0 = 1#1) :
    (∀ i, ∃ r : ℝ, x0 i = (r : EReal)) ∧ (∀ i, ∃ r : ℝ, x1 i = (r : EReal)) ∧ (∀ i, ∃ r : ℝ, x2 i = (r : EReal)) := by
  unfold Cert.Pre_finite_inputs.fn Cert.Pre_finite_inputs.fn_part1 at h
  dsimp only at h
  change IntOp.andi (IntOp.andi (IntOp.andi (IntOp.andi _ _) _) _) _ = 1#1 at h
  obtain ⟨h0123, -⟩ := IntOp.andi_eq_one.mp h
  obtain ⟨h012, -⟩ := IntOp.andi_eq_one.mp h0123
  obtain ⟨h01, h2⟩ := IntOp.andi_eq_one.mp h012
  obtain ⟨h0, h1⟩ := IntOp.andi_eq_one.mp h01
  exact ⟨fun i => real_of_abs_lt (x0 i) (Host.reduce_andi_all _ _ _ _ _ h0 i),
    fun i => real_of_abs_lt (x1 i) (Host.reduce_andi_all _ _ _ _ _ h1 i),
    fun i => real_of_abs_lt (x2 i) (Host.reduce_andi_all _ _ _ _ _ h2 i)⟩

/-- Under the certificate's precondition the kernel's first three argument arrays hold reals, on every device. -/
theorem reals_of_pre [hKernelIdeal : Cert.KernelIdeal.Facts] [hPre_finite_inputs : Cert.Pre_finite_inputs.Facts]
    (m : (ℓ : Loc Cert.KernelIdeal.nD Cert.KernelIdeal.τ Cert.KernelIdeal.sig) → Buf (Elt Ideal) ℓ) (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal)) :=
  reals_of_fn _ _ _ _ _ (congrFun (h c) ValueIdx.ix0)

end Cert.Finite

end
-- ==== Proof.LnLaw.lean ====
/-
  The row law: on a row of real numbers the one-pass normalisation (variance `E[e²] − E[e]²`, product with the
  reciprocal square root) and the two-pass normalisation (variance `E[(e − E[e])²]`, quotient by the square
  root) are one function. Every intermediate value is a real number: the three constants denote `768`, `0` and a
  positive real `p`; a finite sum of reals is a real; the two variances are the same real `v ≥ 0`, so `v + p > 0`
  and both the square root and its reciprocal take their real branches.
-/
import proofs.«128766_g41644002902592_cont_8to1_b_1119_19_alg».proof.Proof.Spec
import Idealize.ShloMosaic.PureOps.Ideal
import Idealize.ShloMosaic.PureOps.Ideal.Laws

noncomputable section

open scoped BigOperators

namespace Cert.LnLaw

open Idealize.ShloMosaic

/-- The pattern `0x44400000` denotes the real `768`. -/
theorem c768_eq : Cert.Spec.c768 = ((768 : ℝ) : EReal) := by
  simp [Cert.Spec.c768, Ideal.ofBits, Ideal.ieee, -EReal.coe_mul]; norm_num

/-- The pattern `0x00000000` denotes `0`. -/
theorem z0_eq : Cert.Spec.z0 = 0 := Ideal.ofBits_zero_f32

/-- The variance offset denotes a positive real. -/
theorem eps_eq : ∃ p : ℝ, 0 < p ∧ Cert.Spec.eps = ((p : ℝ) : EReal) := by
  refine ⟨9223372 * (2 : ℝ) ^ (-63 : ℤ), by positivity, ?_⟩
  simp [Cert.Spec.eps, Ideal.ofBits, Ideal.ieee, -EReal.coe_mul]

/-- A finite sum of real numbers, taken in the extended reals, is the real sum. -/
theorem coe_sum {ι : Type} (s : Finset ι) (r : ι → ℝ) :
    (∑ k ∈ s, ((r k : ℝ) : EReal)) = ((∑ k ∈ s, r k : ℝ) : EReal) := by
  classical
  induction s using Finset.induction_on with
  | empty => simp
  | insert a s ha ih => rw [Finset.sum_insert ha, Finset.sum_insert ha, ih, EReal.coe_add]

/-- The two-pass variance of 768 reals is their one-pass variance. -/
theorem var_identity (r : Fin 768 → ℝ) :
    (∑ k, (r k - (∑ j, r j) * (1 / 768)) * (r k - (∑ j, r j) * (1 / 768))) * (1 / 768)
      = (∑ k, r k * r k) * (1 / 768) - ((∑ j, r j) * (1 / 768)) * ((∑ j, r j) * (1 / 768)) := by
  have h1 : ∀ k, (r k - (∑ j, r j) * (1 / 768)) * (r k - (∑ j, r j) * (1 / 768))
      = r k * r k - 2 * ((∑ j, r j) * (1 / 768)) * r k
        + ((∑ j, r j) * (1 / 768)) * ((∑ j, r j) * (1 / 768)) := fun k => by ring
  simp_rw [h1]
  rw [Finset.sum_add_distrib, Finset.sum_sub_distrib, ← Finset.mul_sum, Finset.sum_const, Finset.card_univ,
    Fintype.card_fin, nsmul_eq_mul]
  push_cast
  ring

/-- The two-pass variance is not negative. -/
theorem var_nonneg (r : Fin 768 → ℝ) :
    0 ≤ (∑ k, (r k - (∑ j, r j) * (1 / 768)) * (r k - (∑ j, r j) * (1 / 768))) * (1 / 768) := by
  apply mul_nonneg
  · exact Finset.sum_nonneg (fun k _ => mul_self_nonneg _)
  · norm_num

/-- The mean of a row of reals is the real mean. -/
theorem mean_eq (r : Fin 768 → ℝ) :
    Ideal.div (∑ k, ((r k : ℝ) : EReal)) Cert.Spec.c768 = (((∑ k, r k) * (1 / 768) : ℝ) : EReal) := by
  rw [coe_sum, c768_eq, Ideal.div_coe (by norm_num), ← EReal.coe_mul]

/-- The kernel's normalised factor on a row of reals, as a real number. -/
theorem lnK_real (r : Fin 768 → ℝ) (p : ℝ) (hp : 0 < p) (hε : Cert.Spec.eps = ((p : ℝ) : EReal)) (h : Fin 768) :
    (((r h : ℝ) : EReal) - Ideal.div (∑ k, ((r k : ℝ) : EReal)) Cert.Spec.c768)
      * Ideal.rsqrt ((Ideal.div (∑ k, ((r k : ℝ) : EReal) * ((r k : ℝ) : EReal)) Cert.Spec.c768
          - Ideal.div (∑ k, ((r k : ℝ) : EReal)) Cert.Spec.c768
            * Ideal.div (∑ k, ((r k : ℝ) : EReal)) Cert.Spec.c768) + Cert.Spec.eps)
      = (((r h - (∑ j, r j) * (1 / 768))
          * (Real.sqrt ((∑ k, (r k - (∑ j, r j) * (1 / 768)) * (r k - (∑ j, r j) * (1 / 768))) * (1 / 768) + p))⁻¹ : ℝ) : EReal) := by
  have hQ : (∑ k, ((r k : ℝ) : EReal) * ((r k : ℝ) : EReal)) = ∑ k, (((r k * r k : ℝ)) : EReal) :=
    Finset.sum_congr rfl (fun k _ => (EReal.coe_mul _ _).symm)
  have hpos : 0 < (∑ k, r k * r k) * (1 / 768) - ((∑ j, r j) * (1 / 768)) * ((∑ j, r j) * (1 / 768)) + p := by
    rw [← var_identity]; have := var_nonneg r; linarith
  rw [hQ, mean_eq r, mean_eq (fun k => r k * r k), ← EReal.coe_mul, ← EReal.coe_sub, ← EReal.coe_sub, hε,
    ← EReal.coe_add, Ideal.rsqrt_coe, if_neg (not_lt.mpr hpos.le), if_neg hpos.ne', ← EReal.coe_mul, var_identity]

/-- The reference's normalised factor on a row of reals, as a real number. -/
theorem lnR_real (r : Fin 768 → ℝ) (p : ℝ) (hp : 0 < p) (hε : Cert.Spec.eps = ((p : ℝ) : EReal)) (h : Fin 768) :
    Ideal.div (((r h : ℝ) : EReal) - Ideal.div (Cert.Spec.z0 + ∑ k, ((r k : ℝ) : EReal)) Cert.Spec.c768)
      (Ideal.sqrt (Ideal.div (Cert.Spec.z0 + ∑ k,
          (((r k : ℝ) : EReal) - Ideal.div (Cert.Spec.z0 + ∑ k, ((r k : ℝ) : EReal)) Cert.Spec.c768)
            * (((r k : ℝ) : EReal) - Ideal.div (Cert.Spec.z0 + ∑ k, ((r k : ℝ) : EReal)) Cert.Spec.c768))
          Cert.Spec.c768 + Cert.Spec.eps))
      = (((r h - (∑ j, r j) * (1 / 768))
          * (Real.sqrt ((∑ k, (r k - (∑ j, r j) * (1 / 768)) * (r k - (∑ j, r j) * (1 / 768))) * (1 / 768) + p))⁻¹ : ℝ) : EReal) := by
  have hpos : 0 < (∑ k, (r k - (∑ j, r j) * (1 / 768)) * (r k - (∑ j, r j) * (1 / 768))) * (1 / 768) + p := by
    have := var_nonneg r; linarith
  have hV : (∑ k, (((r k : ℝ) : EReal) - (((∑ j, r j) * (1 / 768) : ℝ) : EReal))
        * (((r k : ℝ) : EReal) - (((∑ j, r j) * (1 / 768) : ℝ) : EReal)))
      = ∑ k, (((r k - (∑ j, r j) * (1 / 768)) * (r k - (∑ j, r j) * (1 / 768)) : ℝ) : EReal) :=
    Finset.sum_congr rfl (fun k _ => by rw [← EReal.coe_sub, ← EReal.coe_mul])
  rw [z0_eq, zero_add, zero_add, mean_eq r, hV,
    mean_eq (fun k => (r k - (∑ j, r j) * (1 / 768)) * (r k - (∑ j, r j) * (1 / 768))), hε, ← EReal.coe_add,
    Ideal.sqrt_coe, if_neg (not_lt.mpr hpos.le), Ideal.div_coe (Real.sqrt_pos.mpr hpos).ne', ← EReal.coe_sub,
    ← EReal.coe_mul]
  simp only [one_div]

/-- On a row of real numbers the one-pass and the two-pass normalisations are one function. -/
theorem lnK_eq_lnR (e g β : Fin 768 → EReal) (he : ∀ k, ∃ r : ℝ, e k = (r : EReal)) :
    Cert.Spec.lnK e g β = Cert.Spec.lnR e g β := by
  choose r hr using he
  obtain rfl : e = fun k => ((r k : ℝ) : EReal) := funext hr
  obtain ⟨p, hp, hε⟩ := eps_eq
  funext h
  unfold Cert.Spec.lnK Cert.Spec.lnR
  beta_reduce
  rw [lnK_real r p hp hε h, lnR_real r p hp hε h]

end Cert.LnLaw

end
-- ==== Proof.Bridge.lean ====
/-
  On real-valued inputs the kernel's and the reference's result arrays are one function. Every entry of a row of the
  embedding is a sum of three reals, hence a real, and on a row of reals the one-pass and the two-pass normalisations
  agree.
-/
import proofs.«128766_g41644002902592_cont_8to1_b_1119_19_alg».proof.Proof.Spec
import proofs.«128766_g41644002902592_cont_8to1_b_1119_19_alg».proof.Proof.LnLaw

noncomputable section

namespace Cert.Bridge

open Idealize.ShloMosaic Idealize.ShloMosaic.ValueIdx

/-- A row of the embedding of real-valued arrays is real-valued. -/
theorem row_real (x : (⟨3, ![4, 8192, 768]⟩ : Shape).Idx → EReal) (tt : (⟨2, ![2, 768]⟩ : Shape).Idx → EReal)
    (pos : (⟨2, ![8194, 768]⟩ : Shape).Idx → EReal)
    (hx : ∀ i, ∃ r : ℝ, x i = (r : EReal)) (htt : ∀ i, ∃ r : ℝ, tt i = (r : EReal))
    (hpos : ∀ i, ∃ r : ℝ, pos i = (r : EReal)) (b : Fin 4) (s : Fin 8192) (k : Fin 768) :
    ∃ r : ℝ, Cert.Spec.row x tt pos b s k = (r : EReal) := by
  obtain ⟨rx, ex⟩ := hx (ix3 b s k)
  obtain ⟨rp, ep⟩ := hpos (ix2 (⟨s.val + 2, by omega⟩ : Fin 8194) k)
  obtain ⟨rt, et⟩ := htt (ix2 (0 : Fin 2) k)
  refine ⟨rx + (rp + rt), ?_⟩
  unfold Cert.Spec.row
  rw [ex, ep, et, EReal.coe_add, EReal.coe_add]

/-- On real-valued inputs the kernel's and the reference's result arrays are one function: every row of the embedding is real, and on a real row the two normalisations agree. -/
theorem GK_eq_GR (x : (⟨3, ![4, 8192, 768]⟩ : Shape).Idx → EReal) (tt : (⟨2, ![2, 768]⟩ : Shape).Idx → EReal) (pos : (⟨2, ![8194, 768]⟩ : Shape).Idx → EReal) (g β : (⟨1, ![768]⟩ : Shape).Idx → EReal)
    (hx : ∀ i, ∃ r : ℝ, x i = (r : EReal)) (htt : ∀ i, ∃ r : ℝ, tt i = (r : EReal)) (hpos : ∀ i, ∃ r : ℝ, pos i = (r : EReal)) :
    Cert.Spec.GK x tt pos g β = Cert.Spec.GR x tt pos g β := by
  funext i
  unfold Cert.Spec.GK Cert.Spec.GR
  exact congrFun (Cert.LnLaw.lnK_eq_lnR _ _ _ fun k => row_real x tt pos hx htt hpos _ _ k) _

end Cert.Bridge

end
-- ==== Proof.lean ====
/-
  The certificate's proof. The kernel adds to every row of the input the position table's row two below and the
  token-type table's row 0, and normalises the row with the one-pass variance E[e²] − E[e]² and a reciprocal square
  root; the reference gathers the same two rows, adds them, and normalises with the two-pass variance
  E[(e − E[e])²] and a quotient by the square root. Under the precondition every input is a real number, every row
  of the sum is real, and on a real row the two normalisations are one function: the two variances are the same
  non-negative real, the offset added to it is positive, and on a positive real the reciprocal square root is the
  inverse of the square root.
  The frames: the kernel's pipeline reads the position table through two windows (blocks of 512 rows, and blocks of
  8 rows starting 512 rows further on), so the table's share is dealt in halves between them; neither window's
  blocks tile the table's 8194 rows, and the body reads of the second window only the two rows every fetch fills.
  The reference's run is its host operations in order, the outlined gathers listed at their call sites.
-/
import proofs.«128766_g41644002902592_cont_8to1_b_1119_19_alg».proof.Defs
import proofs.«128766_g41644002902592_cont_8to1_b_1119_19_alg».proof.Proof.Gen.Kernel
import proofs.«128766_g41644002902592_cont_8to1_b_1119_19_alg».proof.Proof.Gen.KernelIdeal
import proofs.«128766_g41644002902592_cont_8to1_b_1119_19_alg».proof.Proof.Gen.ReferenceIdeal
import proofs.«128766_g41644002902592_cont_8to1_b_1119_19_alg».proof.Proof.Gen.Pre_finite_inputs
import proofs.«128766_g41644002902592_cont_8to1_b_1119_19_alg».proof.Proof.KFrameB
import proofs.«128766_g41644002902592_cont_8to1_b_1119_19_alg».proof.Proof.KFrameI
import proofs.«128766_g41644002902592_cont_8to1_b_1119_19_alg».proof.Proof.KValueI
import proofs.«128766_g41644002902592_cont_8to1_b_1119_19_alg».proof.Proof.RefRun
import proofs.«128766_g41644002902592_cont_8to1_b_1119_19_alg».proof.Proof.RefValue
import proofs.«128766_g41644002902592_cont_8to1_b_1119_19_alg».proof.Proof.Finite
import proofs.«128766_g41644002902592_cont_8to1_b_1119_19_alg».proof.Proof.Bridge
import Idealize.ShloMosaic.Adequacy
import Idealize.ShloMosaic.Init

noncomputable section

namespace Cert.Proof

open Idealize.ShloMosaic Idealize.SL.Sem

/-- The kernel as printed runs to the end, faults nowhere and leaves its arguments as launched. -/
theorem frame_k : Cert.frame_Kernel := fun m ρ _ => Cert.Kernel.Hand.frame m ρ

/-- So does the kernel read at the ideal values. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.RefRun.run m ρ)

/-- The ideal pass rewrote nothing. -/
theorem preserves : Cert.preserves_Kernel_KernelIdeal := trivial

/-- From memories that agree on the arguments, both programs end with the kernel's function of the argument arrays:
    the kernel by its sixteen write-backs, the reference by its run read at an index, the two functions equal on
    real inputs. -/
theorem algebraic : Cert.algebraic_KernelIdeal_ReferenceIdeal := by
  intro m ρ m' ρ' hpre hagree
  refine ⟨fun c => Cert.Spec.GK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨((h c).1 6).trans (Cert.KernelIdeal.Hand.final6 m c), Cert.KernelIdeal.Hand.args_kept m c r h⟩)
      (Cert.KernelIdeal.Hand.run_main (F := Ideal) m ρ)
  · refine (θ_run Cert.ReferenceIdeal.defs _ _).mono (fun r h c => ⟨?_, (h c).2⟩) (Cert.RefRun.run m' ρ')
    obtain ⟨hx, htt, hpos⟩ := Cert.Finite.reals_of_pre m hpre c
    rw [(h c).1, Cert.RefValue.out_eq_GR, (hagree c).1, (hagree c).2.1, (hagree c).2.2.1, (hagree c).2.2.2.1, (hagree c).2.2.2.2]
    exact (Cert.Bridge.GK_eq_GR _ _ _ _ _ hx htt hpos).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
